-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_261760" .f32 0x36803012#32 ((1 / 261760 : ℝ) : EReal)
  ∧ IdealRules.named_const.Statement Cert.KernelIdeal.κ "inv_261248" .f32 0x36807062#32 ((1 / 261248 : ℝ) : EReal)
  ∧ IdealRules.named_const.Statement Cert.KernelIdeal.κ "inv_260224" .f32 0x3680F1C5#32 ((1 / 260224 : ℝ) : EReal)
  ∧ IdealRules.named_const.Statement Cert.KernelIdeal.κ "inv_258176" .f32 0x3681F7A0#32 ((1 / 258176 : ℝ) : EReal)
  ∧ IdealRules.named_const.Statement Cert.KernelIdeal.κ "inv_254080" .f32 0x36840FFE#32 ((1 / 254080 : ℝ) : EReal)
  ∧ IdealRules.named_const.Statement Cert.KernelIdeal.κ "inv_245888" .f32 0x36887657#32 ((1 / 245888 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v367) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2x2048 : Shape := ⟨3, ![64, 2, 2048]⟩
abbrev S_ : Shape := ⟨0, ![]⟩

class Facts : Prop where
  bcast_S_S64x2x2048 : S_.BroadcastsInDim S64x2x2048 (![] : Fin 0 → Fin S64x2x2048.rank)
  reducesTo_S64x2x2048_S_d0_1_2 : S64x2x2048.ReducesTo [0, 1, 2] S_
  h_S_ : 0 < S_.numel

variable [Facts]

def fn {F : FTy → Type} [FloatOps F] (main_arg0 : FVec F S64x2x2048 .f32) (main_arg1 : FVec F S64x2x2048 .f32) : IVec S_ 1 :=
  let main_v0 : FVec F S64x2x2048 .f32 := Host.absf main_arg0
  let main_cst : FVec F S_ .f32 := constant S_ .f32 0x7F800000#32
  let main_v1 : FVec F S64x2x2048 .f32 := broadcastInDim S64x2x2048 ![] bcast_S_S64x2x2048 main_cst
  let main_v2 : IVec S64x2x2048 1 := cmpf .olt main_v0 main_v1
  let main_c : IVec S_ 1 := constantI S_ 1 1#1
  let main_v3 : IVec S_ 1 := (fun x v => Host.reduce IntOp.andi x v reducesTo_S64x2x2048_S_d0_1_2 h_S_) main_v2 main_c
  let main_v4 : FVec F S64x2x2048 .f32 := Host.absf main_arg1
  let main_cst_0 : FVec F S_ .f32 := constant S_ .f32 0x7F800000#32
  let main_v5 : FVec F S64x2x2048 .f32 := broadcastInDim S64x2x2048 ![] bcast_S_S64x2x2048 main_cst_0
  let main_v6 : IVec S64x2x2048 1 := cmpf .olt main_v4 main_v5
  let main_c_1 : IVec S_ 1 := constantI S_ 1 1#1
  let main_v7 : IVec S_ 1 := (fun x v => Host.reduce IntOp.andi x v reducesTo_S64x2x2048_S_d0_1_2 h_S_) main_v6 main_c_1
  let main_v8 : IVec S_ 1 := andi main_v3 main_v7
  main_v8
-- ==== Kernel.lean ====
abbrev S64x2x2048 : Shape := ⟨3, ![64, 2, 2048]⟩
abbrev S128x2048 : Shape := ⟨2, ![128, 2048]⟩
abbrev S16x128 : Shape := ⟨2, ![16, 128]⟩
abbrev S64x2048 : Shape := ⟨2, ![64, 2048]⟩
abbrev S8x128 : Shape := ⟨2, ![8, 128]⟩
abbrev S64x1 : Shape := ⟨2, ![64, 1]⟩
abbrev S64x2047 : Shape := ⟨2, ![64, 2047]⟩
abbrev S64x2045 : Shape := ⟨2, ![64, 2045]⟩
abbrev S64 : Shape := ⟨1, ![64]⟩
abbrev S64x2041 : Shape := ⟨2, ![64, 2041]⟩
abbrev S64x2033 : Shape := ⟨2, ![64, 2033]⟩
abbrev S64x2017 : Shape := ⟨2, ![64, 2017]⟩
abbrev S64x1985 : Shape := ⟨2, ![64, 1985]⟩
abbrev S64x1921 : Shape := ⟨2, ![64, 1921]⟩
abbrev S1 : Shape := ⟨1, ![1]⟩
abbrev S1x1 : Shape := ⟨2, ![1, 1]⟩
abbrev S_ : Shape := ⟨0, ![]⟩

abbrev nBuf : Space → Nat
  | .hbm => 10
  | .vmem => 6
  | .smem => 0
  | _ => 0

abbrev bufTy : (tb : Table) → Fin (tcTables nBuf tb) → BufTy
  | .hbm, ⟨0, _⟩ => ⟨S64x2x2048, .f32⟩
  | .hbm, ⟨1, _⟩ => ⟨S64x2x2048, .f32⟩
  | .hbm, ⟨2, _⟩ => ⟨S128x2048, .f32⟩
  | .hbm, ⟨3, _⟩ => ⟨S128x2048, .f32⟩
  | .hbm, ⟨4, _⟩ => ⟨S16x128, .f32⟩
  | .hbm, ⟨5, _⟩ => ⟨S1x1, .f32⟩
  | .hbm, ⟨6, _⟩ => ⟨S_, .f32⟩
  | .hbm, ⟨7, _⟩ => ⟨S1x1, .f32⟩
  | .hbm, ⟨8, _⟩ => ⟨S_, .f32⟩
  | .hbm, ⟨9, _⟩ => ⟨S_, .f32⟩
  | .local _ .vmem, ⟨0, _⟩ => ⟨S64x2048, .f32⟩
  | .local _ .vmem, ⟨1, _⟩ => ⟨S64x2048, .f32⟩
  | .local _ .vmem, ⟨2, _⟩ => ⟨S64x2048, .f32⟩
  | .local _ .vmem, ⟨3, _⟩ => ⟨S64x2048, .f32⟩
  | .local _ .vmem, ⟨4, _⟩ => ⟨S8x128, .f32⟩
  | .local _ .vmem, ⟨5, _⟩ => ⟨S8x128, .f32⟩
  | _, _ => ⟨S64x2x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S64x2x2048_S128x2048 : S64x2x2048.ShapeCasts S128x2048
  inb_S64x2048_S64x2048_0_0 : ∀ a, (![0, 0] : Fin 2 → Nat) a + S64x2048.size a ≤ S64x2048.size a
  h_S64x2048 : 0 < S64x2048.numel
  shapeCasts_S64x2048_S64x2048 : S64x2048.ShapeCasts S64x2048
  slices_S64x2048_o0_0_S64x2047 : S64x2048.Slices ![0, 0] S64x2047
  slices_S64x2048_o0_1_S64x2047 : S64x2048.Slices ![0, 1] S64x2047
  slices_S64x2047_o0_0_S64x2045 : S64x2047.Slices ![0, 0] S64x2045
  slices_S64x2047_o0_2_S64x2045 : S64x2047.Slices ![0, 2] S64x2045
  reduces_S64x2045_S64 : S64x2045.Reduces [1] S64
  shapeCasts_S64_S64x1 : S64.ShapeCasts S64x1
  slices_S64x2045_o0_0_S64x2041 : S64x2045.Slices ![0, 0] S64x2041
  slices_S64x2045_o0_4_S64x2041 : S64x2045.Slices ![0, 4] S64x2041
  reduces_S64x2041_S64 : S64x2041.Reduces [1] S64
  slices_S64x2041_o0_0_S64x2033 : S64x2041.Slices ![0, 0] S64x2033
  slices_S64x2041_o0_8_S64x2033 : S64x2041.Slices ![0, 8] S64x2033
  reduces_S64x2033_S64 : S64x2033.Reduces [1] S64
  slices_S64x2033_o0_0_S64x2017 : S64x2033.Slices ![0, 0] S64x2017
  slices_S64x2033_o0_16_S64x2017 : S64x2033.Slices ![0, 16] S64x2017
  reduces_S64x2017_S64 : S64x2017.Reduces [1] S64
  slices_S64x2017_o0_0_S64x1985 : S64x2017.Slices ![0, 0] S64x1985
  slices_S64x2017_o0_32_S64x1985 : S64x2017.Slices ![0, 32] S64x1985
  reduces_S64x1985_S64 : S64x1985.Reduces [1] S64
  slices_S64x1985_o0_0_S64x1921 : S64x1985.Slices ![0, 0] S64x1921
  slices_S64x1985_o0_64_S64x1921 : S64x1985.Slices ![0, 64] S64x1921
  reduces_S64x1921_S64 : S64x1921.Reduces [1] S64
  reduces_S64x1_S1 : S64x1.Reduces [0] S1
  shapeCasts_S1_S1x1 : S1.ShapeCasts S1x1
  iota_S8x128_d0_w32 : S8x128.Iotas .tc 32 [0]
  iota_S8x128_d1_w32 : S8x128.Iotas .tc 32 [1]
  shapeCasts_S1x1_S1x1 : S1x1.ShapeCasts S1x1
  broadcasts_S1x1_S8x128 : S1x1.Broadcasts S8x128
  inb_S8x128_S8x128_0_0 : ∀ a, (![0, 0] : Fin 2 → Nat) a + S8x128.size a ≤ S8x128.size a
  h_S8x128 : 0 < S8x128.numel
  slices_S16x128_S1x1_0_0 : S16x128.Slices ![0, 0] S1x1
  shapeCasts_S1x1_S_ : S1x1.ShapeCasts S_
  slices_S16x128_S1x1_8_0 : S16x128.Slices ![8, 0] S1x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x2048.size a ≤ S128x2048.size a
  hwx0_0 : ∀ i : grid0.Coords, EltTy.bits .f32 = 32 ∨ (Rect.block (s := S128x2048) S64x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x2048.size a ≤ S128x2048.size a
  hwx0_1 : ∀ i : grid0.Coords, EltTy.bits .f32 = 32 ∨ (Rect.block (s := S128x2048) S64x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S16x128.size a
  hwx0_2 : ∀ i : grid0.Coords, EltTy.bits .f32 = 32 ∨ (Rect.block (s := S16x128) S8x128.size (cc0_transform_2 i) (hinb0_2 i)).WholeWords (EltTy.packing .f32)

variable [Facts₀]

abbrev win0_0 : Pipeline.Window sig grid0 :=
  Pipeline.Window.ofSpec (Memref.whole main_v0) S64x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S64x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x2x2048 : Shape := ⟨3, ![64, 2, 2048]⟩
abbrev S2045 : Shape := ⟨1, ![2045]⟩
abbrev S2045x1 : Shape := ⟨2, ![2045, 1]⟩
abbrev S4 : Shape := ⟨1, ![4]⟩
abbrev S1x4 : Shape := ⟨2, ![1, 4]⟩
abbrev S2045x4 : Shape := ⟨2, ![2045, 4]⟩
abbrev S_ : Shape := ⟨0, ![]⟩
abbrev S2045x4x1 : Shape := ⟨3, ![2045, 4, 1]⟩
abbrev S64x2x2045x4 : Shape := ⟨4, ![64, 2, 2045, 4]⟩
abbrev S64x2x2045 : Shape := ⟨3, ![64, 2, 2045]⟩
abbrev S64x2x2045x1 : Shape := ⟨4, ![64, 2, 2045, 1]⟩
abbrev S2041 : Shape := ⟨1, ![2041]⟩
abbrev S2041x1 : Shape := ⟨2, ![2041, 1]⟩
abbrev S8 : Shape := ⟨1, ![8]⟩
abbrev S1x8 : Shape := ⟨2, ![1, 8]⟩
abbrev S2041x8 : Shape := ⟨2, ![2041, 8]⟩
abbrev S2041x8x1 : Shape := ⟨3, ![2041, 8, 1]⟩
abbrev S64x2x2041x8 : Shape := ⟨4, ![64, 2, 2041, 8]⟩
abbrev S64x2x2041 : Shape := ⟨3, ![64, 2, 2041]⟩
abbrev S64x2x2041x1 : Shape := ⟨4, ![64, 2, 2041, 1]⟩
abbrev S2033 : Shape := ⟨1, ![2033]⟩
abbrev S2033x1 : Shape := ⟨2, ![2033, 1]⟩
abbrev S16 : Shape := ⟨1, ![16]⟩
abbrev S1x16 : Shape := ⟨2, ![1, 16]⟩
abbrev S2033x16 : Shape := ⟨2, ![2033, 16]⟩
abbrev S2033x16x1 : Shape := ⟨3, ![2033, 16, 1]⟩
abbrev S64x2x2033x16 : Shape := ⟨4, ![64, 2, 2033, 16]⟩
abbrev S64x2x2033 : Shape := ⟨3, ![64, 2, 2033]⟩
abbrev S64x2x2033x1 : Shape := ⟨4, ![64, 2, 2033, 1]⟩
abbrev S2017 : Shape := ⟨1, ![2017]⟩
abbrev S2017x1 : Shape := ⟨2, ![2017, 1]⟩
abbrev S32 : Shape := ⟨1, ![32]⟩
abbrev S1x32 : Shape := ⟨2, ![1, 32]⟩
abbrev S2017x32 : Shape := ⟨2, ![2017, 32]⟩
abbrev S2017x32x1 : Shape := ⟨3, ![2017, 32, 1]⟩
abbrev S64x2x2017x32 : Shape := ⟨4, ![64, 2, 2017, 32]⟩
abbrev S64x2x2017 : Shape := ⟨3, ![64, 2, 2017]⟩
abbrev S64x2x2017x1 : Shape := ⟨4, ![64, 2, 2017, 1]⟩
abbrev S1985 : Shape := ⟨1, ![1985]⟩
abbrev S1985x1 : Shape := ⟨2, ![1985, 1]⟩
abbrev S64 : Shape := ⟨1, ![64]⟩
abbrev S1x64 : Shape := ⟨2, ![1, 64]⟩
abbrev S1985x64 : Shape := ⟨2, ![1985, 64]⟩
abbrev S1985x64x1 : Shape := ⟨3, ![1985, 64, 1]⟩
abbrev S64x2x1985x64 : Shape := ⟨4, ![64, 2, 1985, 64]⟩
abbrev S64x2x1985 : Shape := ⟨3, ![64, 2, 1985]⟩
abbrev S64x2x1985x1 : Shape := ⟨4, ![64, 2, 1985, 1]⟩
abbrev S1921 : Shape := ⟨1, ![1921]⟩
abbrev S1921x1 : Shape := ⟨2, ![1921, 1]⟩
abbrev S128 : Shape := ⟨1, ![128]⟩
abbrev S1x128 : Shape := ⟨2, ![1, 128]⟩
abbrev S1921x128 : Shape := ⟨2, ![1921, 128]⟩
abbrev S1921x128x1 : Shape := ⟨3, ![1921, 128, 1]⟩
abbrev S64x2x1921x128 : Shape := ⟨4, ![64, 2, 1921, 128]⟩
abbrev S64x2x1921 : Shape := ⟨3, ![64, 2, 1921]⟩
abbrev S64x2x1921x1 : Shape := ⟨4, ![64, 2, 1921, 1]⟩
abbrev S1 : Shape := ⟨1, ![1]⟩
abbrev S6 : Shape := ⟨1, ![6]⟩

abbrev nBuf : Space → Nat
  | .hbm => 623
  | .vmem => 0
  | .smem => 0
  | _ => 0

abbrev hbmTy0_0 (i : Nat) : BufTy := match i % 128 with
  | 0 => ⟨S64x2x2048, .f32⟩
  | 1 => ⟨S64x2x2048, .f32⟩
  | 2 => ⟨S2045, .i32⟩
  | 3 => ⟨S2045x1, .i32⟩
  | 4 => ⟨S4, .i32⟩
  | 5 => ⟨S1x4, .i32⟩
  | 6 => ⟨S2045x4, .i32⟩
  | 7 => ⟨S2045x4, .i32⟩
  | 8 => ⟨S2045x4, .i32⟩
  | 9 => ⟨S_, .i32⟩
  | 10 => ⟨S2045x4, .i32⟩
  | 11 => ⟨S2045x4, .i1⟩
  | 12 => ⟨S_, .i32⟩
  | 13 => ⟨S2045x4, .i32⟩
  | 14 => ⟨S2045x4, .i32⟩
  | 15 => ⟨S2045x4, .i32⟩
  | 16 => ⟨S2045x4x1, .i32⟩
  | 17 => ⟨S64x2x2045x4, .f32⟩
  | 18 => ⟨S_, .f32⟩
  | 19 => ⟨S64x2x2045, .f32⟩
  | 20 => ⟨S_, .f32⟩
  | 21 => ⟨S64x2x2045, .f32⟩
  | 22 => ⟨S64x2x2045, .f32⟩
  | 23 => ⟨S64x2x2045x1, .f32⟩
  | 24 => ⟨S64x2x2045x4, .f32⟩
  | 25 => ⟨S64x2x2045x4, .f32⟩
  | 26 => ⟨S64x2x2045x4, .f32⟩
  | 27 => ⟨S_, .f32⟩
  | 28 => ⟨S64x2x2045, .f32⟩
  | 29 => ⟨S64x2x2045x1, .f32⟩
  | 30 => ⟨S64x2x2045x4, .f32⟩
  | 31 => ⟨S64x2x2045x4, .f32⟩
  | 32 => ⟨S_, .f32⟩
  | 33 => ⟨S64x2x2045, .f32⟩
  | 34 => ⟨S_, .f32⟩
  | 35 => ⟨S64x2x2045, .f32⟩
  | 36 => ⟨S64x2x2045, .f32⟩
  | 37 => ⟨S64x2x2045x1, .f32⟩
  | 38 => ⟨S64x2x2045x4, .f32⟩
  | 39 => ⟨S64x2x2045x4, .f32⟩
  | 40 => ⟨S64x2x2045x4, .f32⟩
  | 41 => ⟨S_, .f32⟩
  | 42 => ⟨S64x2x2045, .f32⟩
  | 43 => ⟨S64x2x2045x1, .f32⟩
  | 44 => ⟨S64x2x2045x1, .f32⟩
  | 45 => ⟨S64x2x2045x4, .f32⟩
  | 46 => ⟨S64x2x2045x4, .f32⟩
  | 47 => ⟨S64x2x2045x4, .f32⟩
  | 48 => ⟨S_, .f32⟩
  | 49 => ⟨S64x2x2045, .f32⟩
  | 50 => ⟨S2045, .i32⟩
  | 51 => ⟨S2045x1, .i32⟩
  | 52 => ⟨S4, .i32⟩
  | 53 => ⟨S1x4, .i32⟩
  | 54 => ⟨S2045x4, .i32⟩
  | 55 => ⟨S2045x4, .i32⟩
  | 56 => ⟨S2045x4, .i32⟩
  | 57 => ⟨S_, .i32⟩
  | 58 => ⟨S2045x4, .i32⟩
  | 59 => ⟨S2045x4, .i1⟩
  | 60 => ⟨S_, .i32⟩
  | 61 => ⟨S2045x4, .i32⟩
  | 62 => ⟨S2045x4, .i32⟩
  | 63 => ⟨S2045x4, .i32⟩
  | 64 => ⟨S2045x4x1, .i32⟩
  | 65 => ⟨S64x2x2045x4, .f32⟩
  | 66 => ⟨S_, .f32⟩
  | 67 => ⟨S64x2x2045, .f32⟩
  | 68 => ⟨S_, .f32⟩
  | 69 => ⟨S64x2x2045, .f32⟩
  | 70 => ⟨S64x2x2045, .f32⟩
  | 71 => ⟨S64x2x2045x1, .f32⟩
  | 72 => ⟨S64x2x2045x4, .f32⟩
  | 73 => ⟨S64x2x2045x4, .f32⟩
  | 74 => ⟨S64x2x2045x4, .f32⟩
  | 75 => ⟨S_, .f32⟩
  | 76 => ⟨S64x2x2045, .f32⟩
  | 77 => ⟨S64x2x2045x1, .f32⟩
  | 78 => ⟨S64x2x2045x4, .f32⟩
  | 79 => ⟨S64x2x2045x4, .f32⟩
  | 80 => ⟨S_, .f32⟩
  | 81 => ⟨S64x2x2045, .f32⟩
  | 82 => ⟨S_, .f32⟩
  | 83 => ⟨S64x2x2045, .f32⟩
  | 84 => ⟨S64x2x2045, .f32⟩
  | 85 => ⟨S64x2x2045x1, .f32⟩
  | 86 => ⟨S64x2x2045x4, .f32⟩
  | 87 => ⟨S64x2x2045x4, .f32⟩
  | 88 => ⟨S64x2x2045x4, .f32⟩
  | 89 => ⟨S_, .f32⟩
  | 90 => ⟨S64x2x2045, .f32⟩
  | 91 => ⟨S64x2x2045x1, .f32⟩
  | 92 => ⟨S64x2x2045x1, .f32⟩
  | 93 => ⟨S64x2x2045x4, .f32⟩
  | 94 => ⟨S64x2x2045x4, .f32⟩
  | 95 => ⟨S64x2x2045x4, .f32⟩
  | 96 => ⟨S_, .f32⟩
  | 97 => ⟨S64x2x2045, .f32⟩
  | 98 => ⟨S64x2x2045, .f32⟩
  | 99 => ⟨S64x2x2045, .f32⟩
  | 100 => ⟨S_, .f32⟩
  | 101 => ⟨S_, .f32⟩
  | 102 => ⟨S_, .f32⟩
  | 103 => ⟨S_, .f32⟩
  | 104 => ⟨S2041, .i32⟩
  | 105 => ⟨S2041x1, .i32⟩
  | 106 => ⟨S8, .i32⟩
  | 107 => ⟨S1x8, .i32⟩
  | 108 => ⟨S2041x8, .i32⟩
  | 109 => ⟨S2041x8, .i32⟩
  | 110 => ⟨S2041x8, .i32⟩
  | 111 => ⟨S_, .i32⟩
  | 112 => ⟨S2041x8, .i32⟩
  | 113 => ⟨S2041x8, .i1⟩
  | 114 => ⟨S_, .i32⟩
  | 115 => ⟨S2041x8, .i32⟩
  | 116 => ⟨S2041x8, .i32⟩
  | 117 => ⟨S2041x8, .i32⟩
  | 118 => ⟨S2041x8x1, .i32⟩
  | 119 => ⟨S64x2x2041x8, .f32⟩
  | 120 => ⟨S_, .f32⟩
  | 121 => ⟨S64x2x2041, .f32⟩
  | 122 => ⟨S_, .f32⟩
  | 123 => ⟨S64x2x2041, .f32⟩
  | 124 => ⟨S64x2x2041, .f32⟩
  | 125 => ⟨S64x2x2041x1, .f32⟩
  | 126 => ⟨S64x2x2041x8, .f32⟩
  | 127 => ⟨S64x2x2041x8, .f32⟩
  | _ => ⟨S64x2x2048, .f32⟩

abbrev hbmTy0_1 (i : Nat) : BufTy := match i % 128 with
  | 0 => ⟨S64x2x2041x8, .f32⟩
  | 1 => ⟨S_, .f32⟩
  | 2 => ⟨S64x2x2041, .f32⟩
  | 3 => ⟨S64x2x2041x1, .f32⟩
  | 4 => ⟨S64x2x2041x8, .f32⟩
  | 5 => ⟨S64x2x2041x8, .f32⟩
  | 6 => ⟨S_, .f32⟩
  | 7 => ⟨S64x2x2041, .f32⟩
  | 8 => ⟨S_, .f32⟩
  | 9 => ⟨S64x2x2041, .f32⟩
  | 10 => ⟨S64x2x2041, .f32⟩
  | 11 => ⟨S64x2x2041x1, .f32⟩
  | 12 => ⟨S64x2x2041x8, .f32⟩
  | 13 => ⟨S64x2x2041x8, .f32⟩
  | 14 => ⟨S64x2x2041x8, .f32⟩
  | 15 => ⟨S_, .f32⟩
  | 16 => ⟨S64x2x2041, .f32⟩
  | 17 => ⟨S64x2x2041x1, .f32⟩
  | 18 => ⟨S64x2x2041x1, .f32⟩
  | 19 => ⟨S64x2x2041x8, .f32⟩
  | 20 => ⟨S64x2x2041x8, .f32⟩
  | 21 => ⟨S64x2x2041x8, .f32⟩
  | 22 => ⟨S_, .f32⟩
  | 23 => ⟨S64x2x2041, .f32⟩
  | 24 => ⟨S2041, .i32⟩
  | 25 => ⟨S2041x1, .i32⟩
  | 26 => ⟨S8, .i32⟩
  | 27 => ⟨S1x8, .i32⟩
  | 28 => ⟨S2041x8, .i32⟩
  | 29 => ⟨S2041x8, .i32⟩
  | 30 => ⟨S2041x8, .i32⟩
  | 31 => ⟨S_, .i32⟩
  | 32 => ⟨S2041x8, .i32⟩
  | 33 => ⟨S2041x8, .i1⟩
  | 34 => ⟨S_, .i32⟩
  | 35 => ⟨S2041x8, .i32⟩
  | 36 => ⟨S2041x8, .i32⟩
  | 37 => ⟨S2041x8, .i32⟩
  | 38 => ⟨S2041x8x1, .i32⟩
  | 39 => ⟨S64x2x2041x8, .f32⟩
  | 40 => ⟨S_, .f32⟩
  | 41 => ⟨S64x2x2041, .f32⟩
  | 42 => ⟨S_, .f32⟩
  | 43 => ⟨S64x2x2041, .f32⟩
  | 44 => ⟨S64x2x2041, .f32⟩
  | 45 => ⟨S64x2x2041x1, .f32⟩
  | 46 => ⟨S64x2x2041x8, .f32⟩
  | 47 => ⟨S64x2x2041x8, .f32⟩
  | 48 => ⟨S64x2x2041x8, .f32⟩
  | 49 => ⟨S_, .f32⟩
  | 50 => ⟨S64x2x2041, .f32⟩
  | 51 => ⟨S64x2x2041x1, .f32⟩
  | 52 => ⟨S64x2x2041x8, .f32⟩
  | 53 => ⟨S64x2x2041x8, .f32⟩
  | 54 => ⟨S_, .f32⟩
  | 55 => ⟨S64x2x2041, .f32⟩
  | 56 => ⟨S_, .f32⟩
  | 57 => ⟨S64x2x2041, .f32⟩
  | 58 => ⟨S64x2x2041, .f32⟩
  | 59 => ⟨S64x2x2041x1, .f32⟩
  | 60 => ⟨S64x2x2041x8, .f32⟩
  | 61 => ⟨S64x2x2041x8, .f32⟩
  | 62 => ⟨S64x2x2041x8, .f32⟩
  | 63 => ⟨S_, .f32⟩
  | 64 => ⟨S64x2x2041, .f32⟩
  | 65 => ⟨S64x2x2041x1, .f32⟩
  | 66 => ⟨S64x2x2041x1, .f32⟩
  | 67 => ⟨S64x2x2041x8, .f32⟩
  | 68 => ⟨S64x2x2041x8, .f32⟩
  | 69 => ⟨S64x2x2041x8, .f32⟩
  | 70 => ⟨S_, .f32⟩
  | 71 => ⟨S64x2x2041, .f32⟩
  | 72 => ⟨S64x2x2041, .f32⟩
  | 73 => ⟨S64x2x2041, .f32⟩
  | 74 => ⟨S_, .f32⟩
  | 75 => ⟨S_, .f32⟩
  | 76 => ⟨S_, .f32⟩
  | 77 => ⟨S_, .f32⟩
  | 78 => ⟨S2033, .i32⟩
  | 79 => ⟨S2033x1, .i32⟩
  | 80 => ⟨S16, .i32⟩
  | 81 => ⟨S1x16, .i32⟩
  | 82 => ⟨S2033x16, .i32⟩
  | 83 => ⟨S2033x16, .i32⟩
  | 84 => ⟨S2033x16, .i32⟩
  | 85 => ⟨S_, .i32⟩
  | 86 => ⟨S2033x16, .i32⟩
  | 87 => ⟨S2033x16, .i1⟩
  | 88 => ⟨S_, .i32⟩
  | 89 => ⟨S2033x16, .i32⟩
  | 90 => ⟨S2033x16, .i32⟩
  | 91 => ⟨S2033x16, .i32⟩
  | 92 => ⟨S2033x16x1, .i32⟩
  | 93 => ⟨S64x2x2033x16, .f32⟩
  | 94 => ⟨S_, .f32⟩
  | 95 => ⟨S64x2x2033, .f32⟩
  | 96 => ⟨S_, .f32⟩
  | 97 => ⟨S64x2x2033, .f32⟩
  | 98 => ⟨S64x2x2033, .f32⟩
  | 99 => ⟨S64x2x2033x1, .f32⟩
  | 100 => ⟨S64x2x2033x16, .f32⟩
  | 101 => ⟨S64x2x2033x16, .f32⟩
  | 102 => ⟨S64x2x2033x16, .f32⟩
  | 103 => ⟨S_, .f32⟩
  | 104 => ⟨S64x2x2033, .f32⟩
  | 105 => ⟨S64x2x2033x1, .f32⟩
  | 106 => ⟨S64x2x2033x16, .f32⟩
  | 107 => ⟨S64x2x2033x16, .f32⟩
  | 108 => ⟨S_, .f32⟩
  | 109 => ⟨S64x2x2033, .f32⟩
  | 110 => ⟨S_, .f32⟩
  | 111 => ⟨S64x2x2033, .f32⟩
  | 112 => ⟨S64x2x2033, .f32⟩
  | 113 => ⟨S64x2x2033x1, .f32⟩
  | 114 => ⟨S64x2x2033x16, .f32⟩
  | 115 => ⟨S64x2x2033x16, .f32⟩
  | 116 => ⟨S64x2x2033x16, .f32⟩
  | 117 => ⟨S_, .f32⟩
  | 118 => ⟨S64x2x2033, .f32⟩
  | 119 => ⟨S64x2x2033x1, .f32⟩
  | 120 => ⟨S64x2x2033x1, .f32⟩
  | 121 => ⟨S64x2x2033x16, .f32⟩
  | 122 => ⟨S64x2x2033x16, .f32⟩
  | 123 => ⟨S64x2x2033x16, .f32⟩
  | 124 => ⟨S_, .f32⟩
  | 125 => ⟨S64x2x2033, .f32⟩
  | 126 => ⟨S2033, .i32⟩
  | 127 => ⟨S2033x1, .i32⟩
  | _ => ⟨S64x2x2048, .f32⟩

abbrev hbmTy0_2 (i : Nat) : BufTy := match i % 128 with
  | 0 => ⟨S16, .i32⟩
  | 1 => ⟨S1x16, .i32⟩
  | 2 => ⟨S2033x16, .i32⟩
  | 3 => ⟨S2033x16, .i32⟩
  | 4 => ⟨S2033x16, .i32⟩
  | 5 => ⟨S_, .i32⟩
  | 6 => ⟨S2033x16, .i32⟩
  | 7 => ⟨S2033x16, .i1⟩
  | 8 => ⟨S_, .i32⟩
  | 9 => ⟨S2033x16, .i32⟩
  | 10 => ⟨S2033x16, .i32⟩
  | 11 => ⟨S2033x16, .i32⟩
  | 12 => ⟨S2033x16x1, .i32⟩
  | 13 => ⟨S64x2x2033x16, .f32⟩
  | 14 => ⟨S_, .f32⟩
  | 15 => ⟨S64x2x2033, .f32⟩
  | 16 => ⟨S_, .f32⟩
  | 17 => ⟨S64x2x2033, .f32⟩
  | 18 => ⟨S64x2x2033, .f32⟩
  | 19 => ⟨S64x2x2033x1, .f32⟩
  | 20 => ⟨S64x2x2033x16, .f32⟩
  | 21 => ⟨S64x2x2033x16, .f32⟩
  | 22 => ⟨S64x2x2033x16, .f32⟩
  | 23 => ⟨S_, .f32⟩
  | 24 => ⟨S64x2x2033, .f32⟩
  | 25 => ⟨S64x2x2033x1, .f32⟩
  | 26 => ⟨S64x2x2033x16, .f32⟩
  | 27 => ⟨S64x2x2033x16, .f32⟩
  | 28 => ⟨S_, .f32⟩
  | 29 => ⟨S64x2x2033, .f32⟩
  | 30 => ⟨S_, .f32⟩
  | 31 => ⟨S64x2x2033, .f32⟩
  | 32 => ⟨S64x2x2033, .f32⟩
  | 33 => ⟨S64x2x2033x1, .f32⟩
  | 34 => ⟨S64x2x2033x16, .f32⟩
  | 35 => ⟨S64x2x2033x16, .f32⟩
  | 36 => ⟨S64x2x2033x16, .f32⟩
  | 37 => ⟨S_, .f32⟩
  | 38 => ⟨S64x2x2033, .f32⟩
  | 39 => ⟨S64x2x2033x1, .f32⟩
  | 40 => ⟨S64x2x2033x1, .f32⟩
  | 41 => ⟨S64x2x2033x16, .f32⟩
  | 42 => ⟨S64x2x2033x16, .f32⟩
  | 43 => ⟨S64x2x2033x16, .f32⟩
  | 44 => ⟨S_, .f32⟩
  | 45 => ⟨S64x2x2033, .f32⟩
  | 46 => ⟨S64x2x2033, .f32⟩
  | 47 => ⟨S64x2x2033, .f32⟩
  | 48 => ⟨S_, .f32⟩
  | 49 => ⟨S_, .f32⟩
  | 50 => ⟨S_, .f32⟩
  | 51 => ⟨S_, .f32⟩
  | 52 => ⟨S2017, .i32⟩
  | 53 => ⟨S2017x1, .i32⟩
  | 54 => ⟨S32, .i32⟩
  | 55 => ⟨S1x32, .i32⟩
  | 56 => ⟨S2017x32, .i32⟩
  | 57 => ⟨S2017x32, .i32⟩
  | 58 => ⟨S2017x32, .i32⟩
  | 59 => ⟨S_, .i32⟩
  | 60 => ⟨S2017x32, .i32⟩
  | 61 => ⟨S2017x32, .i1⟩
  | 62 => ⟨S_, .i32⟩
  | 63 => ⟨S2017x32, .i32⟩
  | 64 => ⟨S2017x32, .i32⟩
  | 65 => ⟨S2017x32, .i32⟩
  | 66 => ⟨S2017x32x1, .i32⟩
  | 67 => ⟨S64x2x2017x32, .f32⟩
  | 68 => ⟨S_, .f32⟩
  | 69 => ⟨S64x2x2017, .f32⟩
  | 70 => ⟨S_, .f32⟩
  | 71 => ⟨S64x2x2017, .f32⟩
  | 72 => ⟨S64x2x2017, .f32⟩
  | 73 => ⟨S64x2x2017x1, .f32⟩
  | 74 => ⟨S64x2x2017x32, .f32⟩
  | 75 => ⟨S64x2x2017x32, .f32⟩
  | 76 => ⟨S64x2x2017x32, .f32⟩
  | 77 => ⟨S_, .f32⟩
  | 78 => ⟨S64x2x2017, .f32⟩
  | 79 => ⟨S64x2x2017x1, .f32⟩
  | 80 => ⟨S64x2x2017x32, .f32⟩
  | 81 => ⟨S64x2x2017x32, .f32⟩
  | 82 => ⟨S_, .f32⟩
  | 83 => ⟨S64x2x2017, .f32⟩
  | 84 => ⟨S_, .f32⟩
  | 85 => ⟨S64x2x2017, .f32⟩
  | 86 => ⟨S64x2x2017, .f32⟩
  | 87 => ⟨S64x2x2017x1, .f32⟩
  | 88 => ⟨S64x2x2017x32, .f32⟩
  | 89 => ⟨S64x2x2017x32, .f32⟩
  | 90 => ⟨S64x2x2017x32, .f32⟩
  | 91 => ⟨S_, .f32⟩
  | 92 => ⟨S64x2x2017, .f32⟩
  | 93 => ⟨S64x2x2017x1, .f32⟩
  | 94 => ⟨S64x2x2017x1, .f32⟩
  | 95 => ⟨S64x2x2017x32, .f32⟩
  | 96 => ⟨S64x2x2017x32, .f32⟩
  | 97 => ⟨S64x2x2017x32, .f32⟩
  | 98 => ⟨S_, .f32⟩
  | 99 => ⟨S64x2x2017, .f32⟩
  | 100 => ⟨S2017, .i32⟩
  | 101 => ⟨S2017x1, .i32⟩
  | 102 => ⟨S32, .i32⟩
  | 103 => ⟨S1x32, .i32⟩
  | 104 => ⟨S2017x32, .i32⟩
  | 105 => ⟨S2017x32, .i32⟩
  | 106 => ⟨S2017x32, .i32⟩
  | 107 => ⟨S_, .i32⟩
  | 108 => ⟨S2017x32, .i32⟩
  | 109 => ⟨S2017x32, .i1⟩
  | 110 => ⟨S_, .i32⟩
  | 111 => ⟨S2017x32, .i32⟩
  | 112 => ⟨S2017x32, .i32⟩
  | 113 => ⟨S2017x32, .i32⟩
  | 114 => ⟨S2017x32x1, .i32⟩
  | 115 => ⟨S64x2x2017x32, .f32⟩
  | 116 => ⟨S_, .f32⟩
  | 117 => ⟨S64x2x2017, .f32⟩
  | 118 => ⟨S_, .f32⟩
  | 119 => ⟨S64x2x2017, .f32⟩
  | 120 => ⟨S64x2x2017, .f32⟩
  | 121 => ⟨S64x2x2017x1, .f32⟩
  | 122 => ⟨S64x2x2017x32, .f32⟩
  | 123 => ⟨S64x2x2017x32, .f32⟩
  | 124 => ⟨S64x2x2017x32, .f32⟩
  | 125 => ⟨S_, .f32⟩
  | 126 => ⟨S64x2x2017, .f32⟩
  | 127 => ⟨S64x2x2017x1, .f32⟩
  | _ => ⟨S64x2x2048, .f32⟩

abbrev hbmTy0_3 (i : Nat) : BufTy := match i % 128 with
  | 0 => ⟨S64x2x2017x32, .f32⟩
  | 1 => ⟨S64x2x2017x32, .f32⟩
  | 2 => ⟨S_, .f32⟩
  | 3 => ⟨S64x2x2017, .f32⟩
  | 4 => ⟨S_, .f32⟩
  | 5 => ⟨S64x2x2017, .f32⟩
  | 6 => ⟨S64x2x2017, .f32⟩
  | 7 => ⟨S64x2x2017x1, .f32⟩
  | 8 => ⟨S64x2x2017x32, .f32⟩
  | 9 => ⟨S64x2x2017x32, .f32⟩
  | 10 => ⟨S64x2x2017x32, .f32⟩
  | 11 => ⟨S_, .f32⟩
  | 12 => ⟨S64x2x2017, .f32⟩
  | 13 => ⟨S64x2x2017x1, .f32⟩
  | 14 => ⟨S64x2x2017x1, .f32⟩
  | 15 => ⟨S64x2x2017x32, .f32⟩
  | 16 => ⟨S64x2x2017x32, .f32⟩
  | 17 => ⟨S64x2x2017x32, .f32⟩
  | 18 => ⟨S_, .f32⟩
  | 19 => ⟨S64x2x2017, .f32⟩
  | 20 => ⟨S64x2x2017, .f32⟩
  | 21 => ⟨S64x2x2017, .f32⟩
  | 22 => ⟨S_, .f32⟩
  | 23 => ⟨S_, .f32⟩
  | 24 => ⟨S_, .f32⟩
  | 25 => ⟨S_, .f32⟩
  | 26 => ⟨S1985, .i32⟩
  | 27 => ⟨S1985x1, .i32⟩
  | 28 => ⟨S64, .i32⟩
  | 29 => ⟨S1x64, .i32⟩
  | 30 => ⟨S1985x64, .i32⟩
  | 31 => ⟨S1985x64, .i32⟩
  | 32 => ⟨S1985x64, .i32⟩
  | 33 => ⟨S_, .i32⟩
  | 34 => ⟨S1985x64, .i32⟩
  | 35 => ⟨S1985x64, .i1⟩
  | 36 => ⟨S_, .i32⟩
  | 37 => ⟨S1985x64, .i32⟩
  | 38 => ⟨S1985x64, .i32⟩
  | 39 => ⟨S1985x64, .i32⟩
  | 40 => ⟨S1985x64x1, .i32⟩
  | 41 => ⟨S64x2x1985x64, .f32⟩
  | 42 => ⟨S_, .f32⟩
  | 43 => ⟨S64x2x1985, .f32⟩
  | 44 => ⟨S_, .f32⟩
  | 45 => ⟨S64x2x1985, .f32⟩
  | 46 => ⟨S64x2x1985, .f32⟩
  | 47 => ⟨S64x2x1985x1, .f32⟩
  | 48 => ⟨S64x2x1985x64, .f32⟩
  | 49 => ⟨S64x2x1985x64, .f32⟩
  | 50 => ⟨S64x2x1985x64, .f32⟩
  | 51 => ⟨S_, .f32⟩
  | 52 => ⟨S64x2x1985, .f32⟩
  | 53 => ⟨S64x2x1985x1, .f32⟩
  | 54 => ⟨S64x2x1985x64, .f32⟩
  | 55 => ⟨S64x2x1985x64, .f32⟩
  | 56 => ⟨S_, .f32⟩
  | 57 => ⟨S64x2x1985, .f32⟩
  | 58 => ⟨S_, .f32⟩
  | 59 => ⟨S64x2x1985, .f32⟩
  | 60 => ⟨S64x2x1985, .f32⟩
  | 61 => ⟨S64x2x1985x1, .f32⟩
  | 62 => ⟨S64x2x1985x64, .f32⟩
  | 63 => ⟨S64x2x1985x64, .f32⟩
  | 64 => ⟨S64x2x1985x64, .f32⟩
  | 65 => ⟨S_, .f32⟩
  | 66 => ⟨S64x2x1985, .f32⟩
  | 67 => ⟨S64x2x1985x1, .f32⟩
  | 68 => ⟨S64x2x1985x1, .f32⟩
  | 69 => ⟨S64x2x1985x64, .f32⟩
  | 70 => ⟨S64x2x1985x64, .f32⟩
  | 71 => ⟨S64x2x1985x64, .f32⟩
  | 72 => ⟨S_, .f32⟩
  | 73 => ⟨S64x2x1985, .f32⟩
  | 74 => ⟨S1985, .i32⟩
  | 75 => ⟨S1985x1, .i32⟩
  | 76 => ⟨S64, .i32⟩
  | 77 => ⟨S1x64, .i32⟩
  | 78 => ⟨S1985x64, .i32⟩
  | 79 => ⟨S1985x64, .i32⟩
  | 80 => ⟨S1985x64, .i32⟩
  | 81 => ⟨S_, .i32⟩
  | 82 => ⟨S1985x64, .i32⟩
  | 83 => ⟨S1985x64, .i1⟩
  | 84 => ⟨S_, .i32⟩
  | 85 => ⟨S1985x64, .i32⟩
  | 86 => ⟨S1985x64, .i32⟩
  | 87 => ⟨S1985x64, .i32⟩
  | 88 => ⟨S1985x64x1, .i32⟩
  | 89 => ⟨S64x2x1985x64, .f32⟩
  | 90 => ⟨S_, .f32⟩
  | 91 => ⟨S64x2x1985, .f32⟩
  | 92 => ⟨S_, .f32⟩
  | 93 => ⟨S64x2x1985, .f32⟩
  | 94 => ⟨S64x2x1985, .f32⟩
  | 95 => ⟨S64x2x1985x1, .f32⟩
  | 96 => ⟨S64x2x1985x64, .f32⟩
  | 97 => ⟨S64x2x1985x64, .f32⟩
  | 98 => ⟨S64x2x1985x64, .f32⟩
  | 99 => ⟨S_, .f32⟩
  | 100 => ⟨S64x2x1985, .f32⟩
  | 101 => ⟨S64x2x1985x1, .f32⟩
  | 102 => ⟨S64x2x1985x64, .f32⟩
  | 103 => ⟨S64x2x1985x64, .f32⟩
  | 104 => ⟨S_, .f32⟩
  | 105 => ⟨S64x2x1985, .f32⟩
  | 106 => ⟨S_, .f32⟩
  | 107 => ⟨S64x2x1985, .f32⟩
  | 108 => ⟨S64x2x1985, .f32⟩
  | 109 => ⟨S64x2x1985x1, .f32⟩
  | 110 => ⟨S64x2x1985x64, .f32⟩
  | 111 => ⟨S64x2x1985x64, .f32⟩
  | 112 => ⟨S64x2x1985x64, .f32⟩
  | 113 => ⟨S_, .f32⟩
  | 114 => ⟨S64x2x1985, .f32⟩
  | 115 => ⟨S64x2x1985x1, .f32⟩
  | 116 => ⟨S64x2x1985x1, .f32⟩
  | 117 => ⟨S64x2x1985x64, .f32⟩
  | 118 => ⟨S64x2x1985x64, .f32⟩
  | 119 => ⟨S64x2x1985x64, .f32⟩
  | 120 => ⟨S_, .f32⟩
  | 121 => ⟨S64x2x1985, .f32⟩
  | 122 => ⟨S64x2x1985, .f32⟩
  | 123 => ⟨S64x2x1985, .f32⟩
  | 124 => ⟨S_, .f32⟩
  | 125 => ⟨S_, .f32⟩
  | 126 => ⟨S_, .f32⟩
  | 127 => ⟨S_, .f32⟩
  | _ => ⟨S64x2x2048, .f32⟩

abbrev hbmTy0_4 (i : Nat) : BufTy := match i % 128 with
  | 0 => ⟨S1921, .i32⟩
  | 1 => ⟨S1921x1, .i32⟩
  | 2 => ⟨S128, .i32⟩
  | 3 => ⟨S1x128, .i32⟩
  | 4 => ⟨S1921x128, .i32⟩
  | 5 => ⟨S1921x128, .i32⟩
  | 6 => ⟨S1921x128, .i32⟩
  | 7 => ⟨S_, .i32⟩
  | 8 => ⟨S1921x128, .i32⟩
  | 9 => ⟨S1921x128, .i1⟩
  | 10 => ⟨S_, .i32⟩
  | 11 => ⟨S1921x128, .i32⟩
  | 12 => ⟨S1921x128, .i32⟩
  | 13 => ⟨S1921x128, .i32⟩
  | 14 => ⟨S1921x128x1, .i32⟩
  | 15 => ⟨S64x2x1921x128, .f32⟩
  | 16 => ⟨S_, .f32⟩
  | 17 => ⟨S64x2x1921, .f32⟩
  | 18 => ⟨S_, .f32⟩
  | 19 => ⟨S64x2x1921, .f32⟩
  | 20 => ⟨S64x2x1921, .f32⟩
  | 21 => ⟨S64x2x1921x1, .f32⟩
  | 22 => ⟨S64x2x1921x128, .f32⟩
  | 23 => ⟨S64x2x1921x128, .f32⟩
  | 24 => ⟨S64x2x1921x128, .f32⟩
  | 25 => ⟨S_, .f32⟩
  | 26 => ⟨S64x2x1921, .f32⟩
  | 27 => ⟨S64x2x1921x1, .f32⟩
  | 28 => ⟨S64x2x1921x128, .f32⟩
  | 29 => ⟨S64x2x1921x128, .f32⟩
  | 30 => ⟨S_, .f32⟩
  | 31 => ⟨S64x2x1921, .f32⟩
  | 32 => ⟨S_, .f32⟩
  | 33 => ⟨S64x2x1921, .f32⟩
  | 34 => ⟨S64x2x1921, .f32⟩
  | 35 => ⟨S64x2x1921x1, .f32⟩
  | 36 => ⟨S64x2x1921x128, .f32⟩
  | 37 => ⟨S64x2x1921x128, .f32⟩
  | 38 => ⟨S64x2x1921x128, .f32⟩
  | 39 => ⟨S_, .f32⟩
  | 40 => ⟨S64x2x1921, .f32⟩
  | 41 => ⟨S64x2x1921x1, .f32⟩
  | 42 => ⟨S64x2x1921x1, .f32⟩
  | 43 => ⟨S64x2x1921x128, .f32⟩
  | 44 => ⟨S64x2x1921x128, .f32⟩
  | 45 => ⟨S64x2x1921x128, .f32⟩
  | 46 => ⟨S_, .f32⟩
  | 47 => ⟨S64x2x1921, .f32⟩
  | 48 => ⟨S1921, .i32⟩
  | 49 => ⟨S1921x1, .i32⟩
  | 50 => ⟨S128, .i32⟩
  | 51 => ⟨S1x128, .i32⟩
  | 52 => ⟨S1921x128, .i32⟩
  | 53 => ⟨S1921x128, .i32⟩
  | 54 => ⟨S1921x128, .i32⟩
  | 55 => ⟨S_, .i32⟩
  | 56 => ⟨S1921x128, .i32⟩
  | 57 => ⟨S1921x128, .i1⟩
  | 58 => ⟨S_, .i32⟩
  | 59 => ⟨S1921x128, .i32⟩
  | 60 => ⟨S1921x128, .i32⟩
  | 61 => ⟨S1921x128, .i32⟩
  | 62 => ⟨S1921x128x1, .i32⟩
  | 63 => ⟨S64x2x1921x128, .f32⟩
  | 64 => ⟨S_, .f32⟩
  | 65 => ⟨S64x2x1921, .f32⟩
  | 66 => ⟨S_, .f32⟩
  | 67 => ⟨S64x2x1921, .f32⟩
  | 68 => ⟨S64x2x1921, .f32⟩
  | 69 => ⟨S64x2x1921x1, .f32⟩
  | 70 => ⟨S64x2x1921x128, .f32⟩
  | 71 => ⟨S64x2x1921x128, .f32⟩
  | 72 => ⟨S64x2x1921x128, .f32⟩
  | 73 => ⟨S_, .f32⟩
  | 74 => ⟨S64x2x1921, .f32⟩
  | 75 => ⟨S64x2x1921x1, .f32⟩
  | 76 => ⟨S64x2x1921x128, .f32⟩
  | 77 => ⟨S64x2x1921x128, .f32⟩
  | 78 => ⟨S_, .f32⟩
  | 79 => ⟨S64x2x1921, .f32⟩
  | 80 => ⟨S_, .f32⟩
  | 81 => ⟨S64x2x1921, .f32⟩
  | 82 => ⟨S64x2x1921, .f32⟩
  | 83 => ⟨S64x2x1921x1, .f32⟩
  | 84 => ⟨S64x2x1921x128, .f32⟩
  | 85 => ⟨S64x2x1921x128, .f32⟩
  | 86 => ⟨S64x2x1921x128, .f32⟩
  | 87 => ⟨S_, .f32⟩
  | 88 => ⟨S64x2x1921, .f32⟩
  | 89 => ⟨S64x2x1921x1, .f32⟩
  | 90 => ⟨S64x2x1921x1, .f32⟩
  | 91 => ⟨S64x2x1921x128, .f32⟩
  | 92 => ⟨S64x2x1921x128, .f32⟩
  | 93 => ⟨S64x2x1921x128, .f32⟩
  | 94 => ⟨S_, .f32⟩
  | 95 => ⟨S64x2x1921, .f32⟩
  | 96 => ⟨S64x2x1921, .f32⟩
  | 97 => ⟨S64x2x1921, .f32⟩
  | 98 => ⟨S_, .f32⟩
  | 99 => ⟨S_, .f32⟩
  | 100 => ⟨S_, .f32⟩
  | 101 => ⟨S_, .f32⟩
  | 102 => ⟨S1, .f32⟩
  | 103 => ⟨S1, .f32⟩
  | 104 => ⟨S1, .f32⟩
  | 105 => ⟨S1, .f32⟩
  | 106 => ⟨S1, .f32⟩
  | 107 => ⟨S1, .f32⟩
  | 108 => ⟨S6, .f32⟩
  | 109 => ⟨S_, .f32⟩
  | 110 => ⟨S_, .f32⟩
  | _ => ⟨S64x2x2048, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S64x2x2048, .f32⟩

abbrev bufTy : (tb : Table) → Fin (tcTables nBuf tb) → BufTy
  | .hbm, ⟨i, _⟩ => hbmTy i
  | _, _ => ⟨S64x2x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_v7 : Ref sig .tc := ⟨.hbm, 10, rfl⟩
abbrev main_v8 : Ref sig .tc := ⟨.hbm, 11, rfl⟩
abbrev main_c_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_call0_cst : Ref sig .tc := ⟨.hbm, 32, rfl⟩
abbrev main_call0_v0 : Ref sig .tc := ⟨.hbm, 33, rfl⟩
abbrev main_call0_cst_0 : Ref sig .tc := ⟨.hbm, 34, rfl⟩
abbrev main_call0_v1 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_call0_v5 : Ref sig .tc := ⟨.hbm, 39, rfl⟩
abbrev main_call0_v6 : Ref sig .tc := ⟨.hbm, 40, rfl⟩
abbrev main_call0_cst_1 : Ref sig .tc := ⟨.hbm, 41, rfl⟩
abbrev main_call0_v7 : Ref sig .tc := ⟨.hbm, 42, rfl⟩
abbrev main_call0_v8 : Ref sig .tc := ⟨.hbm, 43, rfl⟩
abbrev main_call0_v9 : Ref sig .tc := ⟨.hbm, 44, rfl⟩
abbrev main_call0_v10 : Ref sig .tc := ⟨.hbm, 45, rfl⟩
abbrev main_v25 : Ref sig .tc := ⟨.hbm, 46, rfl⟩
abbrev main_v26 : Ref sig .tc := ⟨.hbm, 47, rfl⟩
abbrev main_cst_3 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_c_4 : Ref sig .tc := ⟨.hbm, 57, rfl⟩
abbrev main_v35 : Ref sig .tc := ⟨.hbm, 58, rfl⟩
abbrev main_v36 : Ref sig .tc := ⟨.hbm, 59, rfl⟩
abbrev main_c_5 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_6 : Ref sig .tc := ⟨.hbm, 66, rfl⟩
abbrev main_v42 : Ref sig .tc := ⟨.hbm, 67, rfl⟩
abbrev main_cst_7 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_8 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_call1_cst : Ref sig .tc := ⟨.hbm, 80, rfl⟩
abbrev main_call1_v0 : Ref sig .tc := ⟨.hbm, 81, rfl⟩
abbrev main_call1_cst_0 : Ref sig .tc := ⟨.hbm, 82, rfl⟩
abbrev main_call1_v1 : Ref sig .tc := ⟨.hbm, 83, rfl⟩
abbrev main_call1_v2 : Ref sig .tc := ⟨.hbm, 84, rfl⟩
abbrev main_call1_v3 : Ref sig .tc := ⟨.hbm, 85, rfl⟩
abbrev main_call1_v4 : Ref sig .tc := ⟨.hbm, 86, rfl⟩
abbrev main_call1_v5 : Ref sig .tc := ⟨.hbm, 87, rfl⟩
abbrev main_call1_v6 : Ref sig .tc := ⟨.hbm, 88, rfl⟩
abbrev main_call1_cst_1 : Ref sig .tc := ⟨.hbm, 89, rfl⟩
abbrev main_call1_v7 : Ref sig .tc := ⟨.hbm, 90, rfl⟩
abbrev main_call1_v8 : Ref sig .tc := ⟨.hbm, 91, rfl⟩
abbrev main_call1_v9 : Ref sig .tc := ⟨.hbm, 92, rfl⟩
abbrev main_call1_v10 : Ref sig .tc := ⟨.hbm, 93, rfl⟩
abbrev main_v53 : Ref sig .tc := ⟨.hbm, 94, rfl⟩
abbrev main_v54 : Ref sig .tc := ⟨.hbm, 95, rfl⟩
abbrev main_cst_9 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_cst_10 : Ref sig .tc := ⟨.hbm, 100, rfl⟩
abbrev main_v58 : Ref sig .tc := ⟨.hbm, 101, rfl⟩
abbrev main_cst_11 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_c_12 : Ref sig .tc := ⟨.hbm, 111, rfl⟩
abbrev main_v67 : Ref sig .tc := ⟨.hbm, 112, rfl⟩
abbrev main_v68 : Ref sig .tc := ⟨.hbm, 113, rfl⟩
abbrev main_c_13 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_cst_14 : Ref sig .tc := ⟨.hbm, 120, rfl⟩
abbrev main_v74 : Ref sig .tc := ⟨.hbm, 121, rfl⟩
abbrev main_cst_15 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_cst_16 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_call2_cst : Ref sig .tc := ⟨.hbm, 134, rfl⟩
abbrev main_call2_v0 : Ref sig .tc := ⟨.hbm, 135, rfl⟩
abbrev main_call2_cst_0 : Ref sig .tc := ⟨.hbm, 136, rfl⟩
abbrev main_call2_v1 : Ref sig .tc := ⟨.hbm, 137, rfl⟩
abbrev main_call2_v2 : Ref sig .tc := ⟨.hbm, 138, rfl⟩
abbrev main_call2_v3 : Ref sig .tc := ⟨.hbm, 139, rfl⟩
abbrev main_call2_v4 : Ref sig .tc := ⟨.hbm, 140, rfl⟩
abbrev main_call2_v5 : Ref sig .tc := ⟨.hbm, 141, rfl⟩
abbrev main_call2_v6 : Ref sig .tc := ⟨.hbm, 142, rfl⟩
abbrev main_call2_cst_1 : Ref sig .tc := ⟨.hbm, 143, rfl⟩
abbrev main_call2_v7 : Ref sig .tc := ⟨.hbm, 144, rfl⟩
abbrev main_call2_v8 : Ref sig .tc := ⟨.hbm, 145, rfl⟩
abbrev main_call2_v9 : Ref sig .tc := ⟨.hbm, 146, rfl⟩
abbrev main_call2_v10 : Ref sig .tc := ⟨.hbm, 147, rfl⟩
abbrev main_v85 : Ref sig .tc := ⟨.hbm, 148, rfl⟩
abbrev main_v86 : Ref sig .tc := ⟨.hbm, 149, rfl⟩
abbrev main_cst_17 : Ref sig .tc := ⟨.hbm, 150, rfl⟩
abbrev main_v87 : Ref sig .tc := ⟨.hbm, 151, rfl⟩
abbrev main_v88 : Ref sig .tc := ⟨.hbm, 152, rfl⟩
abbrev main_v89 : Ref sig .tc := ⟨.hbm, 153, rfl⟩
abbrev main_v90 : Ref sig .tc := ⟨.hbm, 154, rfl⟩
abbrev main_v91 : Ref sig .tc := ⟨.hbm, 155, rfl⟩
abbrev main_v92 : Ref sig .tc := ⟨.hbm, 156, rfl⟩
abbrev main_v93 : Ref sig .tc := ⟨.hbm, 157, rfl⟩
abbrev main_v94 : Ref sig .tc := ⟨.hbm, 158, rfl⟩
abbrev main_c_18 : Ref sig .tc := ⟨.hbm, 159, rfl⟩
abbrev main_v95 : Ref sig .tc := ⟨.hbm, 160, rfl⟩
abbrev main_v96 : Ref sig .tc := ⟨.hbm, 161, rfl⟩
abbrev main_c_19 : Ref sig .tc := ⟨.hbm, 162, rfl⟩
abbrev main_v97 : Ref sig .tc := ⟨.hbm, 163, rfl⟩
abbrev main_v98 : Ref sig .tc := ⟨.hbm, 164, rfl⟩
abbrev main_v99 : Ref sig .tc := ⟨.hbm, 165, rfl⟩
abbrev main_v100 : Ref sig .tc := ⟨.hbm, 166, rfl⟩
abbrev main_v101 : Ref sig .tc := ⟨.hbm, 167, rfl⟩
abbrev main_cst_20 : Ref sig .tc := ⟨.hbm, 168, rfl⟩
abbrev main_v102 : Ref sig .tc := ⟨.hbm, 169, rfl⟩
abbrev main_cst_21 : Ref sig .tc := ⟨.hbm, 170, rfl⟩
abbrev main_v103 : Ref sig .tc := ⟨.hbm, 171, rfl⟩
abbrev main_v104 : Ref sig .tc := ⟨.hbm, 172, rfl⟩
abbrev main_v105 : Ref sig .tc := ⟨.hbm, 173, rfl⟩
abbrev main_v106 : Ref sig .tc := ⟨.hbm, 174, rfl⟩
abbrev main_v107 : Ref sig .tc := ⟨.hbm, 175, rfl⟩
abbrev main_v108 : Ref sig .tc := ⟨.hbm, 176, rfl⟩
abbrev main_cst_22 : Ref sig .tc := ⟨.hbm, 177, rfl⟩
abbrev main_v109 : Ref sig .tc := ⟨.hbm, 178, rfl⟩
abbrev main_v110 : Ref sig .tc := ⟨.hbm, 179, rfl⟩
abbrev main_v111 : Ref sig .tc := ⟨.hbm, 180, rfl⟩
abbrev main_v112 : Ref sig .tc := ⟨.hbm, 181, rfl⟩
abbrev main_call3_cst : Ref sig .tc := ⟨.hbm, 182, rfl⟩
abbrev main_call3_v0 : Ref sig .tc := ⟨.hbm, 183, rfl⟩
abbrev main_call3_cst_0 : Ref sig .tc := ⟨.hbm, 184, rfl⟩
abbrev main_call3_v1 : Ref sig .tc := ⟨.hbm, 185, rfl⟩
abbrev main_call3_v2 : Ref sig .tc := ⟨.hbm, 186, rfl⟩
abbrev main_call3_v3 : Ref sig .tc := ⟨.hbm, 187, rfl⟩
abbrev main_call3_v4 : Ref sig .tc := ⟨.hbm, 188, rfl⟩
abbrev main_call3_v5 : Ref sig .tc := ⟨.hbm, 189, rfl⟩
abbrev main_call3_v6 : Ref sig .tc := ⟨.hbm, 190, rfl⟩
abbrev main_call3_cst_1 : Ref sig .tc := ⟨.hbm, 191, rfl⟩
abbrev main_call3_v7 : Ref sig .tc := ⟨.hbm, 192, rfl⟩
abbrev main_call3_v8 : Ref sig .tc := ⟨.hbm, 193, rfl⟩
abbrev main_call3_v9 : Ref sig .tc := ⟨.hbm, 194, rfl⟩
abbrev main_call3_v10 : Ref sig .tc := ⟨.hbm, 195, rfl⟩
abbrev main_v113 : Ref sig .tc := ⟨.hbm, 196, rfl⟩
abbrev main_v114 : Ref sig .tc := ⟨.hbm, 197, rfl⟩
abbrev main_cst_23 : Ref sig .tc := ⟨.hbm, 198, rfl⟩
abbrev main_v115 : Ref sig .tc := ⟨.hbm, 199, rfl⟩
abbrev main_v116 : Ref sig .tc := ⟨.hbm, 200, rfl⟩
abbrev main_v117 : Ref sig .tc := ⟨.hbm, 201, rfl⟩
abbrev main_cst_24 : Ref sig .tc := ⟨.hbm, 202, rfl⟩
abbrev main_v118 : Ref sig .tc := ⟨.hbm, 203, rfl⟩
abbrev main_cst_25 : Ref sig .tc := ⟨.hbm, 204, rfl⟩
abbrev main_v119 : Ref sig .tc := ⟨.hbm, 205, rfl⟩
abbrev main_v120 : Ref sig .tc := ⟨.hbm, 206, rfl⟩
abbrev main_v121 : Ref sig .tc := ⟨.hbm, 207, rfl⟩
abbrev main_v122 : Ref sig .tc := ⟨.hbm, 208, rfl⟩
abbrev main_v123 : Ref sig .tc := ⟨.hbm, 209, rfl⟩
abbrev main_v124 : Ref sig .tc := ⟨.hbm, 210, rfl⟩
abbrev main_v125 : Ref sig .tc := ⟨.hbm, 211, rfl⟩
abbrev main_v126 : Ref sig .tc := ⟨.hbm, 212, rfl⟩
abbrev main_c_26 : Ref sig .tc := ⟨.hbm, 213, rfl⟩
abbrev main_v127 : Ref sig .tc := ⟨.hbm, 214, rfl⟩
abbrev main_v128 : Ref sig .tc := ⟨.hbm, 215, rfl⟩
abbrev main_c_27 : Ref sig .tc := ⟨.hbm, 216, rfl⟩
abbrev main_v129 : Ref sig .tc := ⟨.hbm, 217, rfl⟩
abbrev main_v130 : Ref sig .tc := ⟨.hbm, 218, rfl⟩
abbrev main_v131 : Ref sig .tc := ⟨.hbm, 219, rfl⟩
abbrev main_v132 : Ref sig .tc := ⟨.hbm, 220, rfl⟩
abbrev main_v133 : Ref sig .tc := ⟨.hbm, 221, rfl⟩
abbrev main_cst_28 : Ref sig .tc := ⟨.hbm, 222, rfl⟩
abbrev main_v134 : Ref sig .tc := ⟨.hbm, 223, rfl⟩
abbrev main_cst_29 : Ref sig .tc := ⟨.hbm, 224, rfl⟩
abbrev main_v135 : Ref sig .tc := ⟨.hbm, 225, rfl⟩
abbrev main_v136 : Ref sig .tc := ⟨.hbm, 226, rfl⟩
abbrev main_v137 : Ref sig .tc := ⟨.hbm, 227, rfl⟩
abbrev main_v138 : Ref sig .tc := ⟨.hbm, 228, rfl⟩
abbrev main_v139 : Ref sig .tc := ⟨.hbm, 229, rfl⟩
abbrev main_v140 : Ref sig .tc := ⟨.hbm, 230, rfl⟩
abbrev main_cst_30 : Ref sig .tc := ⟨.hbm, 231, rfl⟩
abbrev main_v141 : Ref sig .tc := ⟨.hbm, 232, rfl⟩
abbrev main_v142 : Ref sig .tc := ⟨.hbm, 233, rfl⟩
abbrev main_v143 : Ref sig .tc := ⟨.hbm, 234, rfl⟩
abbrev main_v144 : Ref sig .tc := ⟨.hbm, 235, rfl⟩
abbrev main_call4_cst : Ref sig .tc := ⟨.hbm, 236, rfl⟩
abbrev main_call4_v0 : Ref sig .tc := ⟨.hbm, 237, rfl⟩
abbrev main_call4_cst_0 : Ref sig .tc := ⟨.hbm, 238, rfl⟩
abbrev main_call4_v1 : Ref sig .tc := ⟨.hbm, 239, rfl⟩
abbrev main_call4_v2 : Ref sig .tc := ⟨.hbm, 240, rfl⟩
abbrev main_call4_v3 : Ref sig .tc := ⟨.hbm, 241, rfl⟩
abbrev main_call4_v4 : Ref sig .tc := ⟨.hbm, 242, rfl⟩
abbrev main_call4_v5 : Ref sig .tc := ⟨.hbm, 243, rfl⟩
abbrev main_call4_v6 : Ref sig .tc := ⟨.hbm, 244, rfl⟩
abbrev main_call4_cst_1 : Ref sig .tc := ⟨.hbm, 245, rfl⟩
abbrev main_call4_v7 : Ref sig .tc := ⟨.hbm, 246, rfl⟩
abbrev main_call4_v8 : Ref sig .tc := ⟨.hbm, 247, rfl⟩
abbrev main_call4_v9 : Ref sig .tc := ⟨.hbm, 248, rfl⟩
abbrev main_call4_v10 : Ref sig .tc := ⟨.hbm, 249, rfl⟩
abbrev main_v145 : Ref sig .tc := ⟨.hbm, 250, rfl⟩
abbrev main_v146 : Ref sig .tc := ⟨.hbm, 251, rfl⟩
abbrev main_cst_31 : Ref sig .tc := ⟨.hbm, 252, rfl⟩
abbrev main_v147 : Ref sig .tc := ⟨.hbm, 253, rfl⟩
abbrev main_v148 : Ref sig .tc := ⟨.hbm, 254, rfl⟩
abbrev main_v149 : Ref sig .tc := ⟨.hbm, 255, rfl⟩
abbrev main_v150 : Ref sig .tc := ⟨.hbm, 256, rfl⟩
abbrev main_v151 : Ref sig .tc := ⟨.hbm, 257, rfl⟩
abbrev main_v152 : Ref sig .tc := ⟨.hbm, 258, rfl⟩
abbrev main_v153 : Ref sig .tc := ⟨.hbm, 259, rfl⟩
abbrev main_v154 : Ref sig .tc := ⟨.hbm, 260, rfl⟩
abbrev main_c_32 : Ref sig .tc := ⟨.hbm, 261, rfl⟩
abbrev main_v155 : Ref sig .tc := ⟨.hbm, 262, rfl⟩
abbrev main_v156 : Ref sig .tc := ⟨.hbm, 263, rfl⟩
abbrev main_c_33 : Ref sig .tc := ⟨.hbm, 264, rfl⟩
abbrev main_v157 : Ref sig .tc := ⟨.hbm, 265, rfl⟩
abbrev main_v158 : Ref sig .tc := ⟨.hbm, 266, rfl⟩
abbrev main_v159 : Ref sig .tc := ⟨.hbm, 267, rfl⟩
abbrev main_v160 : Ref sig .tc := ⟨.hbm, 268, rfl⟩
abbrev main_v161 : Ref sig .tc := ⟨.hbm, 269, rfl⟩
abbrev main_cst_34 : Ref sig .tc := ⟨.hbm, 270, rfl⟩
abbrev main_v162 : Ref sig .tc := ⟨.hbm, 271, rfl⟩
abbrev main_cst_35 : Ref sig .tc := ⟨.hbm, 272, rfl⟩
abbrev main_v163 : Ref sig .tc := ⟨.hbm, 273, rfl⟩
abbrev main_v164 : Ref sig .tc := ⟨.hbm, 274, rfl⟩
abbrev main_v165 : Ref sig .tc := ⟨.hbm, 275, rfl⟩
abbrev main_v166 : Ref sig .tc := ⟨.hbm, 276, rfl⟩
abbrev main_v167 : Ref sig .tc := ⟨.hbm, 277, rfl⟩
abbrev main_v168 : Ref sig .tc := ⟨.hbm, 278, rfl⟩
abbrev main_cst_36 : Ref sig .tc := ⟨.hbm, 279, rfl⟩
abbrev main_v169 : Ref sig .tc := ⟨.hbm, 280, rfl⟩
abbrev main_v170 : Ref sig .tc := ⟨.hbm, 281, rfl⟩
abbrev main_v171 : Ref sig .tc := ⟨.hbm, 282, rfl⟩
abbrev main_v172 : Ref sig .tc := ⟨.hbm, 283, rfl⟩
abbrev main_call5_cst : Ref sig .tc := ⟨.hbm, 284, rfl⟩
abbrev main_call5_v0 : Ref sig .tc := ⟨.hbm, 285, rfl⟩
abbrev main_call5_cst_0 : Ref sig .tc := ⟨.hbm, 286, rfl⟩
abbrev main_call5_v1 : Ref sig .tc := ⟨.hbm, 287, rfl⟩
abbrev main_call5_v2 : Ref sig .tc := ⟨.hbm, 288, rfl⟩
abbrev main_call5_v3 : Ref sig .tc := ⟨.hbm, 289, rfl⟩
abbrev main_call5_v4 : Ref sig .tc := ⟨.hbm, 290, rfl⟩
abbrev main_call5_v5 : Ref sig .tc := ⟨.hbm, 291, rfl⟩
abbrev main_call5_v6 : Ref sig .tc := ⟨.hbm, 292, rfl⟩
abbrev main_call5_cst_1 : Ref sig .tc := ⟨.hbm, 293, rfl⟩
abbrev main_call5_v7 : Ref sig .tc := ⟨.hbm, 294, rfl⟩
abbrev main_call5_v8 : Ref sig .tc := ⟨.hbm, 295, rfl⟩
abbrev main_call5_v9 : Ref sig .tc := ⟨.hbm, 296, rfl⟩
abbrev main_call5_v10 : Ref sig .tc := ⟨.hbm, 297, rfl⟩
abbrev main_v173 : Ref sig .tc := ⟨.hbm, 298, rfl⟩
abbrev main_v174 : Ref sig .tc := ⟨.hbm, 299, rfl⟩
abbrev main_cst_37 : Ref sig .tc := ⟨.hbm, 300, rfl⟩
abbrev main_v175 : Ref sig .tc := ⟨.hbm, 301, rfl⟩
abbrev main_v176 : Ref sig .tc := ⟨.hbm, 302, rfl⟩
abbrev main_v177 : Ref sig .tc := ⟨.hbm, 303, rfl⟩
abbrev main_cst_38 : Ref sig .tc := ⟨.hbm, 304, rfl⟩
abbrev main_v178 : Ref sig .tc := ⟨.hbm, 305, rfl⟩
abbrev main_cst_39 : Ref sig .tc := ⟨.hbm, 306, rfl⟩
abbrev main_v179 : Ref sig .tc := ⟨.hbm, 307, rfl⟩
abbrev main_v180 : Ref sig .tc := ⟨.hbm, 308, rfl⟩
abbrev main_v181 : Ref sig .tc := ⟨.hbm, 309, rfl⟩
abbrev main_v182 : Ref sig .tc := ⟨.hbm, 310, rfl⟩
abbrev main_v183 : Ref sig .tc := ⟨.hbm, 311, rfl⟩
abbrev main_v184 : Ref sig .tc := ⟨.hbm, 312, rfl⟩
abbrev main_v185 : Ref sig .tc := ⟨.hbm, 313, rfl⟩
abbrev main_v186 : Ref sig .tc := ⟨.hbm, 314, rfl⟩
abbrev main_c_40 : Ref sig .tc := ⟨.hbm, 315, rfl⟩
abbrev main_v187 : Ref sig .tc := ⟨.hbm, 316, rfl⟩
abbrev main_v188 : Ref sig .tc := ⟨.hbm, 317, rfl⟩
abbrev main_c_41 : Ref sig .tc := ⟨.hbm, 318, rfl⟩
abbrev main_v189 : Ref sig .tc := ⟨.hbm, 319, rfl⟩
abbrev main_v190 : Ref sig .tc := ⟨.hbm, 320, rfl⟩
abbrev main_v191 : Ref sig .tc := ⟨.hbm, 321, rfl⟩
abbrev main_v192 : Ref sig .tc := ⟨.hbm, 322, rfl⟩
abbrev main_v193 : Ref sig .tc := ⟨.hbm, 323, rfl⟩
abbrev main_cst_42 : Ref sig .tc := ⟨.hbm, 324, rfl⟩
abbrev main_v194 : Ref sig .tc := ⟨.hbm, 325, rfl⟩
abbrev main_cst_43 : Ref sig .tc := ⟨.hbm, 326, rfl⟩
abbrev main_v195 : Ref sig .tc := ⟨.hbm, 327, rfl⟩
abbrev main_v196 : Ref sig .tc := ⟨.hbm, 328, rfl⟩
abbrev main_v197 : Ref sig .tc := ⟨.hbm, 329, rfl⟩
abbrev main_v198 : Ref sig .tc := ⟨.hbm, 330, rfl⟩
abbrev main_v199 : Ref sig .tc := ⟨.hbm, 331, rfl⟩
abbrev main_v200 : Ref sig .tc := ⟨.hbm, 332, rfl⟩
abbrev main_cst_44 : Ref sig .tc := ⟨.hbm, 333, rfl⟩
abbrev main_v201 : Ref sig .tc := ⟨.hbm, 334, rfl⟩
abbrev main_v202 : Ref sig .tc := ⟨.hbm, 335, rfl⟩
abbrev main_v203 : Ref sig .tc := ⟨.hbm, 336, rfl⟩
abbrev main_v204 : Ref sig .tc := ⟨.hbm, 337, rfl⟩
abbrev main_call6_cst : Ref sig .tc := ⟨.hbm, 338, rfl⟩
abbrev main_call6_v0 : Ref sig .tc := ⟨.hbm, 339, rfl⟩
abbrev main_call6_cst_0 : Ref sig .tc := ⟨.hbm, 340, rfl⟩
abbrev main_call6_v1 : Ref sig .tc := ⟨.hbm, 341, rfl⟩
abbrev main_call6_v2 : Ref sig .tc := ⟨.hbm, 342, rfl⟩
abbrev main_call6_v3 : Ref sig .tc := ⟨.hbm, 343, rfl⟩
abbrev main_call6_v4 : Ref sig .tc := ⟨.hbm, 344, rfl⟩
abbrev main_call6_v5 : Ref sig .tc := ⟨.hbm, 345, rfl⟩
abbrev main_call6_v6 : Ref sig .tc := ⟨.hbm, 346, rfl⟩
abbrev main_call6_cst_1 : Ref sig .tc := ⟨.hbm, 347, rfl⟩
abbrev main_call6_v7 : Ref sig .tc := ⟨.hbm, 348, rfl⟩
abbrev main_call6_v8 : Ref sig .tc := ⟨.hbm, 349, rfl⟩
abbrev main_call6_v9 : Ref sig .tc := ⟨.hbm, 350, rfl⟩
abbrev main_call6_v10 : Ref sig .tc := ⟨.hbm, 351, rfl⟩
abbrev main_v205 : Ref sig .tc := ⟨.hbm, 352, rfl⟩
abbrev main_v206 : Ref sig .tc := ⟨.hbm, 353, rfl⟩
abbrev main_cst_45 : Ref sig .tc := ⟨.hbm, 354, rfl⟩
abbrev main_v207 : Ref sig .tc := ⟨.hbm, 355, rfl⟩
abbrev main_v208 : Ref sig .tc := ⟨.hbm, 356, rfl⟩
abbrev main_v209 : Ref sig .tc := ⟨.hbm, 357, rfl⟩
abbrev main_v210 : Ref sig .tc := ⟨.hbm, 358, rfl⟩
abbrev main_v211 : Ref sig .tc := ⟨.hbm, 359, rfl⟩
abbrev main_v212 : Ref sig .tc := ⟨.hbm, 360, rfl⟩
abbrev main_v213 : Ref sig .tc := ⟨.hbm, 361, rfl⟩
abbrev main_v214 : Ref sig .tc := ⟨.hbm, 362, rfl⟩
abbrev main_c_46 : Ref sig .tc := ⟨.hbm, 363, rfl⟩
abbrev main_v215 : Ref sig .tc := ⟨.hbm, 364, rfl⟩
abbrev main_v216 : Ref sig .tc := ⟨.hbm, 365, rfl⟩
abbrev main_c_47 : Ref sig .tc := ⟨.hbm, 366, rfl⟩
abbrev main_v217 : Ref sig .tc := ⟨.hbm, 367, rfl⟩
abbrev main_v218 : Ref sig .tc := ⟨.hbm, 368, rfl⟩
abbrev main_v219 : Ref sig .tc := ⟨.hbm, 369, rfl⟩
abbrev main_v220 : Ref sig .tc := ⟨.hbm, 370, rfl⟩
abbrev main_v221 : Ref sig .tc := ⟨.hbm, 371, rfl⟩
abbrev main_cst_48 : Ref sig .tc := ⟨.hbm, 372, rfl⟩
abbrev main_v222 : Ref sig .tc := ⟨.hbm, 373, rfl⟩
abbrev main_cst_49 : Ref sig .tc := ⟨.hbm, 374, rfl⟩
abbrev main_v223 : Ref sig .tc := ⟨.hbm, 375, rfl⟩
abbrev main_v224 : Ref sig .tc := ⟨.hbm, 376, rfl⟩
abbrev main_v225 : Ref sig .tc := ⟨.hbm, 377, rfl⟩
abbrev main_v226 : Ref sig .tc := ⟨.hbm, 378, rfl⟩
abbrev main_v227 : Ref sig .tc := ⟨.hbm, 379, rfl⟩
abbrev main_v228 : Ref sig .tc := ⟨.hbm, 380, rfl⟩
abbrev main_cst_50 : Ref sig .tc := ⟨.hbm, 381, rfl⟩
abbrev main_v229 : Ref sig .tc := ⟨.hbm, 382, rfl⟩
abbrev main_v230 : Ref sig .tc := ⟨.hbm, 383, rfl⟩
abbrev main_v231 : Ref sig .tc := ⟨.hbm, 384, rfl⟩
abbrev main_v232 : Ref sig .tc := ⟨.hbm, 385, rfl⟩
abbrev main_call7_cst : Ref sig .tc := ⟨.hbm, 386, rfl⟩
abbrev main_call7_v0 : Ref sig .tc := ⟨.hbm, 387, rfl⟩
abbrev main_call7_cst_0 : Ref sig .tc := ⟨.hbm, 388, rfl⟩
abbrev main_call7_v1 : Ref sig .tc := ⟨.hbm, 389, rfl⟩
abbrev main_call7_v2 : Ref sig .tc := ⟨.hbm, 390, rfl⟩
abbrev main_call7_v3 : Ref sig .tc := ⟨.hbm, 391, rfl⟩
abbrev main_call7_v4 : Ref sig .tc := ⟨.hbm, 392, rfl⟩
abbrev main_call7_v5 : Ref sig .tc := ⟨.hbm, 393, rfl⟩
abbrev main_call7_v6 : Ref sig .tc := ⟨.hbm, 394, rfl⟩
abbrev main_call7_cst_1 : Ref sig .tc := ⟨.hbm, 395, rfl⟩
abbrev main_call7_v7 : Ref sig .tc := ⟨.hbm, 396, rfl⟩
abbrev main_call7_v8 : Ref sig .tc := ⟨.hbm, 397, rfl⟩
abbrev main_call7_v9 : Ref sig .tc := ⟨.hbm, 398, rfl⟩
abbrev main_call7_v10 : Ref sig .tc := ⟨.hbm, 399, rfl⟩
abbrev main_v233 : Ref sig .tc := ⟨.hbm, 400, rfl⟩
abbrev main_v234 : Ref sig .tc := ⟨.hbm, 401, rfl⟩
abbrev main_cst_51 : Ref sig .tc := ⟨.hbm, 402, rfl⟩
abbrev main_v235 : Ref sig .tc := ⟨.hbm, 403, rfl⟩
abbrev main_v236 : Ref sig .tc := ⟨.hbm, 404, rfl⟩
abbrev main_v237 : Ref sig .tc := ⟨.hbm, 405, rfl⟩
abbrev main_cst_52 : Ref sig .tc := ⟨.hbm, 406, rfl⟩
abbrev main_v238 : Ref sig .tc := ⟨.hbm, 407, rfl⟩
abbrev main_cst_53 : Ref sig .tc := ⟨.hbm, 408, rfl⟩
abbrev main_v239 : Ref sig .tc := ⟨.hbm, 409, rfl⟩
abbrev main_v240 : Ref sig .tc := ⟨.hbm, 410, rfl⟩
abbrev main_v241 : Ref sig .tc := ⟨.hbm, 411, rfl⟩
abbrev main_v242 : Ref sig .tc := ⟨.hbm, 412, rfl⟩
abbrev main_v243 : Ref sig .tc := ⟨.hbm, 413, rfl⟩
abbrev main_v244 : Ref sig .tc := ⟨.hbm, 414, rfl⟩
abbrev main_v245 : Ref sig .tc := ⟨.hbm, 415, rfl⟩
abbrev main_v246 : Ref sig .tc := ⟨.hbm, 416, rfl⟩
abbrev main_c_54 : Ref sig .tc := ⟨.hbm, 417, rfl⟩
abbrev main_v247 : Ref sig .tc := ⟨.hbm, 418, rfl⟩
abbrev main_v248 : Ref sig .tc := ⟨.hbm, 419, rfl⟩
abbrev main_c_55 : Ref sig .tc := ⟨.hbm, 420, rfl⟩
abbrev main_v249 : Ref sig .tc := ⟨.hbm, 421, rfl⟩
abbrev main_v250 : Ref sig .tc := ⟨.hbm, 422, rfl⟩
abbrev main_v251 : Ref sig .tc := ⟨.hbm, 423, rfl⟩
abbrev main_v252 : Ref sig .tc := ⟨.hbm, 424, rfl⟩
abbrev main_v253 : Ref sig .tc := ⟨.hbm, 425, rfl⟩
abbrev main_cst_56 : Ref sig .tc := ⟨.hbm, 426, rfl⟩
abbrev main_v254 : Ref sig .tc := ⟨.hbm, 427, rfl⟩
abbrev main_cst_57 : Ref sig .tc := ⟨.hbm, 428, rfl⟩
abbrev main_v255 : Ref sig .tc := ⟨.hbm, 429, rfl⟩
abbrev main_v256 : Ref sig .tc := ⟨.hbm, 430, rfl⟩
abbrev main_v257 : Ref sig .tc := ⟨.hbm, 431, rfl⟩
abbrev main_v258 : Ref sig .tc := ⟨.hbm, 432, rfl⟩
abbrev main_v259 : Ref sig .tc := ⟨.hbm, 433, rfl⟩
abbrev main_v260 : Ref sig .tc := ⟨.hbm, 434, rfl⟩
abbrev main_cst_58 : Ref sig .tc := ⟨.hbm, 435, rfl⟩
abbrev main_v261 : Ref sig .tc := ⟨.hbm, 436, rfl⟩
abbrev main_v262 : Ref sig .tc := ⟨.hbm, 437, rfl⟩
abbrev main_v263 : Ref sig .tc := ⟨.hbm, 438, rfl⟩
abbrev main_v264 : Ref sig .tc := ⟨.hbm, 439, rfl⟩
abbrev main_call8_cst : Ref sig .tc := ⟨.hbm, 440, rfl⟩
abbrev main_call8_v0 : Ref sig .tc := ⟨.hbm, 441, rfl⟩
abbrev main_call8_cst_0 : Ref sig .tc := ⟨.hbm, 442, rfl⟩
abbrev main_call8_v1 : Ref sig .tc := ⟨.hbm, 443, rfl⟩
abbrev main_call8_v2 : Ref sig .tc := ⟨.hbm, 444, rfl⟩
abbrev main_call8_v3 : Ref sig .tc := ⟨.hbm, 445, rfl⟩
abbrev main_call8_v4 : Ref sig .tc := ⟨.hbm, 446, rfl⟩
abbrev main_call8_v5 : Ref sig .tc := ⟨.hbm, 447, rfl⟩
abbrev main_call8_v6 : Ref sig .tc := ⟨.hbm, 448, rfl⟩
abbrev main_call8_cst_1 : Ref sig .tc := ⟨.hbm, 449, rfl⟩
abbrev main_call8_v7 : Ref sig .tc := ⟨.hbm, 450, rfl⟩
abbrev main_call8_v8 : Ref sig .tc := ⟨.hbm, 451, rfl⟩
abbrev main_call8_v9 : Ref sig .tc := ⟨.hbm, 452, rfl⟩
abbrev main_call8_v10 : Ref sig .tc := ⟨.hbm, 453, rfl⟩
abbrev main_v265 : Ref sig .tc := ⟨.hbm, 454, rfl⟩
abbrev main_v266 : Ref sig .tc := ⟨.hbm, 455, rfl⟩
abbrev main_cst_59 : Ref sig .tc := ⟨.hbm, 456, rfl⟩
abbrev main_v267 : Ref sig .tc := ⟨.hbm, 457, rfl⟩
abbrev main_v268 : Ref sig .tc := ⟨.hbm, 458, rfl⟩
abbrev main_v269 : Ref sig .tc := ⟨.hbm, 459, rfl⟩
abbrev main_v270 : Ref sig .tc := ⟨.hbm, 460, rfl⟩
abbrev main_v271 : Ref sig .tc := ⟨.hbm, 461, rfl⟩
abbrev main_v272 : Ref sig .tc := ⟨.hbm, 462, rfl⟩
abbrev main_v273 : Ref sig .tc := ⟨.hbm, 463, rfl⟩
abbrev main_v274 : Ref sig .tc := ⟨.hbm, 464, rfl⟩
abbrev main_c_60 : Ref sig .tc := ⟨.hbm, 465, rfl⟩
abbrev main_v275 : Ref sig .tc := ⟨.hbm, 466, rfl⟩
abbrev main_v276 : Ref sig .tc := ⟨.hbm, 467, rfl⟩
abbrev main_c_61 : Ref sig .tc := ⟨.hbm, 468, rfl⟩
abbrev main_v277 : Ref sig .tc := ⟨.hbm, 469, rfl⟩
abbrev main_v278 : Ref sig .tc := ⟨.hbm, 470, rfl⟩
abbrev main_v279 : Ref sig .tc := ⟨.hbm, 471, rfl⟩
abbrev main_v280 : Ref sig .tc := ⟨.hbm, 472, rfl⟩
abbrev main_v281 : Ref sig .tc := ⟨.hbm, 473, rfl⟩
abbrev main_cst_62 : Ref sig .tc := ⟨.hbm, 474, rfl⟩
abbrev main_v282 : Ref sig .tc := ⟨.hbm, 475, rfl⟩
abbrev main_cst_63 : Ref sig .tc := ⟨.hbm, 476, rfl⟩
abbrev main_v283 : Ref sig .tc := ⟨.hbm, 477, rfl⟩
abbrev main_v284 : Ref sig .tc := ⟨.hbm, 478, rfl⟩
abbrev main_v285 : Ref sig .tc := ⟨.hbm, 479, rfl⟩
abbrev main_v286 : Ref sig .tc := ⟨.hbm, 480, rfl⟩
abbrev main_v287 : Ref sig .tc := ⟨.hbm, 481, rfl⟩
abbrev main_v288 : Ref sig .tc := ⟨.hbm, 482, rfl⟩
abbrev main_cst_64 : Ref sig .tc := ⟨.hbm, 483, rfl⟩
abbrev main_v289 : Ref sig .tc := ⟨.hbm, 484, rfl⟩
abbrev main_v290 : Ref sig .tc := ⟨.hbm, 485, rfl⟩
abbrev main_v291 : Ref sig .tc := ⟨.hbm, 486, rfl⟩
abbrev main_v292 : Ref sig .tc := ⟨.hbm, 487, rfl⟩
abbrev main_call9_cst : Ref sig .tc := ⟨.hbm, 488, rfl⟩
abbrev main_call9_v0 : Ref sig .tc := ⟨.hbm, 489, rfl⟩
abbrev main_call9_cst_0 : Ref sig .tc := ⟨.hbm, 490, rfl⟩
abbrev main_call9_v1 : Ref sig .tc := ⟨.hbm, 491, rfl⟩
abbrev main_call9_v2 : Ref sig .tc := ⟨.hbm, 492, rfl⟩
abbrev main_call9_v3 : Ref sig .tc := ⟨.hbm, 493, rfl⟩
abbrev main_call9_v4 : Ref sig .tc := ⟨.hbm, 494, rfl⟩
abbrev main_call9_v5 : Ref sig .tc := ⟨.hbm, 495, rfl⟩
abbrev main_call9_v6 : Ref sig .tc := ⟨.hbm, 496, rfl⟩
abbrev main_call9_cst_1 : Ref sig .tc := ⟨.hbm, 497, rfl⟩
abbrev main_call9_v7 : Ref sig .tc := ⟨.hbm, 498, rfl⟩
abbrev main_call9_v8 : Ref sig .tc := ⟨.hbm, 499, rfl⟩
abbrev main_call9_v9 : Ref sig .tc := ⟨.hbm, 500, rfl⟩
abbrev main_call9_v10 : Ref sig .tc := ⟨.hbm, 501, rfl⟩
abbrev main_v293 : Ref sig .tc := ⟨.hbm, 502, rfl⟩
abbrev main_v294 : Ref sig .tc := ⟨.hbm, 503, rfl⟩
abbrev main_cst_65 : Ref sig .tc := ⟨.hbm, 504, rfl⟩
abbrev main_v295 : Ref sig .tc := ⟨.hbm, 505, rfl⟩
abbrev main_v296 : Ref sig .tc := ⟨.hbm, 506, rfl⟩
abbrev main_v297 : Ref sig .tc := ⟨.hbm, 507, rfl⟩
abbrev main_cst_66 : Ref sig .tc := ⟨.hbm, 508, rfl⟩
abbrev main_v298 : Ref sig .tc := ⟨.hbm, 509, rfl⟩
abbrev main_cst_67 : Ref sig .tc := ⟨.hbm, 510, rfl⟩
abbrev main_v299 : Ref sig .tc := ⟨.hbm, 511, rfl⟩
abbrev main_v300 : Ref sig .tc := ⟨.hbm, 512, rfl⟩
abbrev main_v301 : Ref sig .tc := ⟨.hbm, 513, rfl⟩
abbrev main_v302 : Ref sig .tc := ⟨.hbm, 514, rfl⟩
abbrev main_v303 : Ref sig .tc := ⟨.hbm, 515, rfl⟩
abbrev main_v304 : Ref sig .tc := ⟨.hbm, 516, rfl⟩
abbrev main_v305 : Ref sig .tc := ⟨.hbm, 517, rfl⟩
abbrev main_v306 : Ref sig .tc := ⟨.hbm, 518, rfl⟩
abbrev main_c_68 : Ref sig .tc := ⟨.hbm, 519, rfl⟩
abbrev main_v307 : Ref sig .tc := ⟨.hbm, 520, rfl⟩
abbrev main_v308 : Ref sig .tc := ⟨.hbm, 521, rfl⟩
abbrev main_c_69 : Ref sig .tc := ⟨.hbm, 522, rfl⟩
abbrev main_v309 : Ref sig .tc := ⟨.hbm, 523, rfl⟩
abbrev main_v310 : Ref sig .tc := ⟨.hbm, 524, rfl⟩
abbrev main_v311 : Ref sig .tc := ⟨.hbm, 525, rfl⟩
abbrev main_v312 : Ref sig .tc := ⟨.hbm, 526, rfl⟩
abbrev main_v313 : Ref sig .tc := ⟨.hbm, 527, rfl⟩
abbrev main_cst_70 : Ref sig .tc := ⟨.hbm, 528, rfl⟩
abbrev main_v314 : Ref sig .tc := ⟨.hbm, 529, rfl⟩
abbrev main_cst_71 : Ref sig .tc := ⟨.hbm, 530, rfl⟩
abbrev main_v315 : Ref sig .tc := ⟨.hbm, 531, rfl⟩
abbrev main_v316 : Ref sig .tc := ⟨.hbm, 532, rfl⟩
abbrev main_v317 : Ref sig .tc := ⟨.hbm, 533, rfl⟩
abbrev main_v318 : Ref sig .tc := ⟨.hbm, 534, rfl⟩
abbrev main_v319 : Ref sig .tc := ⟨.hbm, 535, rfl⟩
abbrev main_v320 : Ref sig .tc := ⟨.hbm, 536, rfl⟩
abbrev main_cst_72 : Ref sig .tc := ⟨.hbm, 537, rfl⟩
abbrev main_v321 : Ref sig .tc := ⟨.hbm, 538, rfl⟩
abbrev main_v322 : Ref sig .tc := ⟨.hbm, 539, rfl⟩
abbrev main_v323 : Ref sig .tc := ⟨.hbm, 540, rfl⟩
abbrev main_v324 : Ref sig .tc := ⟨.hbm, 541, rfl⟩
abbrev main_call10_cst : Ref sig .tc := ⟨.hbm, 542, rfl⟩
abbrev main_call10_v0 : Ref sig .tc := ⟨.hbm, 543, rfl⟩
abbrev main_call10_cst_0 : Ref sig .tc := ⟨.hbm, 544, rfl⟩
abbrev main_call10_v1 : Ref sig .tc := ⟨.hbm, 545, rfl⟩
abbrev main_call10_v2 : Ref sig .tc := ⟨.hbm, 546, rfl⟩
abbrev main_call10_v3 : Ref sig .tc := ⟨.hbm, 547, rfl⟩
abbrev main_call10_v4 : Ref sig .tc := ⟨.hbm, 548, rfl⟩
abbrev main_call10_v5 : Ref sig .tc := ⟨.hbm, 549, rfl⟩
abbrev main_call10_v6 : Ref sig .tc := ⟨.hbm, 550, rfl⟩
abbrev main_call10_cst_1 : Ref sig .tc := ⟨.hbm, 551, rfl⟩
abbrev main_call10_v7 : Ref sig .tc := ⟨.hbm, 552, rfl⟩
abbrev main_call10_v8 : Ref sig .tc := ⟨.hbm, 553, rfl⟩
abbrev main_call10_v9 : Ref sig .tc := ⟨.hbm, 554, rfl⟩
abbrev main_call10_v10 : Ref sig .tc := ⟨.hbm, 555, rfl⟩
abbrev main_v325 : Ref sig .tc := ⟨.hbm, 556, rfl⟩
abbrev main_v326 : Ref sig .tc := ⟨.hbm, 557, rfl⟩
abbrev main_cst_73 : Ref sig .tc := ⟨.hbm, 558, rfl⟩
abbrev main_v327 : Ref sig .tc := ⟨.hbm, 559, rfl⟩
abbrev main_v328 : Ref sig .tc := ⟨.hbm, 560, rfl⟩
abbrev main_v329 : Ref sig .tc := ⟨.hbm, 561, rfl⟩
abbrev main_v330 : Ref sig .tc := ⟨.hbm, 562, rfl⟩
abbrev main_v331 : Ref sig .tc := ⟨.hbm, 563, rfl⟩
abbrev main_v332 : Ref sig .tc := ⟨.hbm, 564, rfl⟩
abbrev main_v333 : Ref sig .tc := ⟨.hbm, 565, rfl⟩
abbrev main_v334 : Ref sig .tc := ⟨.hbm, 566, rfl⟩
abbrev main_c_74 : Ref sig .tc := ⟨.hbm, 567, rfl⟩
abbrev main_v335 : Ref sig .tc := ⟨.hbm, 568, rfl⟩
abbrev main_v336 : Ref sig .tc := ⟨.hbm, 569, rfl⟩
abbrev main_c_75 : Ref sig .tc := ⟨.hbm, 570, rfl⟩
abbrev main_v337 : Ref sig .tc := ⟨.hbm, 571, rfl⟩
abbrev main_v338 : Ref sig .tc := ⟨.hbm, 572, rfl⟩
abbrev main_v339 : Ref sig .tc := ⟨.hbm, 573, rfl⟩
abbrev main_v340 : Ref sig .tc := ⟨.hbm, 574, rfl⟩
abbrev main_v341 : Ref sig .tc := ⟨.hbm, 575, rfl⟩
abbrev main_cst_76 : Ref sig .tc := ⟨.hbm, 576, rfl⟩
abbrev main_v342 : Ref sig .tc := ⟨.hbm, 577, rfl⟩
abbrev main_cst_77 : Ref sig .tc := ⟨.hbm, 578, rfl⟩
abbrev main_v343 : Ref sig .tc := ⟨.hbm, 579, rfl⟩
abbrev main_v344 : Ref sig .tc := ⟨.hbm, 580, rfl⟩
abbrev main_v345 : Ref sig .tc := ⟨.hbm, 581, rfl⟩
abbrev main_v346 : Ref sig .tc := ⟨.hbm, 582, rfl⟩
abbrev main_v347 : Ref sig .tc := ⟨.hbm, 583, rfl⟩
abbrev main_v348 : Ref sig .tc := ⟨.hbm, 584, rfl⟩
abbrev main_cst_78 : Ref sig .tc := ⟨.hbm, 585, rfl⟩
abbrev main_v349 : Ref sig .tc := ⟨.hbm, 586, rfl⟩
abbrev main_v350 : Ref sig .tc := ⟨.hbm, 587, rfl⟩
abbrev main_v351 : Ref sig .tc := ⟨.hbm, 588, rfl⟩
abbrev main_v352 : Ref sig .tc := ⟨.hbm, 589, rfl⟩
abbrev main_call11_cst : Ref sig .tc := ⟨.hbm, 590, rfl⟩
abbrev main_call11_v0 : Ref sig .tc := ⟨.hbm, 591, rfl⟩
abbrev main_call11_cst_0 : Ref sig .tc := ⟨.hbm, 592, rfl⟩
abbrev main_call11_v1 : Ref sig .tc := ⟨.hbm, 593, rfl⟩
abbrev main_call11_v2 : Ref sig .tc := ⟨.hbm, 594, rfl⟩
abbrev main_call11_v3 : Ref sig .tc := ⟨.hbm, 595, rfl⟩
abbrev main_call11_v4 : Ref sig .tc := ⟨.hbm, 596, rfl⟩
abbrev main_call11_v5 : Ref sig .tc := ⟨.hbm, 597, rfl⟩
abbrev main_call11_v6 : Ref sig .tc := ⟨.hbm, 598, rfl⟩
abbrev main_call11_cst_1 : Ref sig .tc := ⟨.hbm, 599, rfl⟩
abbrev main_call11_v7 : Ref sig .tc := ⟨.hbm, 600, rfl⟩
abbrev main_call11_v8 : Ref sig .tc := ⟨.hbm, 601, rfl⟩
abbrev main_call11_v9 : Ref sig .tc := ⟨.hbm, 602, rfl⟩
abbrev main_call11_v10 : Ref sig .tc := ⟨.hbm, 603, rfl⟩
abbrev main_v353 : Ref sig .tc := ⟨.hbm, 604, rfl⟩
abbrev main_v354 : Ref sig .tc := ⟨.hbm, 605, rfl⟩
abbrev main_cst_79 : Ref sig .tc := ⟨.hbm, 606, rfl⟩
abbrev main_v355 : Ref sig .tc := ⟨.hbm, 607, rfl⟩
abbrev main_v356 : Ref sig .tc := ⟨.hbm, 608, rfl⟩
abbrev main_v357 : Ref sig .tc := ⟨.hbm, 609, rfl⟩
abbrev main_cst_80 : Ref sig .tc := ⟨.hbm, 610, rfl⟩
abbrev main_v358 : Ref sig .tc := ⟨.hbm, 611, rfl⟩
abbrev main_cst_81 : Ref sig .tc := ⟨.hbm, 612, rfl⟩
abbrev main_v359 : Ref sig .tc := ⟨.hbm, 613, rfl⟩
abbrev main_v360 : Ref sig .tc := ⟨.hbm, 614, rfl⟩
abbrev main_v361 : Ref sig .tc := ⟨.hbm, 615, rfl⟩
abbrev main_v362 : Ref sig .tc := ⟨.hbm, 616, rfl⟩
abbrev main_v363 : Ref sig .tc := ⟨.hbm, 617, rfl⟩
abbrev main_v364 : Ref sig .tc := ⟨.hbm, 618, rfl⟩
abbrev main_v365 : Ref sig .tc := ⟨.hbm, 619, rfl⟩
abbrev main_v366 : Ref sig .tc := ⟨.hbm, 620, rfl⟩
abbrev main_cst_82 : Ref sig .tc := ⟨.hbm, 621, rfl⟩
abbrev main_v367 : Ref sig .tc := ⟨.hbm, 622, rfl⟩

abbrev nD : Nat := 1
abbrev τ : Topo := Topo.v7x

variable {F : FTy → Type} [FloatOps F]

class Facts₀ : Prop where
  bcast_S2045_S2045x1_0 : S2045.BroadcastsInDim S2045x1 (![0] : Fin 1 → Fin S2045x1.rank)
  bcast_S4_S1x4_1 : S4.BroadcastsInDim S1x4 (![1] : Fin 1 → Fin S1x4.rank)
  bcast_S2045x1_S2045x4_0_1 : S2045x1.BroadcastsInDim S2045x4 (![0, 1] : Fin 2 → Fin S2045x4.rank)
  bcast_S1x4_S2045x4_0_1 : S1x4.BroadcastsInDim S2045x4 (![0, 1] : Fin 2 → Fin S2045x4.rank)
  bcast_S_S2045x4 : S_.BroadcastsInDim S2045x4 (![] : Fin 0 → Fin S2045x4.rank)
  bcast_S2045x4_S2045x4x1_0_1 : S2045x4.BroadcastsInDim S2045x4x1 (![0, 1] : Fin 2 → Fin S2045x4x1.rank)
  reducesTo_S64x2x2045x4_S64x2x2045_d3 : S64x2x2045x4.ReducesTo [3] S64x2x2045
  h_S_ : 0 < S_.numel
  bcast_S_S64x2x2045 : S_.BroadcastsInDim S64x2x2045 (![] : Fin 0 → Fin S64x2x2045.rank)
  bcast_S64x2x2045_S64x2x2045x1_0_1_2 : S64x2x2045.BroadcastsInDim S64x2x2045x1 (![0, 1, 2] : Fin 3 → Fin S64x2x2045x1.rank)
  bcast_S64x2x2045x1_S64x2x2045x4_0_1_2_3 : S64x2x2045x1.BroadcastsInDim S64x2x2045x4 (![0, 1, 2, 3] : Fin 4 → Fin S64x2x2045x4.rank)
  reducesTo_S64x2x2045_S_d0_1_2 : S64x2x2045.ReducesTo [0, 1, 2] S_
  bcast_S2041_S2041x1_0 : S2041.BroadcastsInDim S2041x1 (![0] : Fin 1 → Fin S2041x1.rank)
  bcast_S8_S1x8_1 : S8.BroadcastsInDim S1x8 (![1] : Fin 1 → Fin S1x8.rank)
  bcast_S2041x1_S2041x8_0_1 : S2041x1.BroadcastsInDim S2041x8 (![0, 1] : Fin 2 → Fin S2041x8.rank)
  bcast_S1x8_S2041x8_0_1 : S1x8.BroadcastsInDim S2041x8 (![0, 1] : Fin 2 → Fin S2041x8.rank)
  bcast_S_S2041x8 : S_.BroadcastsInDim S2041x8 (![] : Fin 0 → Fin S2041x8.rank)
  bcast_S2041x8_S2041x8x1_0_1 : S2041x8.BroadcastsInDim S2041x8x1 (![0, 1] : Fin 2 → Fin S2041x8x1.rank)
  reducesTo_S64x2x2041x8_S64x2x2041_d3 : S64x2x2041x8.ReducesTo [3] S64x2x2041
  bcast_S_S64x2x2041 : S_.BroadcastsInDim S64x2x2041 (![] : Fin 0 → Fin S64x2x2041.rank)
  bcast_S64x2x2041_S64x2x2041x1_0_1_2 : S64x2x2041.BroadcastsInDim S64x2x2041x1 (![0, 1, 2] : Fin 3 → Fin S64x2x2041x1.rank)
  bcast_S64x2x2041x1_S64x2x2041x8_0_1_2_3 : S64x2x2041x1.BroadcastsInDim S64x2x2041x8 (![0, 1, 2, 3] : Fin 4 → Fin S64x2x2041x8.rank)
  reducesTo_S64x2x2041_S_d0_1_2 : S64x2x2041.ReducesTo [0, 1, 2] S_
  bcast_S2033_S2033x1_0 : S2033.BroadcastsInDim S2033x1 (![0] : Fin 1 → Fin S2033x1.rank)
  bcast_S16_S1x16_1 : S16.BroadcastsInDim S1x16 (![1] : Fin 1 → Fin S1x16.rank)
  bcast_S2033x1_S2033x16_0_1 : S2033x1.BroadcastsInDim S2033x16 (![0, 1] : Fin 2 → Fin S2033x16.rank)
  bcast_S1x16_S2033x16_0_1 : S1x16.BroadcastsInDim S2033x16 (![0, 1] : Fin 2 → Fin S2033x16.rank)
  bcast_S_S2033x16 : S_.BroadcastsInDim S2033x16 (![] : Fin 0 → Fin S2033x16.rank)
  bcast_S2033x16_S2033x16x1_0_1 : S2033x16.BroadcastsInDim S2033x16x1 (![0, 1] : Fin 2 → Fin S2033x16x1.rank)
  reducesTo_S64x2x2033x16_S64x2x2033_d3 : S64x2x2033x16.ReducesTo [3] S64x2x2033
  bcast_S_S64x2x2033 : S_.BroadcastsInDim S64x2x2033 (![] : Fin 0 → Fin S64x2x2033.rank)
  bcast_S64x2x2033_S64x2x2033x1_0_1_2 : S64x2x2033.BroadcastsInDim S64x2x2033x1 (![0, 1, 2] : Fin 3 → Fin S64x2x2033x1.rank)
  bcast_S64x2x2033x1_S64x2x2033x16_0_1_2_3 : S64x2x2033x1.BroadcastsInDim S64x2x2033x16 (![0, 1, 2, 3] : Fin 4 → Fin S64x2x2033x16.rank)
  reducesTo_S64x2x2033_S_d0_1_2 : S64x2x2033.ReducesTo [0, 1, 2] S_
  bcast_S2017_S2017x1_0 : S2017.BroadcastsInDim S2017x1 (![0] : Fin 1 → Fin S2017x1.rank)
  bcast_S32_S1x32_1 : S32.BroadcastsInDim S1x32 (![1] : Fin 1 → Fin S1x32.rank)
  bcast_S2017x1_S2017x32_0_1 : S2017x1.BroadcastsInDim S2017x32 (![0, 1] : Fin 2 → Fin S2017x32.rank)
  bcast_S1x32_S2017x32_0_1 : S1x32.BroadcastsInDim S2017x32 (![0, 1] : Fin 2 → Fin S2017x32.rank)
  bcast_S_S2017x32 : S_.BroadcastsInDim S2017x32 (![] : Fin 0 → Fin S2017x32.rank)
  bcast_S2017x32_S2017x32x1_0_1 : S2017x32.BroadcastsInDim S2017x32x1 (![0, 1] : Fin 2 → Fin S2017x32x1.rank)
  reducesTo_S64x2x2017x32_S64x2x2017_d3 : S64x2x2017x32.ReducesTo [3] S64x2x2017
  bcast_S_S64x2x2017 : S_.BroadcastsInDim S64x2x2017 (![] : Fin 0 → Fin S64x2x2017.rank)
  bcast_S64x2x2017_S64x2x2017x1_0_1_2 : S64x2x2017.BroadcastsInDim S64x2x2017x1 (![0, 1, 2] : Fin 3 → Fin S64x2x2017x1.rank)
  bcast_S64x2x2017x1_S64x2x2017x32_0_1_2_3 : S64x2x2017x1.BroadcastsInDim S64x2x2017x32 (![0, 1, 2, 3] : Fin 4 → Fin S64x2x2017x32.rank)
  reducesTo_S64x2x2017_S_d0_1_2 : S64x2x2017.ReducesTo [0, 1, 2] S_
  bcast_S1985_S1985x1_0 : S1985.BroadcastsInDim S1985x1 (![0] : Fin 1 → Fin S1985x1.rank)
  bcast_S64_S1x64_1 : S64.BroadcastsInDim S1x64 (![1] : Fin 1 → Fin S1x64.rank)
  bcast_S1985x1_S1985x64_0_1 : S1985x1.BroadcastsInDim S1985x64 (![0, 1] : Fin 2 → Fin S1985x64.rank)
  bcast_S1x64_S1985x64_0_1 : S1x64.BroadcastsInDim S1985x64 (![0, 1] : Fin 2 → Fin S1985x64.rank)
  bcast_S_S1985x64 : S_.BroadcastsInDim S1985x64 (![] : Fin 0 → Fin S1985x64.rank)
  bcast_S1985x64_S1985x64x1_0_1 : S1985x64.BroadcastsInDim S1985x64x1 (![0, 1] : Fin 2 → Fin S1985x64x1.rank)
  reducesTo_S64x2x1985x64_S64x2x1985_d3 : S64x2x1985x64.ReducesTo [3] S64x2x1985
  bcast_S_S64x2x1985 : S_.BroadcastsInDim S64x2x1985 (![] : Fin 0 → Fin S64x2x1985.rank)
  bcast_S64x2x1985_S64x2x1985x1_0_1_2 : S64x2x1985.BroadcastsInDim S64x2x1985x1 (![0, 1, 2] : Fin 3 → Fin S64x2x1985x1.rank)
  bcast_S64x2x1985x1_S64x2x1985x64_0_1_2_3 : S64x2x1985x1.BroadcastsInDim S64x2x1985x64 (![0, 1, 2, 3] : Fin 4 → Fin S64x2x1985x64.rank)
  reducesTo_S64x2x1985_S_d0_1_2 : S64x2x1985.ReducesTo [0, 1, 2] S_
  bcast_S1921_S1921x1_0 : S1921.BroadcastsInDim S1921x1 (![0] : Fin 1 → Fin S1921x1.rank)
  bcast_S128_S1x128_1 : S128.BroadcastsInDim S1x128 (![1] : Fin 1 → Fin S1x128.rank)
  bcast_S1921x1_S1921x128_0_1 : S1921x1.BroadcastsInDim S1921x128 (![0, 1] : Fin 2 → Fin S1921x128.rank)
  bcast_S1x128_S1921x128_0_1 : S1x128.BroadcastsInDim S1921x128 (![0, 1] : Fin 2 → Fin S1921x128.rank)
  bcast_S_S1921x128 : S_.BroadcastsInDim S1921x128 (![] : Fin 0 → Fin S1921x128.rank)
  bcast_S1921x128_S1921x128x1_0_1 : S1921x128.BroadcastsInDim S1921x128x1 (![0, 1] : Fin 2 → Fin S1921x128x1.rank)
  reducesTo_S64x2x1921x128_S64x2x1921_d3 : S64x2x1921x128.ReducesTo [3] S64x2x1921
  bcast_S_S64x2x1921 : S_.BroadcastsInDim S64x2x1921 (![] : Fin 0 → Fin S64x2x1921.rank)
  bcast_S64x2x1921_S64x2x1921x1_0_1_2 : S64x2x1921.BroadcastsInDim S64x2x1921x1 (![0, 1, 2] : Fin 3 → Fin S64x2x1921x1.rank)
  bcast_S64x2x1921x1_S64x2x1921x128_0_1_2_3 : S64x2x1921x1.BroadcastsInDim S64x2x1921x128 (![0, 1, 2, 3] : Fin 4 → Fin S64x2x1921x128.rank)
  reducesTo_S64x2x1921_S_d0_1_2 : S64x2x1921.ReducesTo [0, 1, 2] S_
  bcast_S_S1 : S_.BroadcastsInDim S1 (![] : Fin 0 → Fin S1.rank)
  concatenates_S1_S1_S1_S1_S1_S1_S6_d0 : Shape.Concatenates [S1, S1, S1, S1, S1, S1] S6 0
  reducesTo_S6_S_d0 : S6.ReducesTo [0] S_
  gather_S64x2x2048_S2045x4x1_S64x2x2045x4_01_2_n_n_2_2_6421_wf : GatherDims.WF S64x2x2048 S2045x4x1 S64x2x2045x4 [0, 1] [2] [] [2] [] 2 ![64, 2, 1]
  gather_S64x2x2048_S2041x8x1_S64x2x2041x8_01_2_n_n_2_2_6421_wf : GatherDims.WF S64x2x2048 S2041x8x1 S64x2x2041x8 [0, 1] [2] [] [2] [] 2 ![64, 2, 1]
  gather_S64x2x2048_S2033x16x1_S64x2x2033x16_01_2_n_n_2_2_6421_wf : GatherDims.WF S64x2x2048 S2033x16x1 S64x2x2033x16 [0, 1] [2] [] [2] [] 2 ![64, 2, 1]
  gather_S64x2x2048_S2017x32x1_S64x2x2017x32_01_2_n_n_2_2_6421_wf : GatherDims.WF S64x2x2048 S2017x32x1 S64x2x2017x32 [0, 1] [2] [] [2] [] 2 ![64, 2, 1]
  gather_S64x2x2048_S1985x64x1_S64x2x1985x64_01_2_n_n_2_2_6421_wf : GatherDims.WF S64x2x2048 S1985x64x1 S64x2x1985x64 [0, 1] [2] [] [2] [] 2 ![64, 2, 1]
  gather_S64x2x2048_S1921x128x1_S64x2x1921x128_01_2_n_n_2_2_6421_wf : GatherDims.WF S64x2x2048 S1921x128x1 S64x2x1921x128 [0, 1] [2] [] [2] [] 2 ![64, 2, 1]

variable [Facts₀]

def gather_S64x2x2048_S2045x4x1_S64x2x2045x4_01_2_n_n_2_2_6421 : GatherDims S64x2x2048 S2045x4x1 S64x2x2045x4 where
  offsetDims := [0, 1]
  collapsedSliceDims := [2]
  operandBatchingDims := []
  startIndicesBatchingDims := []
  startIndexMap := [2]
  indexVectorDim := 2
  sliceSizes := ![64, 2, 1]
  wf := gather_S64x2x2048_S2045x4x1_S64x2x2045x4_01_2_n_n_2_2_6421_wf
def gather_S64x2x2048_S2041x8x1_S64x2x2041x8_01_2_n_n_2_2_6421 : GatherDims S64x2x2048 S2041x8x1 S64x2x2041x8 where
  offsetDims := [0, 1]
  collapsedSliceDims := [2]
  operandBatchingDims := []
  startIndicesBatchingDims := []
  startIndexMap := [2]
  indexVectorDim := 2
  sliceSizes := ![64, 2, 1]
  wf := gather_S64x2x2048_S2041x8x1_S64x2x2041x8_01_2_n_n_2_2_6421_wf
def gather_S64x2x2048_S2033x16x1_S64x2x2033x16_01_2_n_n_2_2_6421 : GatherDims S64x2x2048 S2033x16x1 S64x2x2033x16 where
  offsetDims := [0, 1]
  collapsedSliceDims := [2]
  operandBatchingDims := []
  startIndicesBatchingDims := []
  startIndexMap := [2]
  indexVectorDim := 2
  sliceSizes := ![64, 2, 1]
  wf := gather_S64x2x2048_S2033x16x1_S64x2x2033x16_01_2_n_n_2_2_6421_wf
def gather_S64x2x2048_S2017x32x1_S64x2x2017x32_01_2_n_n_2_2_6421 : GatherDims S64x2x2048 S2017x32x1 S64x2x2017x32 where
  offsetDims := [0, 1]
  collapsedSliceDims := [2]
  operandBatchingDims := []
  startIndicesBatchingDims := []
  startIndexMap := [2]
  indexVectorDim := 2
  sliceSizes := ![64, 2, 1]
  wf := gather_S64x2x2048_S2017x32x1_S64x2x2017x32_01_2_n_n_2_2_6421_wf
def gather_S64x2x2048_S1985x64x1_S64x2x1985x64_01_2_n_n_2_2_6421 : GatherDims S64x2x2048 S1985x64x1 S64x2x1985x64 where
  offsetDims := [0, 1]
  collapsedSliceDims := [2]
  operandBatchingDims := []
  startIndicesBatchingDims := []
  startIndexMap := [2]
  indexVectorDim := 2
  sliceSizes := ![64, 2, 1]
  wf := gather_S64x2x2048_S1985x64x1_S64x2x1985x64_01_2_n_n_2_2_6421_wf
def gather_S64x2x2048_S1921x128x1_S64x2x1921x128_01_2_n_n_2_2_6421 : GatherDims S64x2x2048 S1921x128x1 S64x2x1921x128 where
  offsetDims := [0, 1]
  collapsedSliceDims := [2]
  operandBatchingDims := []
  startIndicesBatchingDims := []
  startIndexMap := [2]
  indexVectorDim := 2
  sliceSizes := ![64, 2, 1]
  wf := gather_S64x2x2048_S1921x128x1_S64x2x1921x128_01_2_n_n_2_2_6421_wf

class Facts : Prop extends Facts₀ where

variable [Facts]
-- ==== Proof.LibTypedRead.lean ====
/-
  Reading a valuation at a typed reference, with no transport left behind.

  A host operation of a module-local function names its operands and its result by typed references: a buffer together
  with the value type its contents have. The operation's function works on values of those types, and the buffer's own
  contents type is reached by a transport along the equation between the two (the identity, once the types are
  computed). Reading the result of a line of such operations buffer by buffer leaves a pair of transports at every
  producer–consumer edge. Here the contents of a buffer are read AT THE VALUE TYPE (`get`): then every edge's pair is
  cancelled where it arises, by lemmas proved once for arbitrary typed references, and the terms that come out are the
  operations' functions applied to one another and nothing else.

      get y ((unary x y f).result V) = f (get x V)              get z ((unary x y f).result V) = get z V   (z ≠ y)

  and the same for operations of no, two and three operands and for a reshape. `get_after` reads a whole line.
-/
import Idealize.ShloMosaic.Lib.StableHlo.Run

noncomputable section

namespace Cert.LibTypedRead

open Idealize.ShloMosaic Idealize.ShloMosaic.StableHlo

variable {τ : Topo} {sig : RefSig} {Val : EltTy → Type}
variable {T Tx Ta Tb Tc Ty : BufTy}

/-- The contents of a typed reference's buffer, at the reference's value type. -/
def get (x : TRef sig T) (V : Valuation τ sig Val) : T.Contents Val :=
  x.ofBuf (V (Proc.devRef .tc x.ref))

/-- To the buffer's type and back is the identity … -/
theorem ofBuf_toBuf (x : TRef sig T) (v : T.Contents Val) : x.ofBuf (x.toBuf v) = v := by
  obtain ⟨r, h, hd, hu⟩ := x
  subst h
  rfl

/-- … and so is back and forth. -/
theorem toBuf_ofBuf (x : TRef sig T) (v : x.ref.ty.Contents Val) : x.toBuf (x.ofBuf v) = v := by
  obtain ⟨r, h, hd, hu⟩ := x
  subst h
  rfl

/-- A buffer's contents from its typed reading. -/
theorem eq_toBuf_of_get (x : TRef sig T) (V : Valuation τ sig Val) (v : T.Contents Val) (h : get x V = v) :
    V (Proc.devRef .tc x.ref) = x.toBuf v := by
  rw [← h]; exact (toBuf_ofBuf x _).symm

/-! ## The written buffer -/

theorem get_nullary (y : TRef sig Ty) (v : Ty.Contents Val) (V : Valuation τ sig Val) :
    get y ((TRef.nullary y v : HloOp τ sig Val).result V) = v := by
  unfold get TRef.nullary
  rw [nullary_result]
  exact ofBuf_toBuf y v

theorem get_unary (x : TRef sig Tx) (y : TRef sig Ty) (f : Tx.Contents Val → Ty.Contents Val) (V : Valuation τ sig Val) :
    get y ((TRef.unary x y f : HloOp τ sig Val).result V) = f (get x V) := by
  unfold get TRef.unary
  rw [unary_result]
  exact ofBuf_toBuf y _

theorem get_binary (a : TRef sig Ta) (b : TRef sig Tb) (y : TRef sig Ty)
    (f : Ta.Contents Val → Tb.Contents Val → Ty.Contents Val) (V : Valuation τ sig Val) :
    get y ((TRef.binary a b y f : HloOp τ sig Val).result V) = f (get a V) (get b V) := by
  unfold get TRef.binary
  rw [binary_result]
  exact ofBuf_toBuf y _

theorem get_ternary (c : TRef sig Tc) (a : TRef sig Ta) (b : TRef sig Tb) (y : TRef sig Ty)
    (f : Tc.Contents Val → Ta.Contents Val → Tb.Contents Val → Ty.Contents Val) (V : Valuation τ sig Val) :
    get y ((TRef.ternary c a b y f : HloOp τ sig Val).result V) = f (get c V) (get a V) (get b V) := by
  unfold get TRef.ternary
  rw [ternary_result]
  exact ofBuf_toBuf y _

theorem get_reshape (x : TRef sig Tx) (y : TRef sig Ty) (he : Tx.elt = Ty.elt) (hn : Tx.shape.ShapeCasts Ty.shape)
    (V : Valuation τ sig Val) :
    get y ((TRef.reshape x y he hn : HloOp τ sig Val).result V) = fun i => he ▸ shapeCast Ty.shape (get x V) hn i := by
  obtain ⟨xr, hx, hxd, hxu⟩ := x
  obtain ⟨yr, hy, hyd, hyu⟩ := y
  subst hx hy
  unfold get TRef.reshape
  rw [reshape_result]
  rfl

/-! ## Any other buffer -/

theorem get_nullary_ne (z : TRef sig T) (y : TRef sig Ty) (v : Ty.Contents Val) (V : Valuation τ sig Val) (h : z.ref ≠ y.ref) :
    get z ((TRef.nullary y v : HloOp τ sig Val).result V) = get z V := by
  unfold get TRef.nullary
  exact congrArg _ (nullary_result_ne _ _ _ _ h)

theorem get_unary_ne (z : TRef sig T) (x : TRef sig Tx) (y : TRef sig Ty) (f : Tx.Contents Val → Ty.Contents Val)
    (V : Valuation τ sig Val) (h : z.ref ≠ y.ref) :
    get z ((TRef.unary x y f : HloOp τ sig Val).result V) = get z V := by
  unfold get TRef.unary
  exact congrArg _ (unary_result_ne _ _ _ _ _ _ h)

theorem get_binary_ne (z : TRef sig T) (a : TRef sig Ta) (b : TRef sig Tb) (y : TRef sig Ty)
    (f : Ta.Contents Val → Tb.Contents Val → Ty.Contents Val) (V : Valuation τ sig Val) (h : z.ref ≠ y.ref) :
    get z ((TRef.binary a b y f : HloOp τ sig Val).result V) = get z V := by
  unfold get TRef.binary
  exact congrArg _ (binary_result_ne _ _ _ _ _ _ _ _ h)

theorem get_ternary_ne (z : TRef sig T) (c : TRef sig Tc) (a : TRef sig Ta) (b : TRef sig Tb) (y : TRef sig Ty)
    (f : Tc.Contents Val → Ta.Contents Val → Tb.Contents Val → Ty.Contents Val) (V : Valuation τ sig Val) (h : z.ref ≠ y.ref) :
    get z ((TRef.ternary c a b y f : HloOp τ sig Val).result V) = get z V := by
  unfold get TRef.ternary
  exact congrArg _ (ternary_result_ne _ _ _ _ _ _ _ _ _ _ h)

theorem get_reshape_ne (z : TRef sig T) (x : TRef sig Tx) (y : TRef sig Ty) (he : Tx.elt = Ty.elt)
    (hn : Tx.shape.ShapeCasts Ty.shape) (V : Valuation τ sig Val) (h : z.ref ≠ y.ref) :
    get z ((TRef.reshape x y he hn : HloOp τ sig Val).result V) = get z V := by
  unfold get TRef.reshape
  exact congrArg _ (reshape_result_ne _ _ _ _ _ _ _ h)

/-! ## A line of operations -/

theorem get_after_nil (z : TRef sig T) (V : Valuation τ sig Val) : get z (after [] V) = get z V := rfl

theorem get_after_cons (z : TRef sig T) (op : HloOp τ sig Val) (ops : List (HloOp τ sig Val)) (V : Valuation τ sig Val) :
    get z (after (op :: ops) V) = get z (after ops (op.result V)) := rfl

end Cert.LibTypedRead

end
-- ==== Proof.RefTypedCasts.lean ====
/-
  Two facts for reading a long host program's run back: the border transports of an inlined function call, and a
  six-operand operation over a literal family of references.

  A host operation of an inlined call reads and writes its buffers at the value type the call's text gives them, through
  a transport along "the buffer's type is that type" (the identity, once the buffer's type is computed). Inside the call
  every such pair cancels (LibTypedRead: to the buffer's type and back is the identity, for any typed reference). At the
  border — an operand of the call that an ordinary operation of @main wrote: here the gathered windows, read by the
  outlined log-softmax — the transport stands alone; for each such buffer it is the identity, by computing that
  buffer's type, with the transported value a variable.
-/
import proofs.«110521_j60129542144534_2_alg».proof.Proof.Gen.ReferenceIdeal
import proofs.«110521_j60129542144534_2_alg».proof.Proof.LibTypedRead
import Idealize.ShloMosaic.Lib.StableHlo.Run
import Mathlib.Tactic.FinCases

noncomputable section

namespace Cert.ReferenceIdeal.TypedCasts

open Cert.ReferenceIdeal Cert.ReferenceIdeal.Gen Idealize.ShloMosaic Idealize.ShloMosaic.StableHlo

/-! ## A six-operand operation over a literal family of references -/

section SixOperands
variable {τ : Topo} {sig : RefSig} {Val : EltTy → Type}
variable {x0 x1 x2 x3 x4 x5 y : Ref sig .tc}

/-- A function of a six-member family of contents, at six given contents: the family spelt out, so that each member is a
    plain argument (the members of a piece list sit in the dependent component of the pieces, where a rewrite cannot
    reach them). -/
def six (f : ((k : Fin 6) → ((![x0, x1, x2, x3, x4, x5] : Fin 6 → Ref sig .tc) k).ty.Contents Val) → y.ty.Contents Val)
    (a0 : x0.ty.Contents Val) (a1 : x1.ty.Contents Val) (a2 : x2.ty.Contents Val) (a3 : x3.ty.Contents Val)
    (a4 : x4.ty.Contents Val) (a5 : x5.ty.Contents Val) : y.ty.Contents Val :=
  f (Fin.cons a0 (Fin.cons a1 (Fin.cons a2 (Fin.cons a3 (Fin.cons a4 (Fin.cons a5 (fun i => i.elim0)))))))

/-- The result of a six-operand host operation (a concatenate of six pieces) over a LITERAL family of references, with
    each operand's contents read at its own reference — so that reading the operands' producers can go on — instead of
    at the family's `k`-th member under a binder. -/
theorem nary6_result'
    (f : ((k : Fin 6) → ((![x0, x1, x2, x3, x4, x5] : Fin 6 → Ref sig .tc) k).ty.Contents Val) → y.ty.Contents Val) (hxs hy)
    (F : Valuation τ sig Val) :
    (nary (τ := τ) ![x0, x1, x2, x3, x4, x5] y f hxs hy).result F (no_index (Proc.devRef .tc y))
      = six f (F (Proc.devRef .tc x0)) (F (Proc.devRef .tc x1)) (F (Proc.devRef .tc x2)) (F (Proc.devRef .tc x3))
          (F (Proc.devRef .tc x4)) (F (Proc.devRef .tc x5)) := by
  unfold six; rw [nary_result]; congr 1; funext k; fin_cases k <;> rfl

end SixOperands

/-! ## The border transports -/

variable {F : FTy → Type} [FloatOps F]

/-- The windows gathered into `main_v13`, read at their value type, are themselves. -/
theorem ofBuf_main_v13 (p q r) (v : (⟨S64x2x2045x4, .f32⟩ : BufTy).Contents (Elt F)) :
    (TRef.of (T := ⟨S64x2x2045x4, .f32⟩) main_v13 p q r).ofBuf v = v := rfl
/-- The windows gathered into `main_v41`, read at their value type, are themselves. -/
theorem ofBuf_main_v41 (p q r) (v : (⟨S64x2x2045x4, .f32⟩ : BufTy).Contents (Elt F)) :
    (TRef.of (T := ⟨S64x2x2045x4, .f32⟩) main_v41 p q r).ofBuf v = v := rfl
/-- The windows gathered into `main_v73`, read at their value type, are themselves. -/
theorem ofBuf_main_v73 (p q r) (v : (⟨S64x2x2041x8, .f32⟩ : BufTy).Contents (Elt F)) :
    (TRef.of (T := ⟨S64x2x2041x8, .f32⟩) main_v73 p q r).ofBuf v = v := rfl
/-- The windows gathered into `main_v101`, read at their value type, are themselves. -/
theorem ofBuf_main_v101 (p q r) (v : (⟨S64x2x2041x8, .f32⟩ : BufTy).Contents (Elt F)) :
    (TRef.of (T := ⟨S64x2x2041x8, .f32⟩) main_v101 p q r).ofBuf v = v := rfl
/-- The windows gathered into `main_v133`, read at their value type, are themselves. -/
theorem ofBuf_main_v133 (p q r) (v : (⟨S64x2x2033x16, .f32⟩ : BufTy).Contents (Elt F)) :
    (TRef.of (T := ⟨S64x2x2033x16, .f32⟩) main_v133 p q r).ofBuf v = v := rfl
/-- The windows gathered into `main_v161`, read at their value type, are themselves. -/
theorem ofBuf_main_v161 (p q r) (v : (⟨S64x2x2033x16, .f32⟩ : BufTy).Contents (Elt F)) :
    (TRef.of (T := ⟨S64x2x2033x16, .f32⟩) main_v161 p q r).ofBuf v = v := rfl
/-- The windows gathered into `main_v193`, read at their value type, are themselves. -/
theorem ofBuf_main_v193 (p q r) (v : (⟨S64x2x2017x32, .f32⟩ : BufTy).Contents (Elt F)) :
    (TRef.of (T := ⟨S64x2x2017x32, .f32⟩) main_v193 p q r).ofBuf v = v := rfl
/-- The windows gathered into `main_v221`, read at their value type, are themselves. -/
theorem ofBuf_main_v221 (p q r) (v : (⟨S64x2x2017x32, .f32⟩ : BufTy).Contents (Elt F)) :
    (TRef.of (T := ⟨S64x2x2017x32, .f32⟩) main_v221 p q r).ofBuf v = v := rfl
/-- The windows gathered into `main_v253`, read at their value type, are themselves. -/
theorem ofBuf_main_v253 (p q r) (v : (⟨S64x2x1985x64, .f32⟩ : BufTy).Contents (Elt F)) :
    (TRef.of (T := ⟨S64x2x1985x64, .f32⟩) main_v253 p q r).ofBuf v = v := rfl
/-- The windows gathered into `main_v281`, read at their value type, are themselves. -/
theorem ofBuf_main_v281 (p q r) (v : (⟨S64x2x1985x64, .f32⟩ : BufTy).Contents (Elt F)) :
    (TRef.of (T := ⟨S64x2x1985x64, .f32⟩) main_v281 p q r).ofBuf v = v := rfl
/-- The windows gathered into `main_v313`, read at their value type, are themselves. -/
theorem ofBuf_main_v313 (p q r) (v : (⟨S64x2x1921x128, .f32⟩ : BufTy).Contents (Elt F)) :
    (TRef.of (T := ⟨S64x2x1921x128, .f32⟩) main_v313 p q r).ofBuf v = v := rfl
/-- The windows gathered into `main_v341`, read at their value type, are themselves. -/
theorem ofBuf_main_v341 (p q r) (v : (⟨S64x2x1921x128, .f32⟩ : BufTy).Contents (Elt F)) :
    (TRef.of (T := ⟨S64x2x1921x128, .f32⟩) main_v341 p q r).ofBuf v = v := rfl

end Cert.ReferenceIdeal.TypedCasts

end
-- ==== Proof.LibWindowGather.lean ====
/-
  The sliding windows of the last axis, gathered.

  For an array x of shape [A, B, L] and a window width k, with W positions, the array of windows is
  t(g, h, p, i) = x(g, h, p + i), of shape [A, B, W, k]. It is computed as a gather of x along its last axis at
  the integer array s(p, i) = p + i, which itself is built from two counting arrays: the positions 0 … W − 1 down
  the rows, the offsets 0 … k − 1 along the columns, their sum, and a wrap-around of negative entries by the axis
  length (which never acts, the sum being nonnegative).

    * the gather's dimension numbers (windowDims) and the gather read at (g, h, p, i): the operand at (g, h, ·)
      with last coordinate the start index at (p, i, 0), read signed and clamped into [0, L − 1];
    * the array of start indices (windowStarts) and its value at (p, i, 0): the 32-bit word of p + i;
    * the two composed: the gathered array at (g, h, p, i) is x(g, h, p + i).

  Every statement is over literal index constructors and arbitrary extents.
-/
import Idealize.ShloMosaic.Lib.ValueIdx
import Idealize.ShloMosaic.Lib.ValueLayout
import Idealize.ShloMosaic.Lib.Pipeline.Value

noncomputable section

namespace Cert.LibWindowGather

open Idealize.ShloMosaic Idealize.ShloMosaic.ValueIdx

variable {α : Type}

/-! ## The gather along the last axis -/

/-- The dimension numbers of the gather of an [A, B, L] operand along its last axis at an array of start indices
    [W, k, 1], with result [A, B, W, k]: the two leading operand axes are kept whole (they are the result's offset
    axes 0 and 1, slice sizes A and B), the last one is indexed and collapsed (slice size 1). -/
abbrev windowDims (A B L W k : ℕ)
    (wf : GatherDims.WF ⟨3, ![A, B, L]⟩ ⟨3, ![W, k, 1]⟩ ⟨4, ![A, B, W, k]⟩ [0, 1] [2] [] [2] [] 2 ![A, B, 1]) :
    GatherDims ⟨3, ![A, B, L]⟩ ⟨3, ![W, k, 1]⟩ ⟨4, ![A, B, W, k]⟩ where
  offsetDims := [0, 1]
  collapsedSliceDims := [2]
  operandBatchingDims := []
  startIndicesBatchingDims := []
  startIndexMap := [2]
  indexVectorDim := 2
  sliceSizes := ![A, B, 1]
  wf := wf

section Gather
variable {A B L W k w : ℕ}
  (wf : GatherDims.WF ⟨3, ![A, B, L]⟩ ⟨3, ![W, k, 1]⟩ ⟨4, ![A, B, W, k]⟩ [0, 1] [2] [] [2] [] 2 ![A, B, 1])

/-- Two operand axes with different numbers are different. -/
private theorem axis_ne {n : ℕ} {a b : Fin n} (hab : a.val ≠ b.val) : a ≠ b := fun e => hab (congrArg Fin.val e)

/-- Axis 0 of the operand is not the indexed axis. -/
private theorem zero_not_mem : (0 : Fin (⟨3, ![A, B, L]⟩ : Shape).rank) ∉ ([2] : List (Fin (⟨3, ![A, B, L]⟩ : Shape).rank)) :=
  fun hm => axis_ne (show (0 : ℕ) ≠ 2 by omega) (List.mem_singleton.mp hm)
/-- Axis 1 of the operand is not the indexed axis. -/
private theorem one_not_mem : (1 : Fin (⟨3, ![A, B, L]⟩ : Shape).rank) ∉ ([2] : List (Fin (⟨3, ![A, B, L]⟩ : Shape).rank)) :=
  fun hm => axis_ne (show (1 : ℕ) ≠ 2 by omega) (List.mem_singleton.mp hm)

/-- Among the operand's three axes with the last one removed, axis 0 comes first … -/
private theorem idxOf_kept0 :
    List.idxOf (0 : Fin 3) ((List.finRange 3).filter (fun a : Fin 3 => decide (a ∉ ([2] ++ [] : List (Fin 3))))) = 0 := by
  decide
/-- … and axis 1 second. -/
private theorem idxOf_kept1 :
    List.idxOf (1 : Fin 3) ((List.finRange 3).filter (fun a : Fin 3 => decide (a ∉ ([2] ++ [] : List (Fin 3))))) = 1 := by
  decide

/-- On operand axis 0 the gather reads the result's coordinate 0. -/
private theorem operand_coord0 (idx : IVec ⟨3, ![W, k, 1]⟩ w) (g : Fin A) (h : Fin B) (p : Fin W) (i : Fin k) :
    (windowDims A B L W k wf).start (ix4 g h p i) idx 0 + (windowDims A B L W k wf).batchCoord (ix4 g h p i) 0
      + (windowDims A B L W k wf).offCoord (ix4 g h p i) 0 = g.val := by
  rw [GatherDims.batchCoord_eq_zero _ _ _ List.not_mem_nil]
  have hs : (windowDims A B L W k wf).start (ix4 g h p i) idx 0 = 0 := by
    unfold GatherDims.start
    rw [dif_neg zero_not_mem]
  rw [hs]
  unfold GatherDims.offCoord
  rw [dif_pos ((GatherDims.mem_sKept _ _).mpr ⟨zero_not_mem, List.not_mem_nil⟩)]
  have key : ∀ (m : ℕ) (hm : m < ([0, 1] : List (Fin 4)).length), m = 0 →
      (ix4 g h p i (([0, 1] : List (Fin 4))[m]'hm)).val = g.val := by
    intro m hm e; subst e; rfl
  rw [Nat.zero_add]
  exact key _ _ idxOf_kept0

/-- On operand axis 1 the gather reads the result's coordinate 1. -/
private theorem operand_coord1 (idx : IVec ⟨3, ![W, k, 1]⟩ w) (g : Fin A) (h : Fin B) (p : Fin W) (i : Fin k) :
    (windowDims A B L W k wf).start (ix4 g h p i) idx 1 + (windowDims A B L W k wf).batchCoord (ix4 g h p i) 1
      + (windowDims A B L W k wf).offCoord (ix4 g h p i) 1 = h.val := by
  rw [GatherDims.batchCoord_eq_zero _ _ _ List.not_mem_nil]
  have hs : (windowDims A B L W k wf).start (ix4 g h p i) idx 1 = 0 := by
    unfold GatherDims.start
    rw [dif_neg one_not_mem]
  rw [hs]
  unfold GatherDims.offCoord
  rw [dif_pos ((GatherDims.mem_sKept _ _).mpr ⟨one_not_mem, List.not_mem_nil⟩)]
  have key : ∀ (m : ℕ) (hm : m < ([0, 1] : List (Fin 4)).length), m = 1 →
      (ix4 g h p i (([0, 1] : List (Fin 4))[m]'hm)).val = h.val := by
    intro m hm e; subst e; rfl
  rw [Nat.zero_add]
  exact key _ _ idxOf_kept1

/-- On operand axis 2 the gather reads the clamped start index at (p, i, 0). -/
private theorem operand_coord2 (idx : IVec ⟨3, ![W, k, 1]⟩ w) (g : Fin A) (h : Fin B) (p : Fin W) (i : Fin k) :
    (windowDims A B L W k wf).start (ix4 g h p i) idx 2 + (windowDims A B L W k wf).batchCoord (ix4 g h p i) 2
      + (windowDims A B L W k wf).offCoord (ix4 g h p i) 2 = min (idx (ix3 p i (0 : Fin 1))).toInt.toNat (L - 1) := by
  rw [GatherDims.batchCoord_eq_zero _ _ _ List.not_mem_nil,
    GatherDims.offCoord_eq_zero _ _ _ (fun hm => ((GatherDims.mem_sKept _ _).mp hm).1 (List.mem_singleton.mpr rfl))]
  simp only [Nat.add_zero]
  unfold GatherDims.start
  rw [dif_pos (show (2 : Fin 3) ∈ (windowDims A B L W k wf).startIndexMap from List.mem_singleton.mpr rfl)]
  have hsi : (windowDims A B L W k wf).siIdx (ix4 g h p i) ⟨List.idxOf (2 : Fin 3) (windowDims A B L W k wf).startIndexMap,
      List.idxOf_lt_length_iff.2 (List.mem_singleton.mpr rfl)⟩ = ix3 p i (0 : Fin 1) := by
    funext b; refine Fin.ext ?_
    match b with
    | ⟨0, _⟩ => rfl
    | ⟨1, _⟩ => rfl
    | ⟨2, _⟩ => rfl
  rw [hsi]
  rfl

/-- The gather read at (g, h, p, i): the operand at (g, h, c), where c is the start index at (p, i, 0) read as a
    signed integer and clamped into [0, L − 1]. -/
theorem gather_window_apply (hL : 0 < L)
    (x : (⟨3, ![A, B, L]⟩ : Shape).Idx → α) (idx : IVec ⟨3, ![W, k, 1]⟩ w)
    (g : Fin A) (h : Fin B) (p : Fin W) (i : Fin k) :
    Host.gather (windowDims A B L W k wf) x idx (ix4 g h p i)
      = x (ix3 g h ⟨min (idx (ix3 p i (0 : Fin 1))).toInt.toNat (L - 1), by omega⟩) := by
  unfold Host.gather
  congr 1
  funext a
  refine Fin.ext ?_
  match a with
  | ⟨0, _⟩ => exact operand_coord0 wf idx g h p i
  | ⟨1, _⟩ => exact operand_coord1 wf idx g h p i
  | ⟨2, _⟩ => exact operand_coord2 wf idx g h p i

end Gather

/-! ## The array of start indices -/

section Starts

/-- A natural number below 2³¹, as a 32-bit word read signed, is itself. -/
private theorem toInt_ofNat_small (n : ℕ) (hn : n < 2 ^ 31) : (BitVec.ofNat 32 n).toInt = (n : ℤ) := by
  rw [BitVec.toInt_eq_toNat_cond, BitVec.toNat_ofNat]
  have hm : n % 2 ^ 32 = n := Nat.mod_eq_of_lt (by omega)
  rw [hm]
  split <;> omega

/-- The word of a natural number below 2³¹ is not negative: the signed comparison with zero answers the bit 0. -/
private theorem cmpi_slt_zero (n : ℕ) (hn : n < 2 ^ 31) : IntOp.cmpi .slt (BitVec.ofNat 32 n) 0#32 = 0#1 := by
  have hf : (BitVec.ofNat 32 n).slt 0#32 = false := by
    rw [BitVec.slt, toInt_ofNat_small n hn]
    simp
  show BitVec.ofBool ((BitVec.ofNat 32 n).slt 0#32) = 0#1
  rw [hf]; rfl

variable {W k : ℕ} (ℓ : BitVec 32)
  (h1 : (⟨1, ![W]⟩ : Shape).BroadcastsInDim ⟨2, ![W, 1]⟩ ![0])
  (h3 : (⟨1, ![k]⟩ : Shape).BroadcastsInDim ⟨2, ![1, k]⟩ ![1])
  (h4 : (⟨2, ![W, 1]⟩ : Shape).BroadcastsInDim ⟨2, ![W, k]⟩ ![0, 1])
  (h5 : (⟨2, ![1, k]⟩ : Shape).BroadcastsInDim ⟨2, ![W, k]⟩ ![0, 1])
  (h7 : (⟨0, ![]⟩ : Shape).BroadcastsInDim ⟨2, ![W, k]⟩ ![])
  (h12 : (⟨2, ![W, k]⟩ : Shape).BroadcastsInDim ⟨3, ![W, k, 1]⟩ ![0, 1])

/-- The array s(p, i) = p + i of shape [W, k], as 32-bit words: the column of positions 0 … W − 1 repeated along the
    rows plus the row of offsets 0 … k − 1 repeated down the columns. -/
def windowSum (W k : ℕ)
    (h1 : (⟨1, ![W]⟩ : Shape).BroadcastsInDim ⟨2, ![W, 1]⟩ ![0])
    (h3 : (⟨1, ![k]⟩ : Shape).BroadcastsInDim ⟨2, ![1, k]⟩ ![1])
    (h4 : (⟨2, ![W, 1]⟩ : Shape).BroadcastsInDim ⟨2, ![W, k]⟩ ![0, 1])
    (h5 : (⟨2, ![1, k]⟩ : Shape).BroadcastsInDim ⟨2, ![W, k]⟩ ![0, 1]) : IVec ⟨2, ![W, k]⟩ 32 :=
  addi (broadcastInDim ⟨2, ![W, k]⟩ ![0, 1] h4 (broadcastInDim ⟨2, ![W, 1]⟩ ![0] h1 (iotaInDim ⟨1, ![W]⟩ 32 0)))
    (broadcastInDim ⟨2, ![W, k]⟩ ![0, 1] h5 (broadcastInDim ⟨2, ![1, k]⟩ ![1] h3 (iotaInDim ⟨1, ![k]⟩ 32 0)))

/-- The same array with its negative entries (there are none) moved up by the axis length ℓ: where s(p, i) < 0 the
    entry is s(p, i) + ℓ, elsewhere s(p, i). -/
def windowWrapped (W k : ℕ) (ℓ : BitVec 32)
    (h1 : (⟨1, ![W]⟩ : Shape).BroadcastsInDim ⟨2, ![W, 1]⟩ ![0])
    (h3 : (⟨1, ![k]⟩ : Shape).BroadcastsInDim ⟨2, ![1, k]⟩ ![1])
    (h4 : (⟨2, ![W, 1]⟩ : Shape).BroadcastsInDim ⟨2, ![W, k]⟩ ![0, 1])
    (h5 : (⟨2, ![1, k]⟩ : Shape).BroadcastsInDim ⟨2, ![W, k]⟩ ![0, 1])
    (h7 : (⟨0, ![]⟩ : Shape).BroadcastsInDim ⟨2, ![W, k]⟩ ![]) : IVec ⟨2, ![W, k]⟩ 32 :=
  select
    (cmpi .slt (windowSum W k h1 h3 h4 h5) (broadcastInDim ⟨2, ![W, k]⟩ ![] h7 (constantI ⟨0, ![]⟩ 32 0#32)))
    (addi (windowSum W k h1 h3 h4 h5) (broadcastInDim ⟨2, ![W, k]⟩ ![] h7 (constantI ⟨0, ![]⟩ 32 ℓ)))
    (windowSum W k h1 h3 h4 h5)

/-- The array of start indices of shape [W, k, 1]: the wrapped sums, with a trailing unit axis. -/
def windowStarts (W k : ℕ) (ℓ : BitVec 32)
    (h1 : (⟨1, ![W]⟩ : Shape).BroadcastsInDim ⟨2, ![W, 1]⟩ ![0])
    (h3 : (⟨1, ![k]⟩ : Shape).BroadcastsInDim ⟨2, ![1, k]⟩ ![1])
    (h4 : (⟨2, ![W, 1]⟩ : Shape).BroadcastsInDim ⟨2, ![W, k]⟩ ![0, 1])
    (h5 : (⟨2, ![1, k]⟩ : Shape).BroadcastsInDim ⟨2, ![W, k]⟩ ![0, 1])
    (h7 : (⟨0, ![]⟩ : Shape).BroadcastsInDim ⟨2, ![W, k]⟩ ![])
    (h12 : (⟨2, ![W, k]⟩ : Shape).BroadcastsInDim ⟨3, ![W, k, 1]⟩ ![0, 1]) : IVec ⟨3, ![W, k, 1]⟩ 32 :=
  broadcastInDim ⟨3, ![W, k, 1]⟩ ![0, 1] h12 (windowWrapped W k ℓ h1 h3 h4 h5 h7)

/-- The sum array at (p, i) is the word of p plus the word of i. -/
theorem windowSum_apply (p : Fin W) (i : Fin k) :
    windowSum W k h1 h3 h4 h5 (ix2 p i) = BitVec.ofNat 32 p.val + BitVec.ofNat 32 i.val := by
  have hp := p.isLt
  have hi := i.isLt
  have e4 : broadcastInDim ⟨2, ![W, k]⟩ ![0, 1] h4 (broadcastInDim ⟨2, ![W, 1]⟩ ![0] h1 (iotaInDim ⟨1, ![W]⟩ 32 0)) (ix2 p i)
      = BitVec.ofNat 32 p.val := by
    rw [broadcastInDim_apply _ h4 _ (ix2 p i) (ix2 p (0 : Fin 1)) (fun a => match a with
        | ⟨0, _⟩ => by show p.val = if W = 1 then 0 else p.val; split <;> omega
        | ⟨1, _⟩ => by show 0 = if (1 : ℕ) = 1 then 0 else i.val; rw [if_pos rfl]),
      broadcastInDim_apply _ h1 _ (ix2 p (0 : Fin 1)) (ix1 p) (fun a => match a with
        | ⟨0, _⟩ => by show p.val = if W = 1 then 0 else p.val; split <;> omega)]
    rfl
  have e5 : broadcastInDim ⟨2, ![W, k]⟩ ![0, 1] h5 (broadcastInDim ⟨2, ![1, k]⟩ ![1] h3 (iotaInDim ⟨1, ![k]⟩ 32 0)) (ix2 p i)
      = BitVec.ofNat 32 i.val := by
    rw [broadcastInDim_apply _ h5 _ (ix2 p i) (ix2 (0 : Fin 1) i) (fun a => match a with
        | ⟨0, _⟩ => by show 0 = if (1 : ℕ) = 1 then 0 else p.val; rw [if_pos rfl]
        | ⟨1, _⟩ => by show i.val = if k = 1 then 0 else i.val; split <;> omega),
      broadcastInDim_apply _ h3 _ (ix2 (0 : Fin 1) i) (ix1 i) (fun a => match a with
        | ⟨0, _⟩ => by show i.val = if k = 1 then 0 else i.val; split <;> omega)]
    rfl
  unfold windowSum
  show IntOp.addi _ _ = _
  rw [e4, e5]
  rfl

/-- The wrapped array at (p, i) is the word of p + i, when no sum reaches 2³¹: the sum is not negative, so the
    wrap-around does not act. -/
theorem windowWrapped_apply (hWk : W + k ≤ 2 ^ 31) (p : Fin W) (i : Fin k) :
    windowWrapped W k ℓ h1 h3 h4 h5 h7 (ix2 p i) = BitVec.ofNat 32 (p.val + i.val) := by
  have hp := p.isLt
  have hi := i.isLt
  unfold windowWrapped
  rw [select_apply]
  show Scalar.select (IntOp.cmpi .slt (windowSum W k h1 h3 h4 h5 (ix2 p i)) _) _ (windowSum W k h1 h3 h4 h5 (ix2 p i)) = _
  rw [broadcastInDim_apply _ h7 _ (ix2 p i) ix0 (fun a => a.elim0), windowSum_apply, ← BitVec.ofNat_add]
  show Scalar.select (IntOp.cmpi .slt (BitVec.ofNat 32 (p.val + i.val)) 0#32) _ _ = _
  rw [cmpi_slt_zero _ (by omega), select_zero]

/-- The start index at (p, i, 0) is the word of p + i, when no sum reaches 2³¹. -/
theorem windowStarts_apply (hWk : W + k ≤ 2 ^ 31) (p : Fin W) (i : Fin k) :
    windowStarts W k ℓ h1 h3 h4 h5 h7 h12 (ix3 p i (0 : Fin 1)) = BitVec.ofNat 32 (p.val + i.val) := by
  have hp := p.isLt
  have hi := i.isLt
  unfold windowStarts
  rw [broadcastInDim_apply _ h12 _ (ix3 p i (0 : Fin 1)) (ix2 p i) (fun a => match a with
      | ⟨0, _⟩ => by show p.val = if W = 1 then 0 else p.val; split <;> omega
      | ⟨1, _⟩ => by show i.val = if k = 1 then 0 else i.val; split <;> omega)]
  exact windowWrapped_apply ℓ h1 h3 h4 h5 h7 hWk p i

/-- Read as a signed integer, the start index at (p, i, 0) is p + i. -/
theorem windowStarts_toNat (hWk : W + k ≤ 2 ^ 31) (p : Fin W) (i : Fin k) :
    (windowStarts W k ℓ h1 h3 h4 h5 h7 h12 (ix3 p i (0 : Fin 1))).toInt.toNat = p.val + i.val := by
  have hp := p.isLt
  have hi := i.isLt
  rw [windowStarts_apply ℓ h1 h3 h4 h5 h7 h12 hWk, toInt_ofNat_small _ (by omega)]
  exact Int.toNat_natCast _

end Starts

/-! ## The gathered windows -/

/-- The array of windows: the gather of x along its last axis at the start indices s(p, i) = p + i reads, at
    (g, h, p, i), the operand at (g, h, p + i). The windows fit in the axis (W + k ≤ L + 1), so no start index is
    clamped; the sums stay below 2³¹, so none is negative and the axis length ℓ added to negative ones plays no role. -/
theorem gather_windows {A B L W k : ℕ}
    (wf : GatherDims.WF ⟨3, ![A, B, L]⟩ ⟨3, ![W, k, 1]⟩ ⟨4, ![A, B, W, k]⟩ [0, 1] [2] [] [2] [] 2 ![A, B, 1])
    (ℓ : BitVec 32)
    (h1 : (⟨1, ![W]⟩ : Shape).BroadcastsInDim ⟨2, ![W, 1]⟩ ![0])
    (h3 : (⟨1, ![k]⟩ : Shape).BroadcastsInDim ⟨2, ![1, k]⟩ ![1])
    (h4 : (⟨2, ![W, 1]⟩ : Shape).BroadcastsInDim ⟨2, ![W, k]⟩ ![0, 1])
    (h5 : (⟨2, ![1, k]⟩ : Shape).BroadcastsInDim ⟨2, ![W, k]⟩ ![0, 1])
    (h7 : (⟨0, ![]⟩ : Shape).BroadcastsInDim ⟨2, ![W, k]⟩ ![])
    (h12 : (⟨2, ![W, k]⟩ : Shape).BroadcastsInDim ⟨3, ![W, k, 1]⟩ ![0, 1])
    (hWk : W + k ≤ L + 1) (hL : L < 2 ^ 31) (hk : 0 < k)
    (x : (⟨3, ![A, B, L]⟩ : Shape).Idx → α) (g : Fin A) (h : Fin B) (p : Fin W) (i : Fin k) :
    Host.gather (windowDims A B L W k wf) x (windowStarts W k ℓ h1 h3 h4 h5 h7 h12) (ix4 g h p i)
      = x (ix3 g h ⟨p.val + i.val, by have := p.isLt; have := i.isLt; omega⟩) := by
  have hp := p.isLt
  have hi := i.isLt
  rw [gather_window_apply wf (by omega) x _ g h p i]
  have e : min (windowStarts W k ℓ h1 h3 h4 h5 h7 h12 (ix3 p i (0 : Fin 1))).toInt.toNat (L - 1) = p.val + i.val := by
    rw [windowStarts_toNat ℓ h1 h3 h4 h5 h7 h12 (by omega) p i]
    omega
  exact congrArg (fun c => x (ix3 g h c)) (Fin.ext e)

end Cert.LibWindowGather

end
-- ==== Proof.EntropySpec.lean ====
/-
  The number both programs compute for one window of a row.

  For a finite family of reals t, the sum over the window of softmax(t)_i · log softmax(t)_i, written without the
  normalisation: with S = Σ_i e^{t_i} and T = Σ_i t_i · e^{t_i} it is T / S − log S (softmax(t)_i = e^{t_i} / S and
  log softmax(t)_i = t_i − log S, so the sum is (Σ_i e^{t_i} t_i) / S − (log S) · (Σ_i e^{t_i}) / S).
-/
import Mathlib.Analysis.SpecialFunctions.Log.Basic
import Mathlib.Algebra.BigOperators.Fin

noncomputable section

namespace Cert.Entropy

open scoped BigOperators

/-- T / S − log S of a finite family of reals: the negative entropy of its softmax. -/
def softEnt {ι : Type} [Fintype ι] (t : ι → ℝ) : ℝ :=
  (∑ i, t i * Real.exp (t i)) / (∑ i, Real.exp (t i)) - Real.log (∑ i, Real.exp (t i))

end Cert.Entropy

end
-- ==== Proof.LibRank4.lean ====
/-
  Rank-four arrays read at an index, by coordinates.

  The layout steps that surround a reduction over the last axis of an array indexed by (g, h, i, j), and the
  passage between such an array and the rank-three array whose leading axis merges g and h:

    * [a,b,c,d] viewed as [n,c,d] with n = a·b, and back: the merged coordinate is p = g·b + h;
    * [a,b,c] viewed as [a,b,c,1] and that column repeated along the last axis (a per-row value against
      every entry of its row);
    * [a,c,d] viewed as [a,1,c,d] and that slab repeated along the second axis (one value per (g,i,j)
      against every h);
    * the sum, and the maximum, over the last axis of an [a,b,c,d] array at (g,h,i): the sum, and the fold
      of max, over k of the entries (g,h,i,k).

  Every statement is over literal index constructors, so that it applies to a goal by unification of
  coordinates alone.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibRank4

open Idealize.ShloMosaic Idealize.ShloMosaic.ValueIdx
open scoped BigOperators

variable {α : Type}

/-! ## Merging and splitting the two leading axes -/

/-- An [a,b,c,d] array viewed as [n,c,d]: at (p,i,j) with p = g·b + h it reads (g,h,i,j). -/
theorem shapeCast_merge_apply {n a b c d : ℕ} (x : (⟨4, ![a, b, c, d]⟩ : Shape).Idx → α)
    (hc : (⟨4, ![a, b, c, d]⟩ : Shape).ShapeCasts ⟨3, ![n, c, d]⟩) (p : Fin n) (g : Fin a) (h : Fin b) (i : Fin c)
    (j : Fin d) (hp : p.val = g.val * b + h.val) :
    shapeCast ⟨3, ![n, c, d]⟩ x hc (ix3 p i j) = x (ix4 g h i j) :=
  shapeCast_apply x hc _ _ (by
    rw [Shape.rowMajor_val_four, Shape.rowMajor_val_three]
    show ((g.val * b + h.val) * c + i.val) * d + j.val = (p.val * c + i.val) * d + j.val
    rw [hp])

/-- An [n,c,d] array viewed as [a,b,c,d]: at (g,h,i,j) it reads (p,i,j) with p = g·b + h. -/
theorem shapeCast_split_apply {n a b c d : ℕ} (x : (⟨3, ![n, c, d]⟩ : Shape).Idx → α)
    (hc : (⟨3, ![n, c, d]⟩ : Shape).ShapeCasts ⟨4, ![a, b, c, d]⟩) (p : Fin n) (g : Fin a) (h : Fin b) (i : Fin c)
    (j : Fin d) (hp : p.val = g.val * b + h.val) :
    shapeCast ⟨4, ![a, b, c, d]⟩ x hc (ix4 g h i j) = x (ix3 p i j) :=
  shapeCast_apply x hc _ _ (by
    rw [Shape.rowMajor_val_three, Shape.rowMajor_val_four]
    show (p.val * c + i.val) * d + j.val = ((g.val * b + h.val) * c + i.val) * d + j.val
    rw [hp])

/-! ## A per-row value against its row -/

/-- An [a,b,c] array viewed as [a,b,c,1] reads, at (g,h,i,u), the operand at (g,h,i). -/
theorem shapeCast_abc_abc1_apply {a b c : ℕ} (x : (⟨3, ![a, b, c]⟩ : Shape).Idx → α)
    (hc : (⟨3, ![a, b, c]⟩ : Shape).ShapeCasts ⟨4, ![a, b, c, 1]⟩) (g : Fin a) (h : Fin b) (i : Fin c) (u : Fin 1) :
    shapeCast ⟨4, ![a, b, c, 1]⟩ x hc (ix4 g h i u) = x (ix3 g h i) :=
  shapeCast_apply x hc _ _ (by
    have hu : u.val = 0 := by omega
    rw [Shape.rowMajor_val_three, Shape.rowMajor_val_four]
    show (g.val * b + h.val) * c + i.val = ((g.val * b + h.val) * c + i.val) * 1 + u.val
    rw [hu, Nat.mul_one, Nat.add_zero])

/-- An [a,b,c,1] array repeated along its last axis reads, at (g,h,i,j), the operand's one entry of row (g,h,i). -/
theorem broadcastTo_abc1_abcd_apply {a b c d : ℕ} (x : (⟨4, ![a, b, c, 1]⟩ : Shape).Idx → α)
    (hb : (⟨4, ![a, b, c, 1]⟩ : Shape).Broadcasts ⟨4, ![a, b, c, d]⟩) (g : Fin a) (h : Fin b) (i : Fin c) (j : Fin d) :
    broadcastTo ⟨4, ![a, b, c, d]⟩ x hb (ix4 g h i j) = x (ix4 g h i (0 : Fin 1)) := by
  refine broadcastTo_apply x hb (ix4 g h i j) (ix4 g h i (0 : Fin 1)) fun ax => ?_
  match ax with
  | ⟨0, _⟩ =>
    show g.val = if a = 1 then 0 else g.val
    split
    · have := g.isLt; omega
    · rfl
  | ⟨1, _⟩ =>
    show h.val = if b = 1 then 0 else h.val
    split
    · have := h.isLt; omega
    · rfl
  | ⟨2, _⟩ =>
    show i.val = if c = 1 then 0 else i.val
    split
    · have := i.isLt; omega
    · rfl
  | ⟨3, _⟩ => exact (if_pos rfl).symm

/-! ## One value per (g,i,j) against every h -/

/-- An [a,c,d] array viewed as [a,1,c,d] reads, at (g,u,i,j), the operand at (g,i,j). -/
theorem shapeCast_acd_a1cd_apply {a c d : ℕ} (x : (⟨3, ![a, c, d]⟩ : Shape).Idx → α)
    (hc : (⟨3, ![a, c, d]⟩ : Shape).ShapeCasts ⟨4, ![a, 1, c, d]⟩) (g : Fin a) (u : Fin 1) (i : Fin c) (j : Fin d) :
    shapeCast ⟨4, ![a, 1, c, d]⟩ x hc (ix4 g u i j) = x (ix3 g i j) :=
  shapeCast_apply x hc _ _ (by
    have hu : u.val = 0 := by omega
    rw [Shape.rowMajor_val_three, Shape.rowMajor_val_four]
    show (g.val * c + i.val) * d + j.val = ((g.val * 1 + u.val) * c + i.val) * d + j.val
    rw [hu, Nat.mul_one, Nat.add_zero])

/-- An [a,1,c,d] array repeated along its second axis reads, at (g,h,i,j), the operand at (g,0,i,j). -/
theorem broadcastTo_a1cd_abcd_apply {a b c d : ℕ} (x : (⟨4, ![a, 1, c, d]⟩ : Shape).Idx → α)
    (hb : (⟨4, ![a, 1, c, d]⟩ : Shape).Broadcasts ⟨4, ![a, b, c, d]⟩) (g : Fin a) (h : Fin b) (i : Fin c) (j : Fin d) :
    broadcastTo ⟨4, ![a, b, c, d]⟩ x hb (ix4 g h i j) = x (ix4 g (0 : Fin 1) i j) := by
  refine broadcastTo_apply x hb (ix4 g h i j) (ix4 g (0 : Fin 1) i j) fun ax => ?_
  match ax with
  | ⟨0, _⟩ =>
    show g.val = if a = 1 then 0 else g.val
    split
    · have := g.isLt; omega
    · rfl
  | ⟨1, _⟩ => exact (if_pos rfl).symm
  | ⟨2, _⟩ =>
    show i.val = if c = 1 then 0 else i.val
    split
    · have := i.isLt; omega
    · rfl
  | ⟨3, _⟩ =>
    show j.val = if d = 1 then 0 else j.val
    split
    · have := j.isLt; omega
    · rfl

/-! ## Reductions over the last axis -/

/-- The reduced index (g,h,i) with k put back on the last axis is (g,h,i,k). -/
theorem lift_last {a b c d : ℕ} (hr : (⟨4, ![a, b, c, d]⟩ : Shape).Reduces [3] ⟨3, ![a, b, c]⟩) (g : Fin a) (h : Fin b)
    (i : Fin c) (k : Fin d) : hr.lift (ix3 g h i) k = ix4 g h i k := by
  funext ax; apply Fin.ext
  match ax with
  | ⟨0, _⟩ => rfl
  | ⟨1, _⟩ => rfl
  | ⟨2, _⟩ => rfl
  | ⟨3, _⟩ => rfl

/-- The sum over the last axis of an [a,b,c,d] array, at (g,h,i): the sum over k of the entries (g,h,i,k). -/
theorem multiReduction_add_last_apply {a b c d : ℕ} {φ : FTy} (src : FVec Ideal ⟨4, ![a, b, c, d]⟩ φ) (acc : BitVec φ.bits)
    (hr : (⟨4, ![a, b, c, d]⟩ : Shape).Reduces [3] ⟨3, ![a, b, c]⟩) (hφ : FKind.Formats φ)
    (hacc : acc = FKind.add.neutral φ hφ) (g : Fin a) (h : Fin b) (i : Fin c) :
    multiReduction .add [3] ⟨3, ![a, b, c]⟩ src acc hr hφ hacc (ix3 g h i) = ∑ k : Fin d, src (ix4 g h i k) :=
  (Ideal.multiReduction_add_single src acc hr hφ hacc (ix3 g h i)).trans
    (Finset.sum_congr rfl fun k _ => congrArg src (lift_last hr g h i k))

/-- The maximum over the last axis of an [a,b,c,d] array, at (g,h,i): the fold of max, from the accumulator's
    value, over k of the entries (g,h,i,k). -/
theorem multiReduction_maximumf_last_apply {a b c d : ℕ} {φ : FTy} (src : FVec Ideal ⟨4, ![a, b, c, d]⟩ φ)
    (acc : BitVec φ.bits) (hr : (⟨4, ![a, b, c, d]⟩ : Shape).Reduces [3] ⟨3, ![a, b, c]⟩) (hφ : FKind.Formats φ)
    (hacc : acc = FKind.maximumf.neutral φ hφ) (g : Fin a) (h : Fin b) (i : Fin c) :
    multiReduction .maximumf [3] ⟨3, ![a, b, c]⟩ src acc hr hφ hacc (ix3 g h i)
      = (Finset.univ : Finset (Fin d)).fold max (Ideal.ofBits φ acc) (fun k => src (ix4 g h i k)) :=
  (Ideal.multiReduction_maximumf_single src acc hr hφ hacc (ix3 g h i)).trans
    (congrArg (fun f => Finset.fold max (Ideal.ofBits φ acc) f (Finset.univ : Finset (Fin d)))
      (funext fun k => congrArg src (lift_last hr g h i k)))

/-- The host's reduction with a maximum body over the last axis of an [a,b,c,d] array, at (g,h,i): the fold of max,
    from the initial value, over k of the entries (g,h,i,k). -/
theorem hostReduce_maximumf_last_apply {a b c d : ℕ} {φ : FTy} {u : Shape} (x : FVec Ideal ⟨4, ![a, b, c, d]⟩ φ)
    (init : u.Idx → Ideal φ) (hr' : (⟨4, ![a, b, c, d]⟩ : Shape).ReducesTo [3] ⟨3, ![a, b, c]⟩)
    (hr : (⟨4, ![a, b, c, d]⟩ : Shape).Reduces [3] ⟨3, ![a, b, c]⟩) (hu : 0 < u.numel) (g : Fin a) (h : Fin b) (i : Fin c) :
    Host.reduce FloatOps.maximumf x init hr' hu (ix3 g h i)
      = (Finset.univ : Finset (Fin d)).fold max (init (Shape.Idx.first hu)) (fun k => x (ix4 g h i k)) :=
  (Host.reduce_eq_fold_single FloatOps.maximumf x init hr' hr hu (ix3 g h i)).trans
    (congrArg (fun f => Finset.fold max (init (Shape.Idx.first hu)) f (Finset.univ : Finset (Fin d)))
      (funext fun k => congrArg x (lift_last hr g h i k)))

end Cert.LibRank4

end
-- ==== Proof.LibFiniteSums.lean ====
/-
  General laws for finite sums of REAL entries inside the extended reals.

  On the extended reals multiplication does not distribute over addition at the infinities, so a scale cannot be
  moved across a sum in general. For sums whose entries are all real it can: the sum of coerced reals is the coerced
  real sum, and there the ring laws apply. These are the laws behind folding a per-channel scale (a batch-norm
  scale, a gate) into the weights of a linear map, and behind packing two images side by side with block-diagonal
  weights: the off-diagonal blocks contribute 0 · (a real) = 0.
-/
import Mathlib.Data.EReal.Operations
import Mathlib.Algebra.BigOperators.Ring.Finset
import Mathlib.Algebra.BigOperators.Fin
import Mathlib.Algebra.BigOperators.Field
import Mathlib.Tactic.FinCases
import Mathlib.Tactic.Ring

noncomputable section

namespace Cert.LibFiniteSums

open scoped BigOperators

variable {ι κ : Type*}

/-- The sum of coerced reals is the coerced real sum. -/
theorem coe_sum (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A sum of products of reals, inside the extended reals, is a real. -/
theorem coe_sum_mul (s : Finset ι) (x w : ι → ℝ) :
    (∑ i ∈ s, ((x i : ℝ) : EReal) * ((w i : ℝ) : EReal)) = ((∑ i ∈ s, x i * w i : ℝ) : EReal) := by
  rw [← coe_sum]; exact Finset.sum_congr rfl fun i _ => (EReal.coe_mul _ _).symm

/-- A scale applied AFTER a contraction of reals is the same contraction with the scale folded into the weights:
    (Σ_i x_i w_i) · s = Σ_i x_i (w_i s). -/
theorem sum_mul_scale (s : Finset ι) (x w : ι → ℝ) (c : ℝ) :
    (∑ i ∈ s, ((x i : ℝ) : EReal) * ((w i : ℝ) : EReal)) * ((c : ℝ) : EReal)
      = ∑ i ∈ s, ((x i : ℝ) : EReal) * (((w i : ℝ) : EReal) * ((c : ℝ) : EReal)) := by
  rw [coe_sum_mul, ← EReal.coe_mul, Finset.sum_mul]
  rw [show (∑ i ∈ s, ((x i : ℝ) : EReal) * (((w i : ℝ) : EReal) * ((c : ℝ) : EReal)))
      = ∑ i ∈ s, ((x i * (w i * c) : ℝ) : EReal) from
    Finset.sum_congr rfl fun i _ => by rw [← EReal.coe_mul, ← EReal.coe_mul], coe_sum]
  congr 1
  exact Finset.sum_congr rfl fun i _ => by ring

/-- The same with a bias added on both sides (the folded batch-norm form). -/
theorem sum_mul_scale_add (s : Finset ι) (x w : ι → ℝ) (c b : ℝ) :
    (∑ i ∈ s, ((x i : ℝ) : EReal) * ((w i : ℝ) : EReal)) * ((c : ℝ) : EReal) + ((b : ℝ) : EReal)
      = (∑ i ∈ s, ((x i : ℝ) : EReal) * (((w i : ℝ) : EReal) * ((c : ℝ) : EReal))) + ((b : ℝ) : EReal) := by
  rw [sum_mul_scale]

/-- A gate folded into a contraction: Σ_i (w_i · c · g_i) · z_i = (Σ_i (z_i g_i) w_i) · c. -/
theorem sum_gate_fold (s : Finset ι) (z g w : ι → ℝ) (c : ℝ) :
    (∑ i ∈ s, (((w i : ℝ) : EReal) * ((c : ℝ) : EReal) * ((g i : ℝ) : EReal)) * ((z i : ℝ) : EReal))
      = (∑ i ∈ s, (((z i : ℝ) : EReal) * ((g i : ℝ) : EReal)) * ((w i : ℝ) : EReal)) * ((c : ℝ) : EReal) := by
  rw [show (∑ i ∈ s, (((w i : ℝ) : EReal) * ((c : ℝ) : EReal) * ((g i : ℝ) : EReal)) * ((z i : ℝ) : EReal))
      = ∑ i ∈ s, ((w i * c * g i * z i : ℝ) : EReal) from
    Finset.sum_congr rfl fun i _ => by rw [← EReal.coe_mul, ← EReal.coe_mul, ← EReal.coe_mul], coe_sum]
  rw [show (∑ i ∈ s, (((z i : ℝ) : EReal) * ((g i : ℝ) : EReal)) * ((w i : ℝ) : EReal))
      = ∑ i ∈ s, ((z i * g i * w i : ℝ) : EReal) from
    Finset.sum_congr rfl fun i _ => by rw [← EReal.coe_mul, ← EReal.coe_mul], coe_sum, ← EReal.coe_mul, Finset.sum_mul]
  congr 1
  exact Finset.sum_congr rfl fun i _ => by ring

/-- Two images packed side by side with block-diagonal weights: contracting the pair index against the Kronecker
    delta leaves the one image's contraction. -/
theorem sum_block_diag [Fintype ι] (p : Fin 2) (x : Fin 2 → ι → ℝ) (w : ι → ℝ) :
    (∑ q : Fin 2, ∑ i : ι, ((x q i : ℝ) : EReal) * (((if q = p then (1 : ℝ) else 0 : ℝ) : EReal) * ((w i : ℝ) : EReal)))
      = ∑ i : ι, ((x p i : ℝ) : EReal) * ((w i : ℝ) : EReal) := by
  rw [show (∑ q : Fin 2, ∑ i : ι, ((x q i : ℝ) : EReal) * (((if q = p then (1 : ℝ) else 0 : ℝ) : EReal) * ((w i : ℝ) : EReal)))
      = ∑ q : Fin 2, ((∑ i : ι, x q i * ((if q = p then (1 : ℝ) else 0) * w i) : ℝ) : EReal) from
    Finset.sum_congr rfl fun q _ => by
      rw [← coe_sum]; exact Finset.sum_congr rfl fun i _ => by rw [← EReal.coe_mul, ← EReal.coe_mul]]
  rw [coe_sum, coe_sum_mul]
  congr 1
  rw [Fin.sum_univ_two]
  fin_cases p <;> simp

/-- The mean over a rectangle taken at once is the mean of the row means (all entries real):
    (Σ_h Σ_w z) / (H·W) = (Σ_h (Σ_w z) / W) / H. -/
theorem mean_of_row_means {H W : ℕ} (z : Fin H → Fin W → ℝ) (hH : (H : ℝ) ≠ 0) (hW : (W : ℝ) ≠ 0) :
    (∑ h, ∑ w, z h w) / ((H : ℝ) * (W : ℝ)) = (∑ h, (∑ w, z h w) / (W : ℝ)) / (H : ℝ) := by
  rw [← Finset.sum_div, div_div, mul_comm]

end Cert.LibFiniteSums

end
-- ==== Proof.LibSoftmaxEntropy.lean ====
/-
  The sum over the last axis of softmax · log_softmax of a rank-four array, in the host's spelling, read at a row.

  For t indexed by (g, h, i, k) the host computes, per row (g, h, i): the row maximum m (a maximum-reduction from −∞,
  then the maximum with −∞ once more), the shifted entries t − m, their exponentials e and the row sum z of those; the
  softmax is e / z, the log_softmax is (t − m) − log z (the shifted entries and the row sum computed a second time, by
  the same operations), and the result is the row sum of their product. On a row of reals r_k the row maximum is a
  real M, every later entry is real arithmetic, and the result is T / S − log S with S = Σ_k e^{r_k} and
  T = Σ_k r_k e^{r_k}: the constant M cancels (e^{r − M} = e^{−M} e^{r} leaves numerator and denominator of the
  softmax together, and log (e^{−M} S) = −M + log S).
-/
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws
import Mathlib.Analysis.SpecialFunctions.Log.Basic
import Mathlib.Algebra.BigOperators.Field
import Mathlib.Tactic.FieldSimp
import Mathlib.Tactic.Ring
import proofs.«110521_j60129542144534_2_alg».proof.Proof.EntropySpec
import proofs.«110521_j60129542144534_2_alg».proof.Proof.LibRank4
import proofs.«110521_j60129542144534_2_alg».proof.Proof.LibFiniteSums

noncomputable section

namespace Cert.LibSoftmaxEntropy

open Idealize.ShloMosaic Idealize.ShloMosaic.ValueIdx
open scoped BigOperators

/-! ## The real identity -/

/-- Subtracting a constant N from every exponent takes the factor e^{-N} out of a sum of exponentials. -/
theorem sum_exp_sub {ι : Type} [Fintype ι] (t : ι → ℝ) (N : ℝ) :
    ∑ j, Real.exp (t j - N) = Real.exp (-N) * ∑ j, Real.exp (t j) := by
  rw [Finset.mul_sum]
  exact Finset.sum_congr rfl fun j _ => by rw [← Real.exp_add]; congr 1; ring

/-- The sum of softmax · log_softmax of a nonempty finite family of reals, each of the two factors computed after
    subtracting a constant of its own (M in the softmax, M' in the log_softmax), is T / S − log S with
    S = Σ e^{t_i} and T = Σ t_i e^{t_i}: the constants cancel. -/
theorem sum_softmax_mul_logSoftmax {ι : Type} [Fintype ι] [Nonempty ι] (t : ι → ℝ) (M M' : ℝ) :
    ∑ i, (Real.exp (t i - M) / ∑ j, Real.exp (t j - M)) * ((t i - M') - Real.log (∑ j, Real.exp (t j - M')))
      = Cert.Entropy.softEnt t := by
  have hS : 0 < ∑ j, Real.exp (t j) := Finset.sum_pos (fun j _ => Real.exp_pos _) Finset.univ_nonempty
  rw [sum_exp_sub t M, sum_exp_sub t M', Real.log_mul (Real.exp_pos _).ne' hS.ne', Real.log_exp]
  unfold Cert.Entropy.softEnt
  set S := ∑ j, Real.exp (t j) with hSdef
  have key : ∀ i, Real.exp (t i - M) / (Real.exp (-M) * S) * (t i - M' - (-M' + Real.log S))
      = (t i * Real.exp (t i)) / S - Real.log S * (Real.exp (t i) / S) := by
    intro i
    have hM : Real.exp (t i - M) = Real.exp (-M) * Real.exp (t i) := by rw [← Real.exp_add]; congr 1; ring
    rw [hM]
    have := (Real.exp_pos (-M)).ne'
    field_simp
    ring
  rw [Finset.sum_congr rfl fun i _ => key i, Finset.sum_sub_distrib, ← Finset.sum_div, ← Finset.mul_sum, ← Finset.sum_div,
    ← hSdef, div_self hS.ne', mul_one]

/-! ## The maximum of a nonempty finite family of reals is a real -/

/-- The fold of max from −∞ over a nonempty finite family of reals, taken in the extended reals, is a real. -/
theorem exists_real_fold_max {ι : Type} (s : Finset ι) (hs : s.Nonempty) (r : ι → ℝ) :
    ∃ M : ℝ, s.fold max (⊥ : EReal) (fun k => ((r k : ℝ) : EReal)) = ((M : ℝ) : EReal) := by
  classical
  induction s using Finset.induction_on with
  | empty => exact absurd hs Finset.not_nonempty_empty
  | insert x s hx ih =>
    rw [Finset.fold_insert hx]
    rcases s.eq_empty_or_nonempty with rfl | hne
    · exact ⟨r x, by rw [Finset.fold_empty, max_eq_left bot_le]⟩
    · obtain ⟨M, hM⟩ := ih hne
      exact ⟨max (r x) M, by rw [hM]; exact (EReal.coe_strictMono.monotone.map_max).symm⟩

/-! ## Layout reads -/

/-- An [a,b,c] array placed on the axes 0, 1, 2 of an [a,b,c,1] array reads, at (g,h,i,u), the operand at (g,h,i). -/
theorem broadcastInDim_abc_abc1_apply {α : Type} {a b c : ℕ} (x : (⟨3, ![a, b, c]⟩ : Shape).Idx → α)
    (hb : (⟨3, ![a, b, c]⟩ : Shape).BroadcastsInDim ⟨4, ![a, b, c, 1]⟩ ![0, 1, 2]) (g : Fin a) (h : Fin b) (i : Fin c) (u : Fin 1) :
    broadcastInDim ⟨4, ![a, b, c, 1]⟩ ![0, 1, 2] hb x (ix4 g h i u) = x (ix3 g h i) := by
  refine broadcastInDim_apply _ hb x (ix4 g h i u) (ix3 g h i) fun ax => ?_
  match ax with
  | ⟨0, _⟩ =>
    show g.val = if a = 1 then 0 else g.val
    split
    · have := g.isLt; omega
    · rfl
  | ⟨1, _⟩ =>
    show h.val = if b = 1 then 0 else h.val
    split
    · have := h.isLt; omega
    · rfl
  | ⟨2, _⟩ =>
    show i.val = if c = 1 then 0 else i.val
    split
    · have := i.isLt; omega
    · rfl

/-- An [a,b,c,1] array repeated along its last axis reads, at (g,h,i,j), the operand's one entry of row (g,h,i). -/
theorem broadcastInDim_abc1_abcd_apply {α : Type} {a b c d : ℕ} (x : (⟨4, ![a, b, c, 1]⟩ : Shape).Idx → α)
    (hb : (⟨4, ![a, b, c, 1]⟩ : Shape).BroadcastsInDim ⟨4, ![a, b, c, d]⟩ ![0, 1, 2, 3]) (g : Fin a) (h : Fin b) (i : Fin c) (j : Fin d) :
    broadcastInDim ⟨4, ![a, b, c, d]⟩ ![0, 1, 2, 3] hb x (ix4 g h i j) = x (ix4 g h i (0 : Fin 1)) := by
  refine broadcastInDim_apply _ hb x (ix4 g h i j) (ix4 g h i (0 : Fin 1)) fun ax => ?_
  match ax with
  | ⟨0, _⟩ =>
    show g.val = if a = 1 then 0 else g.val
    split
    · have := g.isLt; omega
    · rfl
  | ⟨1, _⟩ =>
    show h.val = if b = 1 then 0 else h.val
    split
    · have := h.isLt; omega
    · rfl
  | ⟨2, _⟩ =>
    show i.val = if c = 1 then 0 else i.val
    split
    · have := i.isLt; omega
    · rfl
  | ⟨3, _⟩ => exact (if_pos rfl).symm

section Host

variable {a b c d : ℕ}

/-- Dropping the last axis of a rank-four shape leaves a shape of positive rank. -/
theorem reduces_of_reducesTo (hr : (⟨4, ![a, b, c, d]⟩ : Shape).ReducesTo [3] ⟨3, ![a, b, c]⟩) :
    (⟨4, ![a, b, c, d]⟩ : Shape).Reduces [3] ⟨3, ![a, b, c]⟩ :=
  hr.elim fun h hb => ⟨h, Nat.succ_pos 2, hb⟩

/-- The word 0xFF800000 is −∞. -/
theorem ofBits_negInf_f32 : Ideal.ofBits .f32 0xFF800000#32 = ⊥ := by simp [Ideal.ofBits, Ideal.ieee]

/-- The host's float sum over the last axis of an [a,b,c,d] array, at (g,h,i): the initial value plus the sum over k
    of the entries (g,h,i,k). -/
theorem hostReduceAdd_last_apply (x : FVec Ideal ⟨4, ![a, b, c, d]⟩ .f32) (init : (⟨0, ![]⟩ : Shape).Idx → Ideal .f32)
    (hr : (⟨4, ![a, b, c, d]⟩ : Shape).ReducesTo [3] ⟨3, ![a, b, c]⟩) (hS : 0 < (⟨0, ![]⟩ : Shape).numel) (g : Fin a) (h : Fin b) (i : Fin c) :
    Host.reduceAdd (F := Ideal) x init hr hS (ix3 g h i) = init (Shape.Idx.first hS) + ∑ k : Fin d, x (ix4 g h i k) :=
  (Ideal.hostReduceAdd_single hr (reduces_of_reducesTo hr) x (init (Shape.Idx.first hS)) (ix3 g h i)).trans
    (congrArg (init (Shape.Idx.first hS) + ·)
      (Finset.sum_congr rfl fun k _ => congrArg x (LibRank4.lift_last (reduces_of_reducesTo hr) g h i k)))

/-- The host's float sum, from the word 0, over the last axis of an array whose entries in row (g,h,i) are the reals
    f k: the real sum of the f k. -/
theorem hostReduceAdd_zero_real_apply (x : FVec Ideal ⟨4, ![a, b, c, d]⟩ .f32)
    (hr : (⟨4, ![a, b, c, d]⟩ : Shape).ReducesTo [3] ⟨3, ![a, b, c]⟩) (hS : 0 < (⟨0, ![]⟩ : Shape).numel) (g : Fin a) (h : Fin b) (i : Fin c)
    (f : Fin d → ℝ) (hx : ∀ k, x (ix4 g h i k) = ((f k : ℝ) : EReal)) :
    Host.reduceAdd (F := Ideal) x (constant (F := Ideal) ⟨0, ![]⟩ .f32 0x00000000#32) hr hS (ix3 g h i)
      = ((∑ k, f k : ℝ) : EReal) := by
  rw [hostReduceAdd_last_apply]
  show Ideal.ofBits .f32 0x00000000#32 + _ = _
  rw [Ideal.ofBits_zero_f32, zero_add, Finset.sum_congr rfl fun k _ => hx k, LibFiniteSums.coe_sum]

/-! ## The host's spelling -/

/-- The row maximum as the host spells it: the maximum of −∞, spread over [a,b,c], with the maximum-reduction of t
    over its last axis from −∞. -/
def rowMax (hr : (⟨4, ![a, b, c, d]⟩ : Shape).ReducesTo [3] ⟨3, ![a, b, c]⟩) (hS : 0 < (⟨0, ![]⟩ : Shape).numel)
    (hb0 : (⟨0, ![]⟩ : Shape).BroadcastsInDim ⟨3, ![a, b, c]⟩ ![])
    (t : FVec Ideal ⟨4, ![a, b, c, d]⟩ .f32) : FVec Ideal ⟨3, ![a, b, c]⟩ .f32 :=
  maximumf (F := Ideal)
    (broadcastInDim ⟨3, ![a, b, c]⟩ ![] hb0 (constant (F := Ideal) ⟨0, ![]⟩ .f32 0xFF800000#32))
    (Host.reduce (FloatOps.maximumf (F := Ideal)) t (constant (F := Ideal) ⟨0, ![]⟩ .f32 0xFF800000#32) hr hS)

/-- A per-row value against every entry of its row: [a,b,c] placed in [a,b,c,1], then repeated along the last axis. -/
def spread
    (hb1 : (⟨3, ![a, b, c]⟩ : Shape).BroadcastsInDim ⟨4, ![a, b, c, 1]⟩ ![0, 1, 2])
    (hb2 : (⟨4, ![a, b, c, 1]⟩ : Shape).BroadcastsInDim ⟨4, ![a, b, c, d]⟩ ![0, 1, 2, 3])
    (m : FVec Ideal ⟨3, ![a, b, c]⟩ .f32) : FVec Ideal ⟨4, ![a, b, c, d]⟩ .f32 :=
  broadcastInDim ⟨4, ![a, b, c, d]⟩ ![0, 1, 2, 3] hb2 (broadcastInDim ⟨4, ![a, b, c, 1]⟩ ![0, 1, 2] hb1 m)

/-- t minus its row maximum. -/
def shifted (hr : (⟨4, ![a, b, c, d]⟩ : Shape).ReducesTo [3] ⟨3, ![a, b, c]⟩) (hS : 0 < (⟨0, ![]⟩ : Shape).numel)
    (hb0 : (⟨0, ![]⟩ : Shape).BroadcastsInDim ⟨3, ![a, b, c]⟩ ![])
    (hb1 : (⟨3, ![a, b, c]⟩ : Shape).BroadcastsInDim ⟨4, ![a, b, c, 1]⟩ ![0, 1, 2])
    (hb2 : (⟨4, ![a, b, c, 1]⟩ : Shape).BroadcastsInDim ⟨4, ![a, b, c, d]⟩ ![0, 1, 2, 3])
    (t : FVec Ideal ⟨4, ![a, b, c, d]⟩ .f32) : FVec Ideal ⟨4, ![a, b, c, d]⟩ .f32 :=
  subf (F := Ideal) t (spread hb1 hb2 (rowMax hr hS hb0 t))

/-- The sum over the last axis, from the word 0, of the exponentials of t minus its row maximum. -/
def expSum (hr : (⟨4, ![a, b, c, d]⟩ : Shape).ReducesTo [3] ⟨3, ![a, b, c]⟩) (hS : 0 < (⟨0, ![]⟩ : Shape).numel)
    (hb0 : (⟨0, ![]⟩ : Shape).BroadcastsInDim ⟨3, ![a, b, c]⟩ ![])
    (hb1 : (⟨3, ![a, b, c]⟩ : Shape).BroadcastsInDim ⟨4, ![a, b, c, 1]⟩ ![0, 1, 2])
    (hb2 : (⟨4, ![a, b, c, 1]⟩ : Shape).BroadcastsInDim ⟨4, ![a, b, c, d]⟩ ![0, 1, 2, 3])
    (t : FVec Ideal ⟨4, ![a, b, c, d]⟩ .f32) : FVec Ideal ⟨3, ![a, b, c]⟩ .f32 :=
  Host.reduceAdd (F := Ideal) (Host.exp (F := Ideal) (shifted hr hS hb0 hb1 hb2 t))
    (constant (F := Ideal) ⟨0, ![]⟩ .f32 0x00000000#32) hr hS

/-- The sum over the last axis of softmax(t) · log_softmax(t) as the host spells it. The softmax is the exponential of
    t minus its row maximum, divided by the row sum of those exponentials; the log_softmax is t minus its row maximum,
    minus the logarithm (taken on the [a,b,c,1] column) of the same row sum; the product is summed from the word 0. -/
def hostSoftmaxEntropy (hr : (⟨4, ![a, b, c, d]⟩ : Shape).ReducesTo [3] ⟨3, ![a, b, c]⟩) (hS : 0 < (⟨0, ![]⟩ : Shape).numel)
    (hb0 : (⟨0, ![]⟩ : Shape).BroadcastsInDim ⟨3, ![a, b, c]⟩ ![])
    (hb1 : (⟨3, ![a, b, c]⟩ : Shape).BroadcastsInDim ⟨4, ![a, b, c, 1]⟩ ![0, 1, 2])
    (hb2 : (⟨4, ![a, b, c, 1]⟩ : Shape).BroadcastsInDim ⟨4, ![a, b, c, d]⟩ ![0, 1, 2, 3])
    (t : FVec Ideal ⟨4, ![a, b, c, d]⟩ .f32) : FVec Ideal ⟨3, ![a, b, c]⟩ .f32 :=
  Host.reduceAdd (F := Ideal)
    (mulf (F := Ideal)
      (Host.divf (F := Ideal) (Host.exp (F := Ideal) (shifted hr hS hb0 hb1 hb2 t))
        (spread hb1 hb2 (expSum hr hS hb0 hb1 hb2 t)))
      (subf (F := Ideal) (shifted hr hS hb0 hb1 hb2 t)
        (broadcastInDim ⟨4, ![a, b, c, d]⟩ ![0, 1, 2, 3] hb2
          (Host.log (F := Ideal) (broadcastInDim ⟨4, ![a, b, c, 1]⟩ ![0, 1, 2] hb1 (expSum hr hS hb0 hb1 hb2 t))))))
    (constant (F := Ideal) ⟨0, ![]⟩ .f32 0x00000000#32) hr hS

/-! ## Reading it at a row -/

/-- The row maximum at (g,h,i): the fold of max from −∞ over k of the entries (g,h,i,k). -/
theorem rowMax_apply (hr : (⟨4, ![a, b, c, d]⟩ : Shape).ReducesTo [3] ⟨3, ![a, b, c]⟩) (hS : 0 < (⟨0, ![]⟩ : Shape).numel)
    (hb0 : (⟨0, ![]⟩ : Shape).BroadcastsInDim ⟨3, ![a, b, c]⟩ ![])
    (t : FVec Ideal ⟨4, ![a, b, c, d]⟩ .f32) (g : Fin a) (h : Fin b) (i : Fin c) :
    rowMax hr hS hb0 t (ix3 g h i) = (Finset.univ : Finset (Fin d)).fold max (⊥ : EReal) (fun k => t (ix4 g h i k)) := by
  show max (broadcastInDim ⟨3, ![a, b, c]⟩ ![] hb0 (constant (F := Ideal) ⟨0, ![]⟩ .f32 0xFF800000#32) (ix3 g h i))
      (Host.reduce (FloatOps.maximumf (F := Ideal)) t (constant (F := Ideal) ⟨0, ![]⟩ .f32 0xFF800000#32) hr hS (ix3 g h i)) = _
  rw [broadcastInDim_scalar_apply, LibRank4.hostReduce_maximumf_last_apply t _ hr (reduces_of_reducesTo hr) hS]
  show max (Ideal.ofBits .f32 0xFF800000#32) (Finset.fold max (Ideal.ofBits .f32 0xFF800000#32) _ _) = _
  rw [ofBits_negInf_f32, max_eq_right bot_le]

/-- In a row of reals the row maximum is a real. -/
theorem rowMax_real (hr : (⟨4, ![a, b, c, d]⟩ : Shape).ReducesTo [3] ⟨3, ![a, b, c]⟩) (hS : 0 < (⟨0, ![]⟩ : Shape).numel)
    (hb0 : (⟨0, ![]⟩ : Shape).BroadcastsInDim ⟨3, ![a, b, c]⟩ ![])
    (t : FVec Ideal ⟨4, ![a, b, c, d]⟩ .f32) (g : Fin a) (h : Fin b) (i : Fin c) (hd : 0 < d) (r : Fin d → ℝ)
    (ht : ∀ k, t (ix4 g h i k) = ((r k : ℝ) : EReal)) :
    ∃ M : ℝ, rowMax hr hS hb0 t (ix3 g h i) = ((M : ℝ) : EReal) := by
  rw [rowMax_apply, show (fun k => t (ix4 g h i k)) = fun k => ((r k : ℝ) : EReal) from funext ht]
  exact exists_real_fold_max _ ⟨⟨0, hd⟩, Finset.mem_univ _⟩ r

/-- A per-row value spread over its row reads, at (g,h,i,k), the value of row (g,h,i). -/
theorem spread_apply
    (hb1 : (⟨3, ![a, b, c]⟩ : Shape).BroadcastsInDim ⟨4, ![a, b, c, 1]⟩ ![0, 1, 2])
    (hb2 : (⟨4, ![a, b, c, 1]⟩ : Shape).BroadcastsInDim ⟨4, ![a, b, c, d]⟩ ![0, 1, 2, 3])
    (m : FVec Ideal ⟨3, ![a, b, c]⟩ .f32) (g : Fin a) (h : Fin b) (i : Fin c) (k : Fin d) :
    spread hb1 hb2 m (ix4 g h i k) = m (ix3 g h i) := by
  unfold spread
  rw [broadcastInDim_abc1_abcd_apply, broadcastInDim_abc_abc1_apply]

/-- Where the row (g,h,i) of t holds the reals r k and its maximum is the real M, t minus its row maximum reads
    r k − M at (g,h,i,k). -/
theorem shifted_apply (hr : (⟨4, ![a, b, c, d]⟩ : Shape).ReducesTo [3] ⟨3, ![a, b, c]⟩) (hS : 0 < (⟨0, ![]⟩ : Shape).numel)
    (hb0 : (⟨0, ![]⟩ : Shape).BroadcastsInDim ⟨3, ![a, b, c]⟩ ![])
    (hb1 : (⟨3, ![a, b, c]⟩ : Shape).BroadcastsInDim ⟨4, ![a, b, c, 1]⟩ ![0, 1, 2])
    (hb2 : (⟨4, ![a, b, c, 1]⟩ : Shape).BroadcastsInDim ⟨4, ![a, b, c, d]⟩ ![0, 1, 2, 3])
    (t : FVec Ideal ⟨4, ![a, b, c, d]⟩ .f32) (g : Fin a) (h : Fin b) (i : Fin c) (r : Fin d → ℝ)
    (ht : ∀ k, t (ix4 g h i k) = ((r k : ℝ) : EReal)) (M : ℝ) (hM : rowMax hr hS hb0 t (ix3 g h i) = ((M : ℝ) : EReal))
    (k : Fin d) :
    shifted hr hS hb0 hb1 hb2 t (ix4 g h i k) = ((r k - M : ℝ) : EReal) := by
  show t (ix4 g h i k) - spread hb1 hb2 (rowMax hr hS hb0 t) (ix4 g h i k) = _
  rw [spread_apply, hM, ht k, ← EReal.coe_sub]

/-- There the row sum of the exponentials is the real Σ_k e^{r k − M}. -/
theorem expSum_apply (hr : (⟨4, ![a, b, c, d]⟩ : Shape).ReducesTo [3] ⟨3, ![a, b, c]⟩) (hS : 0 < (⟨0, ![]⟩ : Shape).numel)
    (hb0 : (⟨0, ![]⟩ : Shape).BroadcastsInDim ⟨3, ![a, b, c]⟩ ![])
    (hb1 : (⟨3, ![a, b, c]⟩ : Shape).BroadcastsInDim ⟨4, ![a, b, c, 1]⟩ ![0, 1, 2])
    (hb2 : (⟨4, ![a, b, c, 1]⟩ : Shape).BroadcastsInDim ⟨4, ![a, b, c, d]⟩ ![0, 1, 2, 3])
    (t : FVec Ideal ⟨4, ![a, b, c, d]⟩ .f32) (g : Fin a) (h : Fin b) (i : Fin c) (r : Fin d → ℝ)
    (ht : ∀ k, t (ix4 g h i k) = ((r k : ℝ) : EReal)) (M : ℝ) (hM : rowMax hr hS hb0 t (ix3 g h i) = ((M : ℝ) : EReal)) :
    expSum hr hS hb0 hb1 hb2 t (ix3 g h i) = ((∑ k, Real.exp (r k - M) : ℝ) : EReal) := by
  unfold expSum
  refine hostReduceAdd_zero_real_apply _ hr hS g h i (fun k => Real.exp (r k - M)) fun k => ?_
  show Ideal.exp (shifted hr hS hb0 hb1 hb2 t (ix4 g h i k)) = _
  rw [shifted_apply hr hS hb0 hb1 hb2 t g h i r ht M hM k, Ideal.exp_coe]

/-- The host's Σ softmax · log_softmax over the last axis, at a row (g,h,i) of t that holds the reals r k (d > 0):
    the real T / S − log S of that row, S = Σ_k e^{r k}, T = Σ_k r k · e^{r k}. -/
theorem hostSoftmaxEntropy_apply (hr : (⟨4, ![a, b, c, d]⟩ : Shape).ReducesTo [3] ⟨3, ![a, b, c]⟩) (hS : 0 < (⟨0, ![]⟩ : Shape).numel)
    (hb0 : (⟨0, ![]⟩ : Shape).BroadcastsInDim ⟨3, ![a, b, c]⟩ ![])
    (hb1 : (⟨3, ![a, b, c]⟩ : Shape).BroadcastsInDim ⟨4, ![a, b, c, 1]⟩ ![0, 1, 2])
    (hb2 : (⟨4, ![a, b, c, 1]⟩ : Shape).BroadcastsInDim ⟨4, ![a, b, c, d]⟩ ![0, 1, 2, 3])
    (t : FVec Ideal ⟨4, ![a, b, c, d]⟩ .f32) (g : Fin a) (h : Fin b) (i : Fin c) (hd : 0 < d) (r : Fin d → ℝ)
    (ht : ∀ k, t (ix4 g h i k) = ((r k : ℝ) : EReal)) :
    hostSoftmaxEntropy hr hS hb0 hb1 hb2 t (ix3 g h i) = ((Cert.Entropy.softEnt r : ℝ) : EReal) := by
  obtain ⟨M, hM⟩ := rowMax_real hr hS hb0 t g h i hd r ht
  haveI : Nonempty (Fin d) := ⟨⟨0, hd⟩⟩
  have hZ : 0 < ∑ k, Real.exp (r k - M) := Finset.sum_pos (fun k _ => Real.exp_pos _) Finset.univ_nonempty
  have hsh := shifted_apply hr hS hb0 hb1 hb2 t g h i r ht M hM
  have hz := expSum_apply hr hS hb0 hb1 hb2 t g h i r ht M hM
  unfold hostSoftmaxEntropy
  rw [hostReduceAdd_zero_real_apply _ hr hS g h i
    (fun k => Real.exp (r k - M) / (∑ j, Real.exp (r j - M)) * ((r k - M) - Real.log (∑ j, Real.exp (r j - M)))) fun k => ?_]
  · rw [sum_softmax_mul_logSoftmax r M M]
  · show Ideal.div (Ideal.exp (shifted hr hS hb0 hb1 hb2 t (ix4 g h i k)))
          (spread hb1 hb2 (expSum hr hS hb0 hb1 hb2 t) (ix4 g h i k))
        * (shifted hr hS hb0 hb1 hb2 t (ix4 g h i k)
          - broadcastInDim ⟨4, ![a, b, c, d]⟩ ![0, 1, 2, 3] hb2
              (Host.log (F := Ideal) (broadcastInDim ⟨4, ![a, b, c, 1]⟩ ![0, 1, 2] hb1 (expSum hr hS hb0 hb1 hb2 t)))
              (ix4 g h i k)) = _
    rw [broadcastInDim_abc1_abcd_apply]
    show Ideal.div (Ideal.exp (shifted hr hS hb0 hb1 hb2 t (ix4 g h i k)))
          (spread hb1 hb2 (expSum hr hS hb0 hb1 hb2 t) (ix4 g h i k))
        * (shifted hr hS hb0 hb1 hb2 t (ix4 g h i k)
          - Ideal.log (broadcastInDim ⟨4, ![a, b, c, 1]⟩ ![0, 1, 2] hb1 (expSum hr hS hb0 hb1 hb2 t) (ix4 g h i (0 : Fin 1)))) = _
    rw [broadcastInDim_abc_abc1_apply, spread_apply, hsh k, hz, Ideal.exp_coe, Ideal.log_coe, if_neg (not_le.mpr hZ),
      Ideal.div_coe hZ.ne', ← EReal.coe_mul, ← EReal.coe_sub, ← EReal.coe_mul, mul_one_div]

end Host

end Cert.LibSoftmaxEntropy

end
-- ==== Proof.LibAxisSums.lean ====
/-
  Sums along one axis of an array of extended reals, read at an index, for any extents.

  On the extended reals a float sum is the exact sum, so the vector unit's reduction of one axis is, at every index
  of the result, the finite sum of the operand over that axis's coordinate with the other coordinates held fixed.
  The statements below spell this out with the indices written by coordinates for the four layouts a masked
  per-cell sum goes through — the channel axis of [a, c, h, w], the last axis of [a, h, w], the last axis of [a, h]
  and the leading axis of [a, b] — together with two casts that only insert or remove an axis of extent one, and the
  fact that a sum over all indices of a rank-3 array is the triple sum over its coordinates.
  Nothing here needs an entry to be finite: only that addition is commutative and associative.
-/
import Idealize.ShloMosaic.Lib.ValueIdx
import Idealize.ShloMosaic.Lib.Pipeline.Value
import Idealize.ShloMosaic.PureOps.Ideal.Laws

noncomputable section

namespace Cert.LibAxisSums

open Idealize.ShloMosaic Idealize.ShloMosaic.ValueIdx
open scoped BigOperators

/-! ## All indices of a rank-3 array -/

/-- A rank-3 index set is the product of its three coordinate ranges … -/
def idxEquiv3 {n0 n1 n2 : ℕ} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates, in any additive commutative monoid. -/
theorem sum_idx3 {M : Type*} [AddCommMonoid M] {n0 n1 n2 : ℕ} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-! ## One axis summed by the vector unit, at Ideal -/

variable {φ : FTy}

/-- Axis 1 (the channels) of an [a, c, h, w] array summed: at (p, q, r) the sum over the channel k of the entry
    at (p, k, q, r). -/
theorem sum_axis1_of4 {n0 n1 n2 n3 : ℕ} (x : FVec Ideal ⟨4, ![n0, n1, n2, n3]⟩ φ) (acc : BitVec φ.bits)
    (h : (⟨4, ![n0, n1, n2, n3]⟩ : Shape).Reduces [1] ⟨3, ![n0, n2, n3]⟩) (hφ : FKind.Formats φ)
    (hacc : acc = FKind.add.neutral φ hφ) (p : Fin n0) (q : Fin n2) (r : Fin n3) :
    multiReduction .add [1] ⟨3, ![n0, n2, n3]⟩ x acc h hφ hacc (ix3 p q r) = ∑ k : Fin n1, x (ix4 p k q r) :=
  (Ideal.multiReduction_add_single x acc h hφ hacc (ix3 p q r)).trans
    (Finset.sum_congr rfl fun k _ => congrArg x (funext fun a => Fin.ext (by
      match a with
      | ⟨0, _⟩ => rfl
      | ⟨1, _⟩ => rfl
      | ⟨2, _⟩ => rfl
      | ⟨3, _⟩ => rfl)))

/-- The last axis of an [a, h, w] array summed: at (p, q) the sum over k of the entry at (p, q, k). -/
theorem sum_axis2_of3 {n0 n1 n2 : ℕ} (x : FVec Ideal ⟨3, ![n0, n1, n2]⟩ φ) (acc : BitVec φ.bits)
    (h : (⟨3, ![n0, n1, n2]⟩ : Shape).Reduces [2] ⟨2, ![n0, n1]⟩) (hφ : FKind.Formats φ)
    (hacc : acc = FKind.add.neutral φ hφ) (p : Fin n0) (q : Fin n1) :
    multiReduction .add [2] ⟨2, ![n0, n1]⟩ x acc h hφ hacc (ix2 p q) = ∑ k : Fin n2, x (ix3 p q k) :=
  (Ideal.multiReduction_add_single x acc h hφ hacc (ix2 p q)).trans
    (Finset.sum_congr rfl fun k _ => congrArg x (funext fun a => Fin.ext (by
      match a with
      | ⟨0, _⟩ => rfl
      | ⟨1, _⟩ => rfl
      | ⟨2, _⟩ => rfl)))

/-- The last axis of an [a, h] array summed: at p the sum over k of the entry at (p, k). -/
theorem sum_axis1_of2 {n0 n1 : ℕ} (x : FVec Ideal ⟨2, ![n0, n1]⟩ φ) (acc : BitVec φ.bits)
    (h : (⟨2, ![n0, n1]⟩ : Shape).Reduces [1] ⟨1, ![n0]⟩) (hφ : FKind.Formats φ)
    (hacc : acc = FKind.add.neutral φ hφ) (p : Fin n0) :
    multiReduction .add [1] ⟨1, ![n0]⟩ x acc h hφ hacc (ix1 p) = ∑ k : Fin n1, x (ix2 p k) :=
  (Ideal.multiReduction_add_single x acc h hφ hacc (ix1 p)).trans
    (Finset.sum_congr rfl fun k _ => congrArg x (funext fun a => Fin.ext (by
      match a with
      | ⟨0, _⟩ => rfl
      | ⟨1, _⟩ => rfl)))

/-- The leading axis of an [a, b] array summed: at q the sum over k of the entry at (k, q). -/
theorem sum_axis0_of2 {n0 n1 : ℕ} (x : FVec Ideal ⟨2, ![n0, n1]⟩ φ) (acc : BitVec φ.bits)
    (h : (⟨2, ![n0, n1]⟩ : Shape).Reduces [0] ⟨1, ![n1]⟩) (hφ : FKind.Formats φ)
    (hacc : acc = FKind.add.neutral φ hφ) (q : Fin n1) :
    multiReduction .add [0] ⟨1, ![n1]⟩ x acc h hφ hacc (ix1 q) = ∑ k : Fin n0, x (ix2 k q) :=
  (Ideal.multiReduction_add_single x acc h hφ hacc (ix1 q)).trans
    (Finset.sum_congr rfl fun k _ => congrArg x (funext fun a => Fin.ext (by
      match a with
      | ⟨0, _⟩ => rfl
      | ⟨1, _⟩ => rfl)))

/-! ## Casts that insert or remove an axis of extent one -/

variable {α : Type}

/-- An [a, 1, b, c] array cast to [a, b, c] reads, at (p, q, r), the operand at (p, 0, q, r). -/
theorem shapeCast_a1bc_abc_apply {a b c : ℕ} (x : (⟨4, ![a, 1, b, c]⟩ : Shape).Idx → α)
    (h : (⟨4, ![a, 1, b, c]⟩ : Shape).ShapeCasts ⟨3, ![a, b, c]⟩) (p : Fin a) (q : Fin b) (r : Fin c) :
    shapeCast ⟨3, ![a, b, c]⟩ x h (ix3 p q r) = x (ix4 p (0 : Fin 1) q r) :=
  shapeCast_apply x h _ _ (by
    rw [Shape.rowMajor_val_four, Shape.rowMajor_val_three]
    show ((p.val * 1 + 0) * b + q.val) * c + r.val = (p.val * b + q.val) * c + r.val
    rw [Nat.mul_one, Nat.add_zero])

/-- An [a] array cast to the column [a, 1] reads, at (p, u), the operand at p, whatever the unit coordinate u. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

end Cert.LibAxisSums

end
-- ==== Proof.LibScaleLoss.lean ====
/-
  One scale's mean of absolute differences on the host, and the six scales stacked and summed.

  For two rank-3 arrays u and v the host sums |u − v| over all three axes from the word 0 and divides by a scalar
  constant; where u and v hold reals U and V and the constant's word is a nonzero real D, the result is
  (Σ_g Σ_h Σ_p |U − V|) · (1 / D). Six such scalars are then each placed in a one-entry vector, the six vectors laid end
  to end, and the six-entry vector summed from the word 0: the sum of the six reals. The six divisor words of the
  window counts 64 · 2 · (2048 − w + 1), w = 4, 8, 16, 32, 64, 128, are read as reals.
-/
import Idealize.ShloMosaic.Lib.ValueIdx
import Idealize.ShloMosaic.Lib.Pipeline.Value
import Idealize.ShloMosaic.Lib.IdealHost
import Idealize.ShloMosaic.PureOps.Ideal.Laws
import Mathlib.Algebra.BigOperators.Fin
import Mathlib.Tactic.NormNum
import proofs.«110521_j60129542144534_2_alg».proof.Proof.LibAxisSums
import proofs.«110521_j60129542144534_2_alg».proof.Proof.LibFiniteSums

noncomputable section

namespace Cert.LibScaleLoss

open Idealize.ShloMosaic Idealize.ShloMosaic.ValueIdx
open scoped BigOperators

/-! ## Small facts -/

/-- |z| is the larger of z and −z, inside the extended reals. -/
theorem max_neg_coe (z : ℝ) : max ((z : ℝ) : EReal) (-((z : ℝ) : EReal)) = ((|z| : ℝ) : EReal) := by
  rw [← EReal.coe_neg, abs_eq_max_neg]
  exact (EReal.coe_strictMono.monotone.map_max).symm

/-- A rank-1 index set is its one coordinate range … -/
def idxEquiv1 {n : ℕ} : (⟨1, ![n]⟩ : Shape).Idx ≃ Fin n where
  toFun i := i 0
  invFun k := ix1 k
  left_inv i := (eq_ix1 i).symm
  right_inv _ := rfl

/-- … so a sum over it is the sum over the coordinate. -/
theorem sum_idx1 {M : Type*} [AddCommMonoid M] {n : ℕ} (f : (⟨1, ![n]⟩ : Shape).Idx → M) :
    ∑ i, f i = ∑ k : Fin n, f (ix1 k) := by
  rw [← Equiv.sum_comp (idxEquiv1 (n := n)).symm f]
  rfl

/-! ## The six divisors: the words of the counts 64 · 2 · (2048 − w + 1), w = 4, 8, 16, 32, 64, 128 -/

theorem word_261760 : Ideal.ofBits .f32 0x487FA000#32 = ((261760 : ℝ) : EReal) := by
  simp [Ideal.ofBits, Ideal.ieee, -EReal.coe_mul]; norm_num
theorem word_261248 : Ideal.ofBits .f32 0x487F2000#32 = ((261248 : ℝ) : EReal) := by
  simp [Ideal.ofBits, Ideal.ieee, -EReal.coe_mul]; norm_num
theorem word_260224 : Ideal.ofBits .f32 0x487E2000#32 = ((260224 : ℝ) : EReal) := by
  simp [Ideal.ofBits, Ideal.ieee, -EReal.coe_mul]; norm_num
theorem word_258176 : Ideal.ofBits .f32 0x487C2000#32 = ((258176 : ℝ) : EReal) := by
  simp [Ideal.ofBits, Ideal.ieee, -EReal.coe_mul]; norm_num
theorem word_254080 : Ideal.ofBits .f32 0x48782000#32 = ((254080 : ℝ) : EReal) := by
  simp [Ideal.ofBits, Ideal.ieee, -EReal.coe_mul]; norm_num
theorem word_245888 : Ideal.ofBits .f32 0x48702000#32 = ((245888 : ℝ) : EReal) := by
  simp [Ideal.ofBits, Ideal.ieee, -EReal.coe_mul]; norm_num

/-! ## One scale: the mean of the absolute differences -/

/-- The host's mean of |u − v| over a rank-3 array: the sum over all three axes, from the word 0, of the absolute
    values of the differences, divided by the scalar whose word is D. -/
def hostMeanAbsDiff {a b c : ℕ} (hred : (⟨3, ![a, b, c]⟩ : Shape).ReducesTo [0, 1, 2] ⟨0, ![]⟩) (hS : 0 < (⟨0, ![]⟩ : Shape).numel)
    (u v : FVec Ideal ⟨3, ![a, b, c]⟩ .f32) (D : BitVec 32) : FVec Ideal ⟨0, ![]⟩ .f32 :=
  Host.divf (F := Ideal)
    (Host.reduceAdd (F := Ideal) (Host.absf (F := Ideal) (subf (F := Ideal) u v))
      (constant (F := Ideal) ⟨0, ![]⟩ .f32 0x00000000#32) hred hS)
    (constant (F := Ideal) ⟨0, ![]⟩ .f32 D)

/-- Where u and v hold the reals U and V, the absolute value of their difference holds |U − V|. -/
theorem absDiff_apply {a b c : ℕ} (u v : FVec Ideal ⟨3, ![a, b, c]⟩ .f32) (U V : Fin a → Fin b → Fin c → ℝ)
    (hu : ∀ g h p, u (ix3 g h p) = ((U g h p : ℝ) : EReal)) (hv : ∀ g h p, v (ix3 g h p) = ((V g h p : ℝ) : EReal))
    (g : Fin a) (h : Fin b) (p : Fin c) :
    Host.absf (F := Ideal) (subf (F := Ideal) u v) (ix3 g h p) = ((|U g h p - V g h p| : ℝ) : EReal) := by
  show max (u (ix3 g h p) - v (ix3 g h p)) (-(u (ix3 g h p) - v (ix3 g h p))) = _
  rw [hu, hv, ← EReal.coe_sub, max_neg_coe]

/-- The host's mean of |u − v| where u and v hold the reals U and V and the divisor's word is the nonzero real Dr:
    (Σ_g Σ_h Σ_p |U − V|) · (1 / Dr). -/
theorem hostMeanAbsDiff_apply {a b c : ℕ} (hred : (⟨3, ![a, b, c]⟩ : Shape).ReducesTo [0, 1, 2] ⟨0, ![]⟩) (hS : 0 < (⟨0, ![]⟩ : Shape).numel)
    (u v : FVec Ideal ⟨3, ![a, b, c]⟩ .f32) (D : BitVec 32) (U V : Fin a → Fin b → Fin c → ℝ)
    (hu : ∀ g h p, u (ix3 g h p) = ((U g h p : ℝ) : EReal)) (hv : ∀ g h p, v (ix3 g h p) = ((V g h p : ℝ) : EReal))
    (Dr : ℝ) (hDr : Dr ≠ 0) (hD : Ideal.ofBits .f32 D = ((Dr : ℝ) : EReal)) (i : (⟨0, ![]⟩ : Shape).Idx) :
    hostMeanAbsDiff hred hS u v D i = (((∑ g, ∑ h, ∑ p, |U g h p - V g h p|) * (1 / Dr) : ℝ) : EReal) := by
  show Ideal.div (Ideal.hostReduceAdd hred (Host.absf (F := Ideal) (subf (F := Ideal) u v))
      (Ideal.ofBits .f32 0x00000000#32) i) (Ideal.ofBits .f32 D) = _
  rw [Ideal.hostReduceAdd_total hred (fun b => b.elim0), Ideal.ofBits_zero_f32, zero_add, hD, Ideal.div_coe hDr,
    LibAxisSums.sum_idx3,
    Finset.sum_congr rfl fun g _ => Finset.sum_congr rfl fun h _ => Finset.sum_congr rfl fun p _ =>
      absDiff_apply u v U V hu hv g h p]
  simp only [LibFiniteSums.coe_sum]
  rw [← EReal.coe_mul]

/-! ## The six scales stacked and summed -/

/-- The host's sum of six scalars: each placed in a one-entry vector, the six laid end to end, and the six-entry
    vector summed from the word 0. -/
def hostSumOfSix (hb : (⟨0, ![]⟩ : Shape).BroadcastsInDim ⟨1, ![1]⟩ ![])
    (hcat : Shape.Concatenates [(⟨1, ![1]⟩ : Shape), ⟨1, ![1]⟩, ⟨1, ![1]⟩, ⟨1, ![1]⟩, ⟨1, ![1]⟩, ⟨1, ![1]⟩] ⟨1, ![6]⟩ 0)
    (hred6 : (⟨1, ![6]⟩ : Shape).ReducesTo [0] ⟨0, ![]⟩) (hS : 0 < (⟨0, ![]⟩ : Shape).numel)
    (l0 l1 l2 l3 l4 l5 : FVec Ideal ⟨0, ![]⟩ .f32) : FVec Ideal ⟨0, ![]⟩ .f32 :=
  Host.reduceAdd (F := Ideal)
    (concatenate ⟨1, ![6]⟩ 0
      [⟨⟨1, ![1]⟩, broadcastInDim ⟨1, ![1]⟩ ![] hb l0⟩,
        ⟨⟨1, ![1]⟩, broadcastInDim ⟨1, ![1]⟩ ![] hb l1⟩,
        ⟨⟨1, ![1]⟩, broadcastInDim ⟨1, ![1]⟩ ![] hb l2⟩,
        ⟨⟨1, ![1]⟩, broadcastInDim ⟨1, ![1]⟩ ![] hb l3⟩,
        ⟨⟨1, ![1]⟩, broadcastInDim ⟨1, ![1]⟩ ![] hb l4⟩,
        ⟨⟨1, ![1]⟩, broadcastInDim ⟨1, ![1]⟩ ![] hb l5⟩] hcat)
    (constant (F := Ideal) ⟨0, ![]⟩ .f32 0x00000000#32) hred6 hS

/-- Six one-entry vectors laid end to end read, at position 0, the one entry of vector 0. -/
theorem concat6_apply_0 {α : Type} (x0 x1 x2 x3 x4 x5 : (⟨1, ![1]⟩ : Shape).Idx → α)
    (hcat : Shape.Concatenates [(⟨1, ![1]⟩ : Shape), ⟨1, ![1]⟩, ⟨1, ![1]⟩, ⟨1, ![1]⟩, ⟨1, ![1]⟩, ⟨1, ![1]⟩] ⟨1, ![6]⟩ 0) :
    concatenate ⟨1, ![6]⟩ 0 [⟨⟨1, ![1]⟩, x0⟩, ⟨⟨1, ![1]⟩, x1⟩, ⟨⟨1, ![1]⟩, x2⟩, ⟨⟨1, ![1]⟩, x3⟩, ⟨⟨1, ![1]⟩, x4⟩, ⟨⟨1, ![1]⟩, x5⟩] hcat (ix1 (0 : Fin 6))
      = x0 (ix1 (0 : Fin 1)) :=
  concatenate_apply_piece (t := ⟨1, ![6]⟩) 0 ([⟨⟨1, ![1]⟩, x0⟩, ⟨⟨1, ![1]⟩, x1⟩, ⟨⟨1, ![1]⟩, x2⟩, ⟨⟨1, ![1]⟩, x3⟩, ⟨⟨1, ![1]⟩, x4⟩, ⟨⟨1, ![1]⟩, x5⟩] : List ((s : Shape) × (s.Idx → α))) hcat
    (ix1 (0 : Fin 6)) 0 (by show (0 : ℕ) < 6; omega) ⟨1, ![1]⟩ x0 rfl rfl 0 rfl (ix1 (0 : Fin 1))
    (fun b hb => absurd (Fin.ext (Nat.lt_one_iff.mp b.isLt)) hb) rfl

/-- Six one-entry vectors laid end to end read, at position 1, the one entry of vector 1. -/
theorem concat6_apply_1 {α : Type} (x0 x1 x2 x3 x4 x5 : (⟨1, ![1]⟩ : Shape).Idx → α)
    (hcat : Shape.Concatenates [(⟨1, ![1]⟩ : Shape), ⟨1, ![1]⟩, ⟨1, ![1]⟩, ⟨1, ![1]⟩, ⟨1, ![1]⟩, ⟨1, ![1]⟩] ⟨1, ![6]⟩ 0) :
    concatenate ⟨1, ![6]⟩ 0 [⟨⟨1, ![1]⟩, x0⟩, ⟨⟨1, ![1]⟩, x1⟩, ⟨⟨1, ![1]⟩, x2⟩, ⟨⟨1, ![1]⟩, x3⟩, ⟨⟨1, ![1]⟩, x4⟩, ⟨⟨1, ![1]⟩, x5⟩] hcat (ix1 (1 : Fin 6))
      = x1 (ix1 (0 : Fin 1)) :=
  concatenate_apply_piece (t := ⟨1, ![6]⟩) 0 ([⟨⟨1, ![1]⟩, x0⟩, ⟨⟨1, ![1]⟩, x1⟩, ⟨⟨1, ![1]⟩, x2⟩, ⟨⟨1, ![1]⟩, x3⟩, ⟨⟨1, ![1]⟩, x4⟩, ⟨⟨1, ![1]⟩, x5⟩] : List ((s : Shape) × (s.Idx → α))) hcat
    (ix1 (1 : Fin 6)) 1 (by show (1 : ℕ) < 6; omega) ⟨1, ![1]⟩ x1 rfl rfl 1 rfl (ix1 (0 : Fin 1))
    (fun b hb => absurd (Fin.ext (Nat.lt_one_iff.mp b.isLt)) hb) rfl

/-- Six one-entry vectors laid end to end read, at position 2, the one entry of vector 2. -/
theorem concat6_apply_2 {α : Type} (x0 x1 x2 x3 x4 x5 : (⟨1, ![1]⟩ : Shape).Idx → α)
    (hcat : Shape.Concatenates [(⟨1, ![1]⟩ : Shape), ⟨1, ![1]⟩, ⟨1, ![1]⟩, ⟨1, ![1]⟩, ⟨1, ![1]⟩, ⟨1, ![1]⟩] ⟨1, ![6]⟩ 0) :
    concatenate ⟨1, ![6]⟩ 0 [⟨⟨1, ![1]⟩, x0⟩, ⟨⟨1, ![1]⟩, x1⟩, ⟨⟨1, ![1]⟩, x2⟩, ⟨⟨1, ![1]⟩, x3⟩, ⟨⟨1, ![1]⟩, x4⟩, ⟨⟨1, ![1]⟩, x5⟩] hcat (ix1 (2 : Fin 6))
      = x2 (ix1 (0 : Fin 1)) :=
  concatenate_apply_piece (t := ⟨1, ![6]⟩) 0 ([⟨⟨1, ![1]⟩, x0⟩, ⟨⟨1, ![1]⟩, x1⟩, ⟨⟨1, ![1]⟩, x2⟩, ⟨⟨1, ![1]⟩, x3⟩, ⟨⟨1, ![1]⟩, x4⟩, ⟨⟨1, ![1]⟩, x5⟩] : List ((s : Shape) × (s.Idx → α))) hcat
    (ix1 (2 : Fin 6)) 2 (by show (2 : ℕ) < 6; omega) ⟨1, ![1]⟩ x2 rfl rfl 2 rfl (ix1 (0 : Fin 1))
    (fun b hb => absurd (Fin.ext (Nat.lt_one_iff.mp b.isLt)) hb) rfl

/-- Six one-entry vectors laid end to end read, at position 3, the one entry of vector 3. -/
theorem concat6_apply_3 {α : Type} (x0 x1 x2 x3 x4 x5 : (⟨1, ![1]⟩ : Shape).Idx → α)
    (hcat : Shape.Concatenates [(⟨1, ![1]⟩ : Shape), ⟨1, ![1]⟩, ⟨1, ![1]⟩, ⟨1, ![1]⟩, ⟨1, ![1]⟩, ⟨1, ![1]⟩] ⟨1, ![6]⟩ 0) :
    concatenate ⟨1, ![6]⟩ 0 [⟨⟨1, ![1]⟩, x0⟩, ⟨⟨1, ![1]⟩, x1⟩, ⟨⟨1, ![1]⟩, x2⟩, ⟨⟨1, ![1]⟩, x3⟩, ⟨⟨1, ![1]⟩, x4⟩, ⟨⟨1, ![1]⟩, x5⟩] hcat (ix1 (3 : Fin 6))
      = x3 (ix1 (0 : Fin 1)) :=
  concatenate_apply_piece (t := ⟨1, ![6]⟩) 0 ([⟨⟨1, ![1]⟩, x0⟩, ⟨⟨1, ![1]⟩, x1⟩, ⟨⟨1, ![1]⟩, x2⟩, ⟨⟨1, ![1]⟩, x3⟩, ⟨⟨1, ![1]⟩, x4⟩, ⟨⟨1, ![1]⟩, x5⟩] : List ((s : Shape) × (s.Idx → α))) hcat
    (ix1 (3 : Fin 6)) 3 (by show (3 : ℕ) < 6; omega) ⟨1, ![1]⟩ x3 rfl rfl 3 rfl (ix1 (0 : Fin 1))
    (fun b hb => absurd (Fin.ext (Nat.lt_one_iff.mp b.isLt)) hb) rfl

/-- Six one-entry vectors laid end to end read, at position 4, the one entry of vector 4. -/
theorem concat6_apply_4 {α : Type} (x0 x1 x2 x3 x4 x5 : (⟨1, ![1]⟩ : Shape).Idx → α)
    (hcat : Shape.Concatenates [(⟨1, ![1]⟩ : Shape), ⟨1, ![1]⟩, ⟨1, ![1]⟩, ⟨1, ![1]⟩, ⟨1, ![1]⟩, ⟨1, ![1]⟩] ⟨1, ![6]⟩ 0) :
    concatenate ⟨1, ![6]⟩ 0 [⟨⟨1, ![1]⟩, x0⟩, ⟨⟨1, ![1]⟩, x1⟩, ⟨⟨1, ![1]⟩, x2⟩, ⟨⟨1, ![1]⟩, x3⟩, ⟨⟨1, ![1]⟩, x4⟩, ⟨⟨1, ![1]⟩, x5⟩] hcat (ix1 (4 : Fin 6))
      = x4 (ix1 (0 : Fin 1)) :=
  concatenate_apply_piece (t := ⟨1, ![6]⟩) 0 ([⟨⟨1, ![1]⟩, x0⟩, ⟨⟨1, ![1]⟩, x1⟩, ⟨⟨1, ![1]⟩, x2⟩, ⟨⟨1, ![1]⟩, x3⟩, ⟨⟨1, ![1]⟩, x4⟩, ⟨⟨1, ![1]⟩, x5⟩] : List ((s : Shape) × (s.Idx → α))) hcat
    (ix1 (4 : Fin 6)) 4 (by show (4 : ℕ) < 6; omega) ⟨1, ![1]⟩ x4 rfl rfl 4 rfl (ix1 (0 : Fin 1))
    (fun b hb => absurd (Fin.ext (Nat.lt_one_iff.mp b.isLt)) hb) rfl

/-- Six one-entry vectors laid end to end read, at position 5, the one entry of vector 5. -/
theorem concat6_apply_5 {α : Type} (x0 x1 x2 x3 x4 x5 : (⟨1, ![1]⟩ : Shape).Idx → α)
    (hcat : Shape.Concatenates [(⟨1, ![1]⟩ : Shape), ⟨1, ![1]⟩, ⟨1, ![1]⟩, ⟨1, ![1]⟩, ⟨1, ![1]⟩, ⟨1, ![1]⟩] ⟨1, ![6]⟩ 0) :
    concatenate ⟨1, ![6]⟩ 0 [⟨⟨1, ![1]⟩, x0⟩, ⟨⟨1, ![1]⟩, x1⟩, ⟨⟨1, ![1]⟩, x2⟩, ⟨⟨1, ![1]⟩, x3⟩, ⟨⟨1, ![1]⟩, x4⟩, ⟨⟨1, ![1]⟩, x5⟩] hcat (ix1 (5 : Fin 6))
      = x5 (ix1 (0 : Fin 1)) :=
  concatenate_apply_piece (t := ⟨1, ![6]⟩) 0 ([⟨⟨1, ![1]⟩, x0⟩, ⟨⟨1, ![1]⟩, x1⟩, ⟨⟨1, ![1]⟩, x2⟩, ⟨⟨1, ![1]⟩, x3⟩, ⟨⟨1, ![1]⟩, x4⟩, ⟨⟨1, ![1]⟩, x5⟩] : List ((s : Shape) × (s.Idx → α))) hcat
    (ix1 (5 : Fin 6)) 5 (by show (5 : ℕ) < 6; omega) ⟨1, ![1]⟩ x5 rfl rfl 5 rfl (ix1 (0 : Fin 1))
    (fun b hb => absurd (Fin.ext (Nat.lt_one_iff.mp b.isLt)) hb) rfl

/-- The host's sum of six scalars that hold the reals r0 … r5: their real sum. -/
theorem hostSumOfSix_apply (hb : (⟨0, ![]⟩ : Shape).BroadcastsInDim ⟨1, ![1]⟩ ![])
    (hcat : Shape.Concatenates [(⟨1, ![1]⟩ : Shape), ⟨1, ![1]⟩, ⟨1, ![1]⟩, ⟨1, ![1]⟩, ⟨1, ![1]⟩, ⟨1, ![1]⟩] ⟨1, ![6]⟩ 0)
    (hred6 : (⟨1, ![6]⟩ : Shape).ReducesTo [0] ⟨0, ![]⟩) (hS : 0 < (⟨0, ![]⟩ : Shape).numel)
    (l0 l1 l2 l3 l4 l5 : FVec Ideal ⟨0, ![]⟩ .f32) (r0 r1 r2 r3 r4 r5 : ℝ)
    (h0 : ∀ i', l0 i' = ((r0 : ℝ) : EReal)) (h1 : ∀ i', l1 i' = ((r1 : ℝ) : EReal))
    (h2 : ∀ i', l2 i' = ((r2 : ℝ) : EReal)) (h3 : ∀ i', l3 i' = ((r3 : ℝ) : EReal))
    (h4 : ∀ i', l4 i' = ((r4 : ℝ) : EReal)) (h5 : ∀ i', l5 i' = ((r5 : ℝ) : EReal)) (i : (⟨0, ![]⟩ : Shape).Idx) :
    hostSumOfSix hb hcat hred6 hS l0 l1 l2 l3 l4 l5 i = ((r0 + r1 + r2 + r3 + r4 + r5 : ℝ) : EReal) := by
  unfold hostSumOfSix
  rw [hostReduceAdd_apply, Ideal.hostReduceAdd_total hred6 (fun b => b.elim0), sum_idx1, Fin.sum_univ_six,
    concat6_apply_0, concat6_apply_1, concat6_apply_2, concat6_apply_3, concat6_apply_4, concat6_apply_5]
  show Ideal.ofBits .f32 0x00000000#32 + _ = _
  rw [Ideal.ofBits_zero_f32, zero_add, broadcastInDim_scalar_apply hb l0, broadcastInDim_scalar_apply hb l1,
    broadcastInDim_scalar_apply hb l2, broadcastInDim_scalar_apply hb l3, broadcastInDim_scalar_apply hb l4,
    broadcastInDim_scalar_apply hb l5, h0, h1, h2, h3, h4, h5]
  simp only [← EReal.coe_add]

end Cert.LibScaleLoss

end
-- ==== Proof.LossSpec.lean ====
/-
  The loss, on real rows.

  For two real sequences f, g (a row of the input and the same row of the target) and a window width k with W
  positions, the scale's row term is Σ_{p < W} |H_k(f)(p) − H_k(g)(p)|, where H_k(f)(p) is the negative entropy of
  the softmax of the window f(p), …, f(p + k − 1) (EntropySpec). The loss is the sum over the six scales
  k = 4, 8, …, 128 (W = 2049 − k) of the mean of those absolute differences over all 128 rows and all W positions,
  i.e. of (Σ_rows Σ_p |…|) / (128 · W).
-/
import proofs.«110521_j60129542144534_2_alg».proof.Proof.EntropySpec

noncomputable section

namespace Cert.Entropy

open scoped BigOperators

/-- One row's sum over the `W` window positions of the absolute difference of the two rows' windowed negative
    entropies at width `k`. -/
def rowDiff (k W : ℕ) (f g : ℕ → ℝ) : ℝ :=
  ∑ p : Fin W, |softEnt (fun i : Fin k => f (p.val + i.val)) - softEnt (fun i : Fin k => g (p.val + i.val))|

/-- One row's contribution to the loss: its six row terms, each weighted by 1 / (128 · W), added up scale by scale
    from 0 (the order of a running accumulator). -/
def rowAcc (f g : ℕ → ℝ) : ℝ :=
  (((((0 + rowDiff 4 2045 f g * (1 / 261760)) + rowDiff 8 2041 f g * (1 / 261248))
      + rowDiff 16 2033 f g * (1 / 260224)) + rowDiff 32 2017 f g * (1 / 258176))
    + rowDiff 64 1985 f g * (1 / 254080)) + rowDiff 128 1921 f g * (1 / 245888)

end Cert.Entropy

end
-- ==== Proof.LibBlockSum.lean ====
/-
  A finite sum over n·B consecutive indices, taken block by block.

  A contraction over a long axis is often computed in pieces: the axis is cut into n blocks of B entries, each block
  is summed by itself, and the partial sums are added up one after another. In a commutative monoid the order and
  the grouping of a finite sum do not matter, so the partial sums add up to the whole sum. Nothing is asked of the
  entries (no finiteness, no ring laws): the statement holds in any additive commutative monoid, the extended reals
  included.
-/
import Mathlib.Algebra.BigOperators.Fin
import Mathlib.Algebra.BigOperators.Ring.Finset
import Mathlib.Logic.Equiv.Fin.Basic

namespace Cert.LibBlockSum

open scoped BigOperators

variable {β : Type*} [AddCommMonoid β]

/-- The position, among n·B consecutive indices, of entry `r` of block `s`: `s·B + r`. -/
def blockIdx {n B : ℕ} (s : Fin n) (r : Fin B) : Fin (n * B) := finProdFinEquiv (s, r)

theorem blockIdx_val {n B : ℕ} (s : Fin n) (r : Fin B) : (blockIdx s r).val = r.val + B * s.val := rfl

/-- A sum over n·B indices is the sum, over the n blocks, of each block's B entries. -/
theorem sum_eq_sum_blocks (n B : ℕ) (g : Fin (n * B) → β) :
    ∑ k : Fin (n * B), g k = ∑ s : Fin n, ∑ r : Fin B, g (blockIdx s r) := by
  rw [← Equiv.sum_comp finProdFinEquiv g, Fintype.sum_prod_type]
  rfl

/-- The same with the blocks counted by the naturals below n (the form a fold over consecutive steps leaves):
    if `f s` is block `s`'s partial sum for every `s < n`, the partial sums add up to the whole sum. -/
theorem sum_range_blocks (n B : ℕ) (g : Fin (n * B) → β) (f : ℕ → β)
    (hf : ∀ s : Fin n, f s.val = ∑ r : Fin B, g (blockIdx s r)) :
    ∑ s ∈ Finset.range n, f s = ∑ k : Fin (n * B), g k := by
  rw [Finset.sum_range, sum_eq_sum_blocks]
  exact Finset.sum_congr rfl fun s _ => hf s

end Cert.LibBlockSum
-- ==== Proof.LossAlgebra.lean ====
/-
  The two groupings of the loss are one real number.

  The kernel adds, for each of its two blocks of 64 rows, the rows' weighted six-scale accumulations; the reference
  adds, for each scale, the sum over the leading axes (g, h) ∈ 64 × 2 and over the positions, times 1 / (128 · W).
  Row n of the flattened [128, L] array is (g, h) = (n / 2, n % 2), the two blocks are n < 64 and n ≥ 64, and finite
  real sums may be regrouped and a common factor taken out.
-/
import proofs.«110521_j60129542144534_2_alg».proof.Proof.LossSpec
import proofs.«110521_j60129542144534_2_alg».proof.Proof.LibBlockSum
import Mathlib.Tactic.Ring
import Mathlib.Tactic.Linarith

noncomputable section

namespace Cert.Entropy

open scoped BigOperators

/-- Row `n` of the [64, 2, L] array flattened to [128, L]: the pair (n / 2, n % 2). -/
def rowOf (X : Fin 64 → Fin 2 → ℕ → ℝ) (n : Fin 128) : ℕ → ℝ :=
  X ⟨n.val / 2, by have := n.isLt; omega⟩ ⟨n.val % 2, by omega⟩

/-- One scale's term of the reference: the sum over (g, h) of the row terms, times 1 / D. -/
def scaleMean (k W : ℕ) (D : ℝ) (X Y : Fin 64 → Fin 2 → ℕ → ℝ) : ℝ :=
  (∑ g : Fin 64, ∑ h : Fin 2, rowDiff k W (X g h) (Y g h)) * (1 / D)

/-- A sum over the 128 rows, as the first 64 and the last 64. -/
theorem sum_two_blocks (G : Fin 128 → ℝ) :
    (∑ r : Fin 64, G ⟨r.val, by have := r.isLt; omega⟩) + (∑ r : Fin 64, G ⟨64 + r.val, by have := r.isLt; omega⟩)
      = ∑ n : Fin 128, G n :=
  (Fin.sum_univ_add (fun n : Fin (64 + 64) => G n)).symm

/-- A sum over (g, h) ∈ 64 × 2 as the sum over the 128 rows n = 2g + h. -/
theorem sum_pairs (F : Fin 64 → Fin 2 → ℝ) :
    ∑ g : Fin 64, ∑ h : Fin 2, F g h
      = ∑ n : Fin 128, F ⟨n.val / 2, by have := n.isLt; omega⟩ ⟨n.val % 2, by omega⟩ := by
  rw [Cert.LibBlockSum.sum_eq_sum_blocks 64 2
    (fun n : Fin (64 * 2) => F ⟨n.val / 2, by have := n.isLt; omega⟩ ⟨n.val % 2, by omega⟩)]
  refine Finset.sum_congr rfl fun g _ => Finset.sum_congr rfl fun h _ => ?_
  have hv : (Cert.LibBlockSum.blockIdx g h).val = h.val + 2 * g.val := Cert.LibBlockSum.blockIdx_val g h
  have hh := h.isLt
  congr 1
  · exact Fin.ext (by show g.val = (Cert.LibBlockSum.blockIdx g h).val / 2; omega)
  · exact Fin.ext (by show h.val = (Cert.LibBlockSum.blockIdx g h).val % 2; omega)

/-- One scale's term over the 128 rows. -/
theorem scaleMean_rows (k W : ℕ) (D : ℝ) (X Y : Fin 64 → Fin 2 → ℕ → ℝ) :
    scaleMean k W D X Y = (∑ n : Fin 128, rowDiff k W (rowOf X n) (rowOf Y n)) * (1 / D) := by
  unfold scaleMean
  rw [sum_pairs (fun g h => rowDiff k W (X g h) (Y g h))]
  rfl

/-- The same with the two blocks' rows written 64·0 + r and 64·1 + r. -/
theorem sum_two_blocks' (G : Fin 128 → ℝ) :
    (∑ r : Fin 64, G ⟨64 * 0 + r.val, by have := r.isLt; omega⟩) + (∑ r : Fin 64, G ⟨64 * 1 + r.val, by have := r.isLt; omega⟩)
      = ∑ n : Fin 128, G n := by
  refine Eq.trans ?_ (sum_two_blocks G)
  refine congrArg₂ (· + ·) (Finset.sum_congr rfl fun r _ => congrArg G (Fin.ext ?_))
    (Finset.sum_congr rfl fun r _ => congrArg G (Fin.ext ?_))
  · show 64 * 0 + r.val = r.val
    omega
  · show 64 * 1 + r.val = 64 + r.val
    omega

/-- The sum over the 128 rows of the rows' accumulations is the six scale terms added up: a finite real sum of sums,
    regrouped scale by scale, each scale's common weight taken out. -/
theorem rows_total (X Y : Fin 64 → Fin 2 → ℕ → ℝ) :
    ∑ n : Fin 128, rowAcc (rowOf X n) (rowOf Y n)
      = scaleMean 4 2045 261760 X Y + scaleMean 8 2041 261248 X Y + scaleMean 16 2033 260224 X Y
        + scaleMean 32 2017 258176 X Y + scaleMean 64 1985 254080 X Y + scaleMean 128 1921 245888 X Y := by
  simp only [scaleMean_rows, rowAcc, Finset.sum_add_distrib, ← Finset.sum_mul, Finset.sum_const_zero, zero_add]

/-- Block `t` of the kernel's grid (rows 64·t … 64·t + 63): the sum of its rows' accumulations. -/
def blockSum (X Y : Fin 64 → Fin 2 → ℕ → ℝ) (t : ℕ) (ht : t < 2) : ℝ :=
  ∑ r : Fin 64, rowAcc (rowOf X ⟨64 * t + r.val, by have := r.isLt; omega⟩) (rowOf Y ⟨64 * t + r.val, by have := r.isLt; omega⟩)

/-- THE REGROUPING: the two blocks' sums of row accumulations are the six scale terms added up. -/
theorem blockSums_eq (X Y : Fin 64 → Fin 2 → ℕ → ℝ) :
    blockSum X Y 0 (by norm_num) + blockSum X Y 1 (by norm_num)
      = scaleMean 4 2045 261760 X Y + scaleMean 8 2041 261248 X Y + scaleMean 16 2033 260224 X Y
        + scaleMean 32 2017 258176 X Y + scaleMean 64 1985 254080 X Y + scaleMean 128 1921 245888 X Y :=
  (sum_two_blocks' (fun n => rowAcc (rowOf X n) (rowOf Y n))).trans (rows_total X Y)

end Cert.Entropy

end
-- ==== Proof.RefValue.lean ====
/-
  The reference's result as a real number.

  For real arrays X, Y (every entry of the two arguments a real), scale by scale: the gathered windows of a row are
  its entries p, …, p + k − 1 (LibWindowGather); the sum over the window of softmax · log-softmax is the window's
  negative entropy (LibSoftmaxEntropy); the scale's term is the sum over all (g, h, p) of the absolute difference of
  the two arrays' entropies divided by the count 128 · W (LibScaleLoss); and the result is the sum of the six terms.
-/
import proofs.«110521_j60129542144534_2_alg».proof.Proof.RefRead
import proofs.«110521_j60129542144534_2_alg».proof.Proof.LibWindowGather
import proofs.«110521_j60129542144534_2_alg».proof.Proof.LibSoftmaxEntropy
import proofs.«110521_j60129542144534_2_alg».proof.Proof.LibScaleLoss
import proofs.«110521_j60129542144534_2_alg».proof.Proof.LossAlgebra

noncomputable section

namespace Cert.ReferenceIdeal.RefValue

open Idealize.ShloMosaic Idealize.ShloMosaic.ValueIdx Cert.ReferenceIdeal Cert.ReferenceIdeal.Gen Cert.ReferenceIdeal.ReadP
open Cert.LibWindowGather Cert.LibSoftmaxEntropy Cert.LibScaleLoss Cert.Entropy
open scoped BigOperators

variable (x0 x1 : (⟨S64x2x2048, .f32⟩ : BufTy).Contents (Elt Ideal)) (X Y : Fin 64 → Fin 2 → ℕ → ℝ)
  (hx : ∀ (g : Fin 64) (q : Fin 2) (j : Fin 2048), x0 (ix3 g q j) = ((X g q j.val : ℝ) : EReal))
  (hy : ∀ (g : Fin 64) (q : Fin 2) (j : Fin 2048), x1 (ix3 g q j) = ((Y g q j.val : ℝ) : EReal))
include hx hy

/-! ## Width 4 (2045 positions) -/

/-- Width 4, the input: the gathered windows are the array's entries p + i along the last axis. -/
theorem windows4_input (g : Fin 64) (q : Fin 2) (p : Fin 2045) (i : Fin 4) :
    val_main_v13 (F := Ideal) x0 (ix4 g q p i) = ((X g q (p.val + i.val) : ℝ) : EReal) := by
  have e : val_main_v13 (F := Ideal) x0 = Host.gather (windowDims 64 2 2048 2045 4 gather_S64x2x2048_S2045x4x1_S64x2x2045x4_01_2_n_n_2_2_6421_wf) x0 (windowStarts 2045 4 2048#32 bcast_S2045_S2045x1_0 bcast_S4_S1x4_1 bcast_S2045x1_S2045x4_0_1 bcast_S1x4_S2045x4_0_1 bcast_S_S2045x4 bcast_S2045x4_S2045x4x1_0_1) := rfl
  rw [e, gather_windows _ _ _ _ _ _ _ _ (by norm_num) (by norm_num) (by norm_num) x0 g q p i]
  exact hx g q ⟨p.val + i.val, by have := p.isLt; have := i.isLt; omega⟩

/-- Width 4, the input: the sum over the window of softmax · log-softmax is the window's negative entropy. -/
theorem entropy4_input (g : Fin 64) (q : Fin 2) (p : Fin 2045) :
    val_main_v27 (F := Ideal) x0 (ix3 g q p) = ((softEnt (fun i : Fin 4 => X g q (p.val + i.val)) : ℝ) : EReal) := by
  have e : val_main_v27 (F := Ideal) x0 = hostSoftmaxEntropy reducesTo_S64x2x2045x4_S64x2x2045_d3 h_S_ bcast_S_S64x2x2045 bcast_S64x2x2045_S64x2x2045x1_0_1_2 bcast_S64x2x2045x1_S64x2x2045x4_0_1_2_3 (val_main_v13 (F := Ideal) x0) := rfl
  rw [e]
  exact hostSoftmaxEntropy_apply _ _ _ _ _ _ g q p (by norm_num) _ (fun i => windows4_input x0 x1 X Y hx hy g q p i)

/-- Width 4, the target: the gathered windows are the array's entries p + i along the last axis. -/
theorem windows4_target (g : Fin 64) (q : Fin 2) (p : Fin 2045) (i : Fin 4) :
    val_main_v41 (F := Ideal) x1 (ix4 g q p i) = ((Y g q (p.val + i.val) : ℝ) : EReal) := by
  have e : val_main_v41 (F := Ideal) x1 = Host.gather (windowDims 64 2 2048 2045 4 gather_S64x2x2048_S2045x4x1_S64x2x2045x4_01_2_n_n_2_2_6421_wf) x1 (windowStarts 2045 4 2048#32 bcast_S2045_S2045x1_0 bcast_S4_S1x4_1 bcast_S2045x1_S2045x4_0_1 bcast_S1x4_S2045x4_0_1 bcast_S_S2045x4 bcast_S2045x4_S2045x4x1_0_1) := rfl
  rw [e, gather_windows _ _ _ _ _ _ _ _ (by norm_num) (by norm_num) (by norm_num) x1 g q p i]
  exact hy g q ⟨p.val + i.val, by have := p.isLt; have := i.isLt; omega⟩

/-- Width 4, the target: the sum over the window of softmax · log-softmax is the window's negative entropy. -/
theorem entropy4_target (g : Fin 64) (q : Fin 2) (p : Fin 2045) :
    val_main_v55 (F := Ideal) x1 (ix3 g q p) = ((softEnt (fun i : Fin 4 => Y g q (p.val + i.val)) : ℝ) : EReal) := by
  have e : val_main_v55 (F := Ideal) x1 = hostSoftmaxEntropy reducesTo_S64x2x2045x4_S64x2x2045_d3 h_S_ bcast_S_S64x2x2045 bcast_S64x2x2045_S64x2x2045x1_0_1_2 bcast_S64x2x2045x1_S64x2x2045x4_0_1_2_3 (val_main_v41 (F := Ideal) x1) := rfl
  rw [e]
  exact hostSoftmaxEntropy_apply _ _ _ _ _ _ g q p (by norm_num) _ (fun i => windows4_target x0 x1 X Y hx hy g q p i)

/-- Width 4: the scale's term, the mean over all rows and positions of the absolute difference. -/
theorem loss4 (i : S_.Idx) : val_main_v59 (F := Ideal) x0 x1 i = ((scaleMean 4 2045 261760 X Y : ℝ) : EReal) := by
  have e : val_main_v59 (F := Ideal) x0 x1 = hostMeanAbsDiff reducesTo_S64x2x2045_S_d0_1_2 h_S_ (val_main_v27 (F := Ideal) x0) (val_main_v55 (F := Ideal) x1) 0x487FA000#32 := rfl
  rw [e]
  exact hostMeanAbsDiff_apply _ _ _ _ _ (fun g q p => softEnt (fun i : Fin 4 => X g q (p.val + i.val)))
    (fun g q p => softEnt (fun i : Fin 4 => Y g q (p.val + i.val))) (entropy4_input x0 x1 X Y hx hy) (entropy4_target x0 x1 X Y hx hy)
    261760 (by norm_num) word_261760 i

/-! ## Width 8 (2041 positions) -/

/-- Width 8, the input: the gathered windows are the array's entries p + i along the last axis. -/
theorem windows8_input (g : Fin 64) (q : Fin 2) (p : Fin 2041) (i : Fin 8) :
    val_main_v73 (F := Ideal) x0 (ix4 g q p i) = ((X g q (p.val + i.val) : ℝ) : EReal) := by
  have e : val_main_v73 (F := Ideal) x0 = Host.gather (windowDims 64 2 2048 2041 8 gather_S64x2x2048_S2041x8x1_S64x2x2041x8_01_2_n_n_2_2_6421_wf) x0 (windowStarts 2041 8 2048#32 bcast_S2041_S2041x1_0 bcast_S8_S1x8_1 bcast_S2041x1_S2041x8_0_1 bcast_S1x8_S2041x8_0_1 bcast_S_S2041x8 bcast_S2041x8_S2041x8x1_0_1) := rfl
  rw [e, gather_windows _ _ _ _ _ _ _ _ (by norm_num) (by norm_num) (by norm_num) x0 g q p i]
  exact hx g q ⟨p.val + i.val, by have := p.isLt; have := i.isLt; omega⟩

/-- Width 8, the input: the sum over the window of softmax · log-softmax is the window's negative entropy. -/
theorem entropy8_input (g : Fin 64) (q : Fin 2) (p : Fin 2041) :
    val_main_v87 (F := Ideal) x0 (ix3 g q p) = ((softEnt (fun i : Fin 8 => X g q (p.val + i.val)) : ℝ) : EReal) := by
  have e : val_main_v87 (F := Ideal) x0 = hostSoftmaxEntropy reducesTo_S64x2x2041x8_S64x2x2041_d3 h_S_ bcast_S_S64x2x2041 bcast_S64x2x2041_S64x2x2041x1_0_1_2 bcast_S64x2x2041x1_S64x2x2041x8_0_1_2_3 (val_main_v73 (F := Ideal) x0) := rfl
  rw [e]
  exact hostSoftmaxEntropy_apply _ _ _ _ _ _ g q p (by norm_num) _ (fun i => windows8_input x0 x1 X Y hx hy g q p i)

/-- Width 8, the target: the gathered windows are the array's entries p + i along the last axis. -/
theorem windows8_target (g : Fin 64) (q : Fin 2) (p : Fin 2041) (i : Fin 8) :
    val_main_v101 (F := Ideal) x1 (ix4 g q p i) = ((Y g q (p.val + i.val) : ℝ) : EReal) := by
  have e : val_main_v101 (F := Ideal) x1 = Host.gather (windowDims 64 2 2048 2041 8 gather_S64x2x2048_S2041x8x1_S64x2x2041x8_01_2_n_n_2_2_6421_wf) x1 (windowStarts 2041 8 2048#32 bcast_S2041_S2041x1_0 bcast_S8_S1x8_1 bcast_S2041x1_S2041x8_0_1 bcast_S1x8_S2041x8_0_1 bcast_S_S2041x8 bcast_S2041x8_S2041x8x1_0_1) := rfl
  rw [e, gather_windows _ _ _ _ _ _ _ _ (by norm_num) (by norm_num) (by norm_num) x1 g q p i]
  exact hy g q ⟨p.val + i.val, by have := p.isLt; have := i.isLt; omega⟩

/-- Width 8, the target: the sum over the window of softmax · log-softmax is the window's negative entropy. -/
theorem entropy8_target (g : Fin 64) (q : Fin 2) (p : Fin 2041) :
    val_main_v115 (F := Ideal) x1 (ix3 g q p) = ((softEnt (fun i : Fin 8 => Y g q (p.val + i.val)) : ℝ) : EReal) := by
  have e : val_main_v115 (F := Ideal) x1 = hostSoftmaxEntropy reducesTo_S64x2x2041x8_S64x2x2041_d3 h_S_ bcast_S_S64x2x2041 bcast_S64x2x2041_S64x2x2041x1_0_1_2 bcast_S64x2x2041x1_S64x2x2041x8_0_1_2_3 (val_main_v101 (F := Ideal) x1) := rfl
  rw [e]
  exact hostSoftmaxEntropy_apply _ _ _ _ _ _ g q p (by norm_num) _ (fun i => windows8_target x0 x1 X Y hx hy g q p i)

/-- Width 8: the scale's term, the mean over all rows and positions of the absolute difference. -/
theorem loss8 (i : S_.Idx) : val_main_v119 (F := Ideal) x0 x1 i = ((scaleMean 8 2041 261248 X Y : ℝ) : EReal) := by
  have e : val_main_v119 (F := Ideal) x0 x1 = hostMeanAbsDiff reducesTo_S64x2x2041_S_d0_1_2 h_S_ (val_main_v87 (F := Ideal) x0) (val_main_v115 (F := Ideal) x1) 0x487F2000#32 := rfl
  rw [e]
  exact hostMeanAbsDiff_apply _ _ _ _ _ (fun g q p => softEnt (fun i : Fin 8 => X g q (p.val + i.val)))
    (fun g q p => softEnt (fun i : Fin 8 => Y g q (p.val + i.val))) (entropy8_input x0 x1 X Y hx hy) (entropy8_target x0 x1 X Y hx hy)
    261248 (by norm_num) word_261248 i

/-! ## Width 16 (2033 positions) -/

/-- Width 16, the input: the gathered windows are the array's entries p + i along the last axis. -/
theorem windows16_input (g : Fin 64) (q : Fin 2) (p : Fin 2033) (i : Fin 16) :
    val_main_v133 (F := Ideal) x0 (ix4 g q p i) = ((X g q (p.val + i.val) : ℝ) : EReal) := by
  have e : val_main_v133 (F := Ideal) x0 = Host.gather (windowDims 64 2 2048 2033 16 gather_S64x2x2048_S2033x16x1_S64x2x2033x16_01_2_n_n_2_2_6421_wf) x0 (windowStarts 2033 16 2048#32 bcast_S2033_S2033x1_0 bcast_S16_S1x16_1 bcast_S2033x1_S2033x16_0_1 bcast_S1x16_S2033x16_0_1 bcast_S_S2033x16 bcast_S2033x16_S2033x16x1_0_1) := rfl
  rw [e, gather_windows _ _ _ _ _ _ _ _ (by norm_num) (by norm_num) (by norm_num) x0 g q p i]
  exact hx g q ⟨p.val + i.val, by have := p.isLt; have := i.isLt; omega⟩

/-- Width 16, the input: the sum over the window of softmax · log-softmax is the window's negative entropy. -/
theorem entropy16_input (g : Fin 64) (q : Fin 2) (p : Fin 2033) :
    val_main_v147 (F := Ideal) x0 (ix3 g q p) = ((softEnt (fun i : Fin 16 => X g q (p.val + i.val)) : ℝ) : EReal) := by
  have e : val_main_v147 (F := Ideal) x0 = hostSoftmaxEntropy reducesTo_S64x2x2033x16_S64x2x2033_d3 h_S_ bcast_S_S64x2x2033 bcast_S64x2x2033_S64x2x2033x1_0_1_2 bcast_S64x2x2033x1_S64x2x2033x16_0_1_2_3 (val_main_v133 (F := Ideal) x0) := rfl
  rw [e]
  exact hostSoftmaxEntropy_apply _ _ _ _ _ _ g q p (by norm_num) _ (fun i => windows16_input x0 x1 X Y hx hy g q p i)

/-- Width 16, the target: the gathered windows are the array's entries p + i along the last axis. -/
theorem windows16_target (g : Fin 64) (q : Fin 2) (p : Fin 2033) (i : Fin 16) :
    val_main_v161 (F := Ideal) x1 (ix4 g q p i) = ((Y g q (p.val + i.val) : ℝ) : EReal) := by
  have e : val_main_v161 (F := Ideal) x1 = Host.gather (windowDims 64 2 2048 2033 16 gather_S64x2x2048_S2033x16x1_S64x2x2033x16_01_2_n_n_2_2_6421_wf) x1 (windowStarts 2033 16 2048#32 bcast_S2033_S2033x1_0 bcast_S16_S1x16_1 bcast_S2033x1_S2033x16_0_1 bcast_S1x16_S2033x16_0_1 bcast_S_S2033x16 bcast_S2033x16_S2033x16x1_0_1) := rfl
  rw [e, gather_windows _ _ _ _ _ _ _ _ (by norm_num) (by norm_num) (by norm_num) x1 g q p i]
  exact hy g q ⟨p.val + i.val, by have := p.isLt; have := i.isLt; omega⟩

/-- Width 16, the target: the sum over the window of softmax · log-softmax is the window's negative entropy. -/
theorem entropy16_target (g : Fin 64) (q : Fin 2) (p : Fin 2033) :
    val_main_v175 (F := Ideal) x1 (ix3 g q p) = ((softEnt (fun i : Fin 16 => Y g q (p.val + i.val)) : ℝ) : EReal) := by
  have e : val_main_v175 (F := Ideal) x1 = hostSoftmaxEntropy reducesTo_S64x2x2033x16_S64x2x2033_d3 h_S_ bcast_S_S64x2x2033 bcast_S64x2x2033_S64x2x2033x1_0_1_2 bcast_S64x2x2033x1_S64x2x2033x16_0_1_2_3 (val_main_v161 (F := Ideal) x1) := rfl
  rw [e]
  exact hostSoftmaxEntropy_apply _ _ _ _ _ _ g q p (by norm_num) _ (fun i => windows16_target x0 x1 X Y hx hy g q p i)

/-- Width 16: the scale's term, the mean over all rows and positions of the absolute difference. -/
theorem loss16 (i : S_.Idx) : val_main_v179 (F := Ideal) x0 x1 i = ((scaleMean 16 2033 260224 X Y : ℝ) : EReal) := by
  have e : val_main_v179 (F := Ideal) x0 x1 = hostMeanAbsDiff reducesTo_S64x2x2033_S_d0_1_2 h_S_ (val_main_v147 (F := Ideal) x0) (val_main_v175 (F := Ideal) x1) 0x487E2000#32 := rfl
  rw [e]
  exact hostMeanAbsDiff_apply _ _ _ _ _ (fun g q p => softEnt (fun i : Fin 16 => X g q (p.val + i.val)))
    (fun g q p => softEnt (fun i : Fin 16 => Y g q (p.val + i.val))) (entropy16_input x0 x1 X Y hx hy) (entropy16_target x0 x1 X Y hx hy)
    260224 (by norm_num) word_260224 i

/-! ## Width 32 (2017 positions) -/

/-- Width 32, the input: the gathered windows are the array's entries p + i along the last axis. -/
theorem windows32_input (g : Fin 64) (q : Fin 2) (p : Fin 2017) (i : Fin 32) :
    val_main_v193 (F := Ideal) x0 (ix4 g q p i) = ((X g q (p.val + i.val) : ℝ) : EReal) := by
  have e : val_main_v193 (F := Ideal) x0 = Host.gather (windowDims 64 2 2048 2017 32 gather_S64x2x2048_S2017x32x1_S64x2x2017x32_01_2_n_n_2_2_6421_wf) x0 (windowStarts 2017 32 2048#32 bcast_S2017_S2017x1_0 bcast_S32_S1x32_1 bcast_S2017x1_S2017x32_0_1 bcast_S1x32_S2017x32_0_1 bcast_S_S2017x32 bcast_S2017x32_S2017x32x1_0_1) := rfl
  rw [e, gather_windows _ _ _ _ _ _ _ _ (by norm_num) (by norm_num) (by norm_num) x0 g q p i]
  exact hx g q ⟨p.val + i.val, by have := p.isLt; have := i.isLt; omega⟩

/-- Width 32, the input: the sum over the window of softmax · log-softmax is the window's negative entropy. -/
theorem entropy32_input (g : Fin 64) (q : Fin 2) (p : Fin 2017) :
    val_main_v207 (F := Ideal) x0 (ix3 g q p) = ((softEnt (fun i : Fin 32 => X g q (p.val + i.val)) : ℝ) : EReal) := by
  have e : val_main_v207 (F := Ideal) x0 = hostSoftmaxEntropy reducesTo_S64x2x2017x32_S64x2x2017_d3 h_S_ bcast_S_S64x2x2017 bcast_S64x2x2017_S64x2x2017x1_0_1_2 bcast_S64x2x2017x1_S64x2x2017x32_0_1_2_3 (val_main_v193 (F := Ideal) x0) := rfl
  rw [e]
  exact hostSoftmaxEntropy_apply _ _ _ _ _ _ g q p (by norm_num) _ (fun i => windows32_input x0 x1 X Y hx hy g q p i)

/-- Width 32, the target: the gathered windows are the array's entries p + i along the last axis. -/
theorem windows32_target (g : Fin 64) (q : Fin 2) (p : Fin 2017) (i : Fin 32) :
    val_main_v221 (F := Ideal) x1 (ix4 g q p i) = ((Y g q (p.val + i.val) : ℝ) : EReal) := by
  have e : val_main_v221 (F := Ideal) x1 = Host.gather (windowDims 64 2 2048 2017 32 gather_S64x2x2048_S2017x32x1_S64x2x2017x32_01_2_n_n_2_2_6421_wf) x1 (windowStarts 2017 32 2048#32 bcast_S2017_S2017x1_0 bcast_S32_S1x32_1 bcast_S2017x1_S2017x32_0_1 bcast_S1x32_S2017x32_0_1 bcast_S_S2017x32 bcast_S2017x32_S2017x32x1_0_1) := rfl
  rw [e, gather_windows _ _ _ _ _ _ _ _ (by norm_num) (by norm_num) (by norm_num) x1 g q p i]
  exact hy g q ⟨p.val + i.val, by have := p.isLt; have := i.isLt; omega⟩

/-- Width 32, the target: the sum over the window of softmax · log-softmax is the window's negative entropy. -/
theorem entropy32_target (g : Fin 64) (q : Fin 2) (p : Fin 2017) :
    val_main_v235 (F := Ideal) x1 (ix3 g q p) = ((softEnt (fun i : Fin 32 => Y g q (p.val + i.val)) : ℝ) : EReal) := by
  have e : val_main_v235 (F := Ideal) x1 = hostSoftmaxEntropy reducesTo_S64x2x2017x32_S64x2x2017_d3 h_S_ bcast_S_S64x2x2017 bcast_S64x2x2017_S64x2x2017x1_0_1_2 bcast_S64x2x2017x1_S64x2x2017x32_0_1_2_3 (val_main_v221 (F := Ideal) x1) := rfl
  rw [e]
  exact hostSoftmaxEntropy_apply _ _ _ _ _ _ g q p (by norm_num) _ (fun i => windows32_target x0 x1 X Y hx hy g q p i)

/-- Width 32: the scale's term, the mean over all rows and positions of the absolute difference. -/
theorem loss32 (i : S_.Idx) : val_main_v239 (F := Ideal) x0 x1 i = ((scaleMean 32 2017 258176 X Y : ℝ) : EReal) := by
  have e : val_main_v239 (F := Ideal) x0 x1 = hostMeanAbsDiff reducesTo_S64x2x2017_S_d0_1_2 h_S_ (val_main_v207 (F := Ideal) x0) (val_main_v235 (F := Ideal) x1) 0x487C2000#32 := rfl
  rw [e]
  exact hostMeanAbsDiff_apply _ _ _ _ _ (fun g q p => softEnt (fun i : Fin 32 => X g q (p.val + i.val)))
    (fun g q p => softEnt (fun i : Fin 32 => Y g q (p.val + i.val))) (entropy32_input x0 x1 X Y hx hy) (entropy32_target x0 x1 X Y hx hy)
    258176 (by norm_num) word_258176 i

/-! ## Width 64 (1985 positions) -/

/-- Width 64, the input: the gathered windows are the array's entries p + i along the last axis. -/
theorem windows64_input (g : Fin 64) (q : Fin 2) (p : Fin 1985) (i : Fin 64) :
    val_main_v253 (F := Ideal) x0 (ix4 g q p i) = ((X g q (p.val + i.val) : ℝ) : EReal) := by
  have e : val_main_v253 (F := Ideal) x0 = Host.gather (windowDims 64 2 2048 1985 64 gather_S64x2x2048_S1985x64x1_S64x2x1985x64_01_2_n_n_2_2_6421_wf) x0 (windowStarts 1985 64 2048#32 bcast_S1985_S1985x1_0 bcast_S64_S1x64_1 bcast_S1985x1_S1985x64_0_1 bcast_S1x64_S1985x64_0_1 bcast_S_S1985x64 bcast_S1985x64_S1985x64x1_0_1) := rfl
  rw [e, gather_windows _ _ _ _ _ _ _ _ (by norm_num) (by norm_num) (by norm_num) x0 g q p i]
  exact hx g q ⟨p.val + i.val, by have := p.isLt; have := i.isLt; omega⟩

/-- Width 64, the input: the sum over the window of softmax · log-softmax is the window's negative entropy. -/
theorem entropy64_input (g : Fin 64) (q : Fin 2) (p : Fin 1985) :
    val_main_v267 (F := Ideal) x0 (ix3 g q p) = ((softEnt (fun i : Fin 64 => X g q (p.val + i.val)) : ℝ) : EReal) := by
  have e : val_main_v267 (F := Ideal) x0 = hostSoftmaxEntropy reducesTo_S64x2x1985x64_S64x2x1985_d3 h_S_ bcast_S_S64x2x1985 bcast_S64x2x1985_S64x2x1985x1_0_1_2 bcast_S64x2x1985x1_S64x2x1985x64_0_1_2_3 (val_main_v253 (F := Ideal) x0) := rfl
  rw [e]
  exact hostSoftmaxEntropy_apply _ _ _ _ _ _ g q p (by norm_num) _ (fun i => windows64_input x0 x1 X Y hx hy g q p i)

/-- Width 64, the target: the gathered windows are the array's entries p + i along the last axis. -/
theorem windows64_target (g : Fin 64) (q : Fin 2) (p : Fin 1985) (i : Fin 64) :
    val_main_v281 (F := Ideal) x1 (ix4 g q p i) = ((Y g q (p.val + i.val) : ℝ) : EReal) := by
  have e : val_main_v281 (F := Ideal) x1 = Host.gather (windowDims 64 2 2048 1985 64 gather_S64x2x2048_S1985x64x1_S64x2x1985x64_01_2_n_n_2_2_6421_wf) x1 (windowStarts 1985 64 2048#32 bcast_S1985_S1985x1_0 bcast_S64_S1x64_1 bcast_S1985x1_S1985x64_0_1 bcast_S1x64_S1985x64_0_1 bcast_S_S1985x64 bcast_S1985x64_S1985x64x1_0_1) := rfl
  rw [e, gather_windows _ _ _ _ _ _ _ _ (by norm_num) (by norm_num) (by norm_num) x1 g q p i]
  exact hy g q ⟨p.val + i.val, by have := p.isLt; have := i.isLt; omega⟩

/-- Width 64, the target: the sum over the window of softmax · log-softmax is the window's negative entropy. -/
theorem entropy64_target (g : Fin 64) (q : Fin 2) (p : Fin 1985) :
    val_main_v295 (F := Ideal) x1 (ix3 g q p) = ((softEnt (fun i : Fin 64 => Y g q (p.val + i.val)) : ℝ) : EReal) := by
  have e : val_main_v295 (F := Ideal) x1 = hostSoftmaxEntropy reducesTo_S64x2x1985x64_S64x2x1985_d3 h_S_ bcast_S_S64x2x1985 bcast_S64x2x1985_S64x2x1985x1_0_1_2 bcast_S64x2x1985x1_S64x2x1985x64_0_1_2_3 (val_main_v281 (F := Ideal) x1) := rfl
  rw [e]
  exact hostSoftmaxEntropy_apply _ _ _ _ _ _ g q p (by norm_num) _ (fun i => windows64_target x0 x1 X Y hx hy g q p i)

/-- Width 64: the scale's term, the mean over all rows and positions of the absolute difference. -/
theorem loss64 (i : S_.Idx) : val_main_v299 (F := Ideal) x0 x1 i = ((scaleMean 64 1985 254080 X Y : ℝ) : EReal) := by
  have e : val_main_v299 (F := Ideal) x0 x1 = hostMeanAbsDiff reducesTo_S64x2x1985_S_d0_1_2 h_S_ (val_main_v267 (F := Ideal) x0) (val_main_v295 (F := Ideal) x1) 0x48782000#32 := rfl
  rw [e]
  exact hostMeanAbsDiff_apply _ _ _ _ _ (fun g q p => softEnt (fun i : Fin 64 => X g q (p.val + i.val)))
    (fun g q p => softEnt (fun i : Fin 64 => Y g q (p.val + i.val))) (entropy64_input x0 x1 X Y hx hy) (entropy64_target x0 x1 X Y hx hy)
    254080 (by norm_num) word_254080 i

/-! ## Width 128 (1921 positions) -/

/-- Width 128, the input: the gathered windows are the array's entries p + i along the last axis. -/
theorem windows128_input (g : Fin 64) (q : Fin 2) (p : Fin 1921) (i : Fin 128) :
    val_main_v313 (F := Ideal) x0 (ix4 g q p i) = ((X g q (p.val + i.val) : ℝ) : EReal) := by
  have e : val_main_v313 (F := Ideal) x0 = Host.gather (windowDims 64 2 2048 1921 128 gather_S64x2x2048_S1921x128x1_S64x2x1921x128_01_2_n_n_2_2_6421_wf) x0 (windowStarts 1921 128 2048#32 bcast_S1921_S1921x1_0 bcast_S128_S1x128_1 bcast_S1921x1_S1921x128_0_1 bcast_S1x128_S1921x128_0_1 bcast_S_S1921x128 bcast_S1921x128_S1921x128x1_0_1) := rfl
  rw [e, gather_windows _ _ _ _ _ _ _ _ (by norm_num) (by norm_num) (by norm_num) x0 g q p i]
  exact hx g q ⟨p.val + i.val, by have := p.isLt; have := i.isLt; omega⟩

/-- Width 128, the input: the sum over the window of softmax · log-softmax is the window's negative entropy. -/
theorem entropy128_input (g : Fin 64) (q : Fin 2) (p : Fin 1921) :
    val_main_v327 (F := Ideal) x0 (ix3 g q p) = ((softEnt (fun i : Fin 128 => X g q (p.val + i.val)) : ℝ) : EReal) := by
  have e : val_main_v327 (F := Ideal) x0 = hostSoftmaxEntropy reducesTo_S64x2x1921x128_S64x2x1921_d3 h_S_ bcast_S_S64x2x1921 bcast_S64x2x1921_S64x2x1921x1_0_1_2 bcast_S64x2x1921x1_S64x2x1921x128_0_1_2_3 (val_main_v313 (F := Ideal) x0) := rfl
  rw [e]
  exact hostSoftmaxEntropy_apply _ _ _ _ _ _ g q p (by norm_num) _ (fun i => windows128_input x0 x1 X Y hx hy g q p i)

/-- Width 128, the target: the gathered windows are the array's entries p + i along the last axis. -/
theorem windows128_target (g : Fin 64) (q : Fin 2) (p : Fin 1921) (i : Fin 128) :
    val_main_v341 (F := Ideal) x1 (ix4 g q p i) = ((Y g q (p.val + i.val) : ℝ) : EReal) := by
  have e : val_main_v341 (F := Ideal) x1 = Host.gather (windowDims 64 2 2048 1921 128 gather_S64x2x2048_S1921x128x1_S64x2x1921x128_01_2_n_n_2_2_6421_wf) x1 (windowStarts 1921 128 2048#32 bcast_S1921_S1921x1_0 bcast_S128_S1x128_1 bcast_S1921x1_S1921x128_0_1 bcast_S1x128_S1921x128_0_1 bcast_S_S1921x128 bcast_S1921x128_S1921x128x1_0_1) := rfl
  rw [e, gather_windows _ _ _ _ _ _ _ _ (by norm_num) (by norm_num) (by norm_num) x1 g q p i]
  exact hy g q ⟨p.val + i.val, by have := p.isLt; have := i.isLt; omega⟩

/-- Width 128, the target: the sum over the window of softmax · log-softmax is the window's negative entropy. -/
theorem entropy128_target (g : Fin 64) (q : Fin 2) (p : Fin 1921) :
    val_main_v355 (F := Ideal) x1 (ix3 g q p) = ((softEnt (fun i : Fin 128 => Y g q (p.val + i.val)) : ℝ) : EReal) := by
  have e : val_main_v355 (F := Ideal) x1 = hostSoftmaxEntropy reducesTo_S64x2x1921x128_S64x2x1921_d3 h_S_ bcast_S_S64x2x1921 bcast_S64x2x1921_S64x2x1921x1_0_1_2 bcast_S64x2x1921x1_S64x2x1921x128_0_1_2_3 (val_main_v341 (F := Ideal) x1) := rfl
  rw [e]
  exact hostSoftmaxEntropy_apply _ _ _ _ _ _ g q p (by norm_num) _ (fun i => windows128_target x0 x1 X Y hx hy g q p i)

/-- Width 128: the scale's term, the mean over all rows and positions of the absolute difference. -/
theorem loss128 (i : S_.Idx) : val_main_v359 (F := Ideal) x0 x1 i = ((scaleMean 128 1921 245888 X Y : ℝ) : EReal) := by
  have e : val_main_v359 (F := Ideal) x0 x1 = hostMeanAbsDiff reducesTo_S64x2x1921_S_d0_1_2 h_S_ (val_main_v327 (F := Ideal) x0) (val_main_v355 (F := Ideal) x1) 0x48702000#32 := rfl
  rw [e]
  exact hostMeanAbsDiff_apply _ _ _ _ _ (fun g q p => softEnt (fun i : Fin 128 => X g q (p.val + i.val)))
    (fun g q p => softEnt (fun i : Fin 128 => Y g q (p.val + i.val))) (entropy128_input x0 x1 X Y hx hy) (entropy128_target x0 x1 X Y hx hy)
    245888 (by norm_num) word_245888 i

/-! ## The six terms added up -/

/-- THE REFERENCE'S RESULT: the sum of the six scale terms. -/
theorem result (i : S_.Idx) :
    val_main_v367 (F := Ideal) x0 x1 i
      = ((scaleMean 4 2045 261760 X Y + scaleMean 8 2041 261248 X Y + scaleMean 16 2033 260224 X Y
          + scaleMean 32 2017 258176 X Y + scaleMean 64 1985 254080 X Y + scaleMean 128 1921 245888 X Y : ℝ) : EReal) := by
  have e : val_main_v367 (F := Ideal) x0 x1 = hostSumOfSix bcast_S_S1 concatenates_S1_S1_S1_S1_S1_S1_S6_d0 reducesTo_S6_S_d0 h_S_
      (val_main_v59 (F := Ideal) x0 x1) (val_main_v119 (F := Ideal) x0 x1) (val_main_v179 (F := Ideal) x0 x1)
      (val_main_v239 (F := Ideal) x0 x1) (val_main_v299 (F := Ideal) x0 x1) (val_main_v359 (F := Ideal) x0 x1) := rfl
  rw [e]
  exact hostSumOfSix_apply _ _ _ _ _ _ _ _ _ _ _ _ _ _ _ _ (loss4 x0 x1 X Y hx hy) (loss8 x0 x1 X Y hx hy) (loss16 x0 x1 X Y hx hy)
    (loss32 x0 x1 X Y hx hy) (loss64 x0 x1 X Y hx hy) (loss128 x0 x1 X Y hx hy) i

end Cert.ReferenceIdeal.RefValue

end
-- ==== Proof.KernelRunValue.lean ====
/-
  The kernel's run, read: what the program leaves in its result buffer, in terms of the two grid points' blocks.

  The program views each argument [64, 2, 2048] as [128, 2048] (row n is (n / 2, n % 2)), runs one region over a grid
  of two points — point t reads rows 64t … 64t + 63 of both views and writes rows 8t … 8t + 7 of a [16, 128] array —,
  and afterwards adds the array's entries (0, 0) and (8, 0): entry (0, 0) of the first point's block and entry (0, 0)
  of the second point's.

    * an input block's element (r, j) at point t is the argument's element ((64t + r) / 2, (64t + r) % 2, j);
    * the output array at (8t, 0) after the region is entry (0, 0) of what point t wrote (the two blocks are disjoint);
    * the result buffer holds the sum of those two entries; the arguments are unchanged.
-/
import proofs.«110521_j60129542144534_2_alg».proof.Proof.Gen.KernelIdeal.Frame
import Idealize.ShloMosaic.Lib.Pipeline.Value
import Idealize.ShloMosaic.Lib.ValueIdx

noncomputable section

namespace Cert.KernelIdeal.RunValue

open Cert.KernelIdeal Cert.KernelIdeal.Gen Idealize.ShloMosaic Idealize.ShloMosaic.TcCoe Idealize.SL.Sem
open Idealize.ShloMosaic.ValueIdx
open Idealize.ShloMosaic.Pipeline (Dat)

variable {F : FTy → Type} [FloatOps F] [Named F]
variable (m : (ℓ : Loc nD τ sig) → Buf (Elt F) ℓ) (ρ : Dev nD → PrngReg)

/-! ## The input blocks -/

/-- The [64, 2, 2048] array viewed as [128, 2048]: row n, column j is the element (n / 2, n % 2, j). -/
theorem reshape_rows_apply {α : Type} (x : S64x2x2048.Idx → α) (hc : S64x2x2048.ShapeCasts S128x2048) (i : S128x2048.Idx)
    (n : ℕ) (j : Fin 2048) (hn : n < 128) (h0 : (i 0).val = n) (h1 : (i 1).val = j.val) :
    shapeCast S128x2048 x hc i = x (ix3 (⟨n / 2, by omega⟩ : Fin 64) (⟨n % 2, by omega⟩ : Fin 2) j) := by
  refine shapeCast_apply x hc i _ ?_
  rw [Shape.rowMajor_val_three, Shape.rowMajor_val_two]
  show ((n / 2) * 2 + n % 2) * 2048 + j.val = (i 0).val * 2048 + (i 1).val
  omega

/-- The region finds the first viewed array as the row-major view of the first argument. -/
theorem V_main_v0 (c : Dev nD) :
    (V m c main_v0 : S128x2048.Idx → Elt F .f32)
      = shapeCast S128x2048 (m ((c.tc : Thread nD τ).loc main_arg0)) shapeCasts_S64x2x2048_S128x2048 := by
  dsimp only [Gen.V, Gen.V0]
  simp only [Gen.hostOps0, List.flatten_cons, List.flatten_nil, List.append_nil, List.cons_append, List.nil_append]
  after_results
  rfl

/-- The region finds the second viewed array as the row-major view of the second argument. -/
theorem V_main_v1 (c : Dev nD) :
    (V m c main_v1 : S128x2048.Idx → Elt F .f32)
      = shapeCast S128x2048 (m ((c.tc : Thread nD τ).loc main_arg1)) shapeCasts_S64x2x2048_S128x2048 := by
  dsimp only [Gen.V, Gen.V0]
  simp only [Gen.hostOps0, List.flatten_cons, List.flatten_nil, List.append_nil, List.cons_append, List.nil_append]
  after_results
  rfl

/-- The index maps over the grid: at point t every window's block is row-block t, column-block 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- The grid has two points. -/
theorem point_lt (t : Fin cfg0.N) : t.val < 2 := by
  have hN : grid0.N = 2 := N_0
  exact hN ▸ t.isLt

/-- Element (r, j) of the first input's block at point t is the first argument's element
    ((64t + r) / 2, (64t + r) % 2, j). -/
theorem iblk0_apply (c : Dev nD) (t : Fin cfg0.N) (r : Fin 64) (j : Fin 2048) :
    Gen.iblk m c 0 t (ix2 r j) = m ((c.tc : Thread nD τ).loc main_arg0)
      (ix3 (⟨(64 * t.val + r.val) / 2, by have := point_lt t; omega⟩ : Fin 64)
        (⟨(64 * t.val + r.val) % 2, by omega⟩ : Fin 2) j) := by
  have ht := point_lt t
  have hr := r.isLt
  obtain ⟨e0, e1, -, -, -, -⟩ := idx_facts t
  unfold Gen.iblk
  rw [View.read_apply]
  show V m c main_v0 (((cfg0.win 0).blk t).view.emb (ix2 r j)) = _
  refine (congrFun (V_main_v0 m c) _).trans (reshape_rows_apply _ _ _ (64 * t.val + r.val) j (by omega) ?_ ?_)
  · show win0_0.index t (0 : Fin 2) * 64 + 1 * r.val = _
    omega
  · show win0_0.index t (1 : Fin 2) * 2048 + 1 * j.val = _
    omega

/-- Element (r, j) of the second input's block at point t is the second argument's element
    ((64t + r) / 2, (64t + r) % 2, j). -/
theorem iblk1_apply (c : Dev nD) (t : Fin cfg0.N) (r : Fin 64) (j : Fin 2048) :
    Gen.iblk m c 1 t (ix2 r j) = m ((c.tc : Thread nD τ).loc main_arg1)
      (ix3 (⟨(64 * t.val + r.val) / 2, by have := point_lt t; omega⟩ : Fin 64)
        (⟨(64 * t.val + r.val) % 2, by omega⟩ : Fin 2) j) := by
  have ht := point_lt t
  have hr := r.isLt
  obtain ⟨-, -, e0, e1, -, -⟩ := idx_facts t
  unfold Gen.iblk
  rw [View.read_apply]
  show V m c main_v1 (((cfg0.win 1).blk t).view.emb (ix2 r j)) = _
  refine (congrFun (V_main_v1 m c) _).trans (reshape_rows_apply _ _ _ (64 * t.val + r.val) j (by omega) ?_ ?_)
  · show win0_1.index t (0 : Fin 2) * 64 + 1 * r.val = _
    omega
  · show win0_1.index t (1 : Fin 2) * 2048 + 1 * j.val = _
    omega

/-! ## The output array after the region -/

/-- What point t leaves at entry (0, 0) of its output block. -/
def blockOut (c : Dev nD) (t : Fin cfg0.N) : Elt F .f32 :=
  Gen.out0_2 (Gen.iblk m c 0 t) (Gen.iblk m c 1 t) (ix2 (0 : Fin 8) (0 : Fin 128))

/-- Distinct grid points write distinct blocks (decided over the two points). -/
theorem idx_inj2 : ∀ t t' : Fin cfg0.N, win0_2.index t = win0_2.index t' → t = t' :=
  (by decide +kernel : ∀ t t' : Fin grid0.N, win0_2.index t = win0_2.index t' → t = t')

/-- So two points' output blocks share no array index. -/
theorem disjoint2 : ∀ t t' : Fin cfg0.N, (cfg0.win 2).flush t = true → (cfg0.win 2).flush t' = true → t ≠ t' →
    Disjoint ((cfg0.win 2).blk t).view.set ((cfg0.win 2).blk t').view.set :=
  fun t t' _ _ hne => (cfg0.win 2).disjoint_blk fun h => hne (idx_inj2 t t' h)

/-- The output array after the region, at (8t, 0): entry (0, 0) of what point t wrote. -/
theorem arr_at_block (c : Dev nD) (t : Fin cfg0.N) (i : S16x128.Idx) (h0 : (i 0).val = 8 * t.val) (h1 : (i 1).val = 0) :
    (dats m 0 c).arrAt 2 cfg0.N i = blockOut m c t := by
  obtain ⟨-, -, -, -, e0, e1⟩ := idx_facts t
  have hi : i = ((cfg0.win 2).blk t).view.emb (ix2 (0 : Fin 8) (0 : Fin 128)) := by
    funext a; apply Fin.ext
    match a with
    | ⟨0, _⟩ => show (i 0).val = win0_2.index t (0 : Fin 2) * 8 + 1 * 0; omega
    | ⟨1, _⟩ => show (i 1).val = win0_2.index t (1 : Fin 2) * 128 + 1 * 0; omega
  rw [hi]
  refine ((dats m 0 c).arrAt_emb_eq_flushed 2 disjoint2 t (flush0_2 t) (ix2 (0 : Fin 8) (0 : Fin 128))).trans ?_
  show (cfg0.win 2).cut (grid0.coords t) ((dats m 0 c).after 2 t) (ix2 (0 : Fin 8) (0 : Fin 128)) = _
  rw [after0_2]
  rfl

/-! ## The host operations after the region -/

/-- Entry (r, 0) of a [16, 128] array, cut out as a [1, 1] array and viewed as a scalar. -/
theorem slice_scalar_apply {α : Type} (A : S16x128.Idx → α) (r : ℕ) (hr : r < 16) (hs : S16x128.Slices ![r, 0] S1x1)
    (hc : S1x1.ShapeCasts S_) (x : S_.Idx) :
    shapeCast S_ (extractStridedSlice S1x1 ![r, 0] A hs) hc x = A (ix2 (⟨r, hr⟩ : Fin 16) (0 : Fin 128)) := by
  refine (shapeCast_apply _ hc x (ix2 (0 : Fin 1) (0 : Fin 1)) ?_).trans ?_
  · rw [Shape.rowMajor_val_two]
    show 0 * 1 + 0 = (Shape.rowMajorPi _ x).val
    rw [Shape.rowMajorPi_zero]
  · exact extractStridedSlice_apply _ A hs _ _ (fun a => match a with
      | ⟨0, _⟩ => rfl
      | ⟨1, _⟩ => rfl)

/-- After the region the output window's array is what the two points' write-backs leave. -/
theorem tail_array (c : Dev nD) :
    Pipeline.withArrays (cfgs 0).spec c (V0 m c) (fun w => (dats m 0 c).arrAt w (cfgs 0).N) (Proc.devRef .tc main_v2)
      = (dats m 0 c).arrAt 2 cfg0.N :=
  Pipeline.withArrays_arr spec0 launch0.win.arr_inj c _ _ 2

/-- The result buffer after the host operations that follow the region: the sum of entry (0, 0) of the first point's
    block and entry (0, 0) of the second point's. -/
theorem tail_value (c : Dev nD) :
    Pipeline.afterTail₀ cfgs (dats m) 0 (V0 m) [hostOps1] c main_v7
      = fun _ => FloatOps.addf (blockOut m c t0_0) (blockOut m c t0_1) := by
  unfold Pipeline.afterTail₀
  show StableHlo.after hostOps1 _ (Proc.devRef .tc main_v7) = _
  after_results
  funext x
  show FloatOps.addf
      (shapeCast S_ (extractStridedSlice S1x1 ![0, 0] (Pipeline.withArrays (cfgs 0).spec c (V0 m c)
        (fun w => (dats m 0 c).arrAt w (cfgs 0).N) (Proc.devRef .tc main_v2)) slices_S16x128_S1x1_0_0) shapeCasts_S1x1_S_ x)
      (shapeCast S_ (extractStridedSlice S1x1 ![8, 0] (Pipeline.withArrays (cfgs 0).spec c (V0 m c)
        (fun w => (dats m 0 c).arrAt w (cfgs 0).N) (Proc.devRef .tc main_v2)) slices_S16x128_S1x1_8_0) shapeCasts_S1x1_S_ x) = _
  rw [tail_array m c]
  refine congrArg₂ FloatOps.addf ?_ ?_
  · exact (slice_scalar_apply _ 0 (by decide) _ _ x).trans (arr_at_block m c t0_0 _ rfl rfl)
  · exact (slice_scalar_apply _ 8 (by decide) _ _ x).trans (arr_at_block m c t0_1 _ rfl rfl)

/-! ## The run -/

/-- Every run of the program ends with the result buffer at the sum of the two points' entries (0, 0), and the
    arguments as launched. -/
theorem run_value : θ_run defs (onTc (τ := τ) (main (F := F))) ⟨m, fun _ => 0, ρ⟩ fun r => ∀ c : Dev nD,
      r.2.mem ((c.tc : Thread nD τ).loc main_v7) = (fun _ => FloatOps.addf (blockOut m c t0_0) (blockOut m c t0_1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v7 (Pipeline.mem_restRefs_of main_v7 (by decide) (by decide))).trans (tail_value m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.RunValue

end
-- ==== Proof.LibWindowPyramid.lean ====
/-
  Sliding-window sums of the rows of a matrix, built by doubling.

  For a row e(0), e(1), … and a width w, the window sum at position p is S_w(p) = e(p) + e(p+1) + … + e(p+w−1).
  Two adjacent windows of width w make one of width 2w:  S_{2w}(p) = S_w(p) + S_w(p+w).  So a matrix that holds, at
  (r, p), the width-w window sums of row r gives the width-2w sums by adding to its first n' columns the n' columns
  that start w further right: one slice, one shifted slice, one addition. Nothing is asked of the entries: the
  statements hold in any additive commutative monoid, the extended reals included (only commutativity and
  associativity of + are used).
-/
import Idealize.ShloMosaic.Lib.ValueIdx
import Idealize.ShloMosaic.Lib.Pipeline.Value
import Idealize.ShloMosaic.PureOps.Ideal.Laws

noncomputable section

namespace Cert.LibWindowPyramid

open Idealize.ShloMosaic Idealize.ShloMosaic.ValueIdx
open scoped BigOperators

/-! ## Window sums of a sequence -/

/-- The sum of the `w` entries of `e` starting at `p`. -/
def winSum {M : Type*} [AddCommMonoid M] (e : ℕ → M) (w p : ℕ) : M := ∑ i ∈ Finset.range w, e (p + i)

/-- A window of width 1 is its one entry. -/
theorem winSum_one {M : Type*} [AddCommMonoid M] (e : ℕ → M) (p : ℕ) : winSum e 1 p = e p := by
  unfold winSum; rw [Finset.sum_range_one, Nat.add_zero]

/-- Two adjacent windows of width `w` make the window of width `2w`. -/
theorem winSum_double {M : Type*} [AddCommMonoid M] (e : ℕ → M) (w p : ℕ) :
    winSum e (w + w) p = winSum e w p + winSum e w (p + w) := by
  unfold winSum
  rw [Finset.sum_range_add]
  exact congrArg (_ + ·) (Finset.sum_congr rfl fun i _ => by rw [Nat.add_assoc])

/-- A window sum as a sum over `Fin w`. -/
theorem winSum_eq_sum_fin {M : Type*} [AddCommMonoid M] (e : ℕ → M) (w p : ℕ) :
    winSum e w p = ∑ i : Fin w, e (p + i.val) := by
  unfold winSum; exact (Fin.sum_univ_eq_sum_range (fun i => e (p + i)) w).symm

/-! ## One doubling step on a matrix, in the vector unit's spelling -/

variable {F : FTy → Type} [FloatOps F]

/-- The first `n'` columns of `u` plus the `n'` columns that start at column `s`. -/
def pairAdd {R n n' : ℕ} (s : ℕ) (u : FVec F ⟨2, ![R, n]⟩ .f32)
    (h0 : (⟨2, ![R, n]⟩ : Shape).Slices ![0, 0] ⟨2, ![R, n']⟩)
    (hs : (⟨2, ![R, n]⟩ : Shape).Slices ![0, s] ⟨2, ![R, n']⟩) : FVec F ⟨2, ![R, n']⟩ .f32 :=
  addf (extractStridedSlice ⟨2, ![R, n']⟩ ![0, 0] u h0) (extractStridedSlice ⟨2, ![R, n']⟩ ![0, s] u hs)

/-- At `(r, p)` the step reads `u(r, p) + u(r, p + s)`. -/
theorem pairAdd_apply {R n n' s : ℕ} (hn : n' + s ≤ n) (u : FVec Ideal ⟨2, ![R, n]⟩ .f32)
    (h0 : (⟨2, ![R, n]⟩ : Shape).Slices ![0, 0] ⟨2, ![R, n']⟩)
    (hs : (⟨2, ![R, n]⟩ : Shape).Slices ![0, s] ⟨2, ![R, n']⟩) (r : Fin R) (p : Fin n') :
    pairAdd (F := Ideal) s u h0 hs (ix2 r p)
      = u (ix2 r ⟨p.val, by omega⟩) + u (ix2 r ⟨p.val + s, by omega⟩) := by
  show extractStridedSlice ⟨2, ![R, n']⟩ ![0, 0] u h0 (ix2 r p) + extractStridedSlice ⟨2, ![R, n']⟩ ![0, s] u hs (ix2 r p) = _
  rw [extractStridedSlice_apply ![0, 0] u h0 (ix2 r p) (ix2 r ⟨p.val, by omega⟩) (fun a => match a with
      | ⟨0, _⟩ => by show r.val = 0 + r.val; omega
      | ⟨1, _⟩ => by show p.val = 0 + p.val; omega),
    extractStridedSlice_apply ![0, s] u hs (ix2 r p) (ix2 r ⟨p.val + s, by omega⟩) (fun a => match a with
      | ⟨0, _⟩ => by show r.val = 0 + r.val; omega
      | ⟨1, _⟩ => by show p.val + s = s + p.val; omega)]

/-- `u` holds, at every `(r, p)`, the width-`w` window sum at `p` of the sequence `e r`. -/
def Holds {R n : ℕ} (u : FVec Ideal ⟨2, ![R, n]⟩ .f32) (e : Fin R → ℕ → EReal) (w : ℕ) : Prop :=
  ∀ (r : Fin R) (p : Fin n), u (ix2 r p) = winSum (e r) w p.val

/-- A matrix whose entries are the sequence's entries holds its width-1 window sums. -/
theorem holds_one {R n : ℕ} (u : FVec Ideal ⟨2, ![R, n]⟩ .f32) (e : Fin R → ℕ → EReal)
    (h : ∀ (r : Fin R) (p : Fin n), u (ix2 r p) = e r p.val) : Holds u e 1 :=
  fun r p => (h r p).trans (winSum_one (e r) p.val).symm

/-- THE DOUBLING STEP: from the width-`w` sums, the slice-shift-add step with shift `w` gives the width-`2w` sums. -/
theorem holds_pairAdd {R n n' w w2 : ℕ} (hw2 : w2 = w + w) (hn : n' + w ≤ n) (u : FVec Ideal ⟨2, ![R, n]⟩ .f32)
    (e : Fin R → ℕ → EReal) (hu : Holds u e w)
    (h0 : (⟨2, ![R, n]⟩ : Shape).Slices ![0, 0] ⟨2, ![R, n']⟩)
    (hs : (⟨2, ![R, n]⟩ : Shape).Slices ![0, w] ⟨2, ![R, n']⟩) : Holds (pairAdd (F := Ideal) w u h0 hs) e w2 := by
  subst hw2
  intro r p
  rw [pairAdd_apply hn u h0 hs r p, hu r ⟨p.val, by omega⟩, hu r ⟨p.val + w, by omega⟩]
  exact (winSum_double (e r) w p.val).symm

end Cert.LibWindowPyramid

end
-- ==== Proof.KernelPyramid.lean ====
/-
  The doubling pyramid of the kernel body: each of its slice-shift-add payloads turns the window sums of one width
  into those of twice the width (LibWindowPyramid), whatever the sequence summed — the same statement serves the
  sums of e^{x} and of x · e^{x}, for the input block and for the target block.
-/
import proofs.«110521_j60129542144534_2_alg».proof.Proof.Gen.KernelIdeal.Skeleton
import proofs.«110521_j60129542144534_2_alg».proof.Proof.LibWindowPyramid

noncomputable section

namespace Cert.KernelIdeal.BodyValue

open Idealize.ShloMosaic Idealize.ShloMosaic.ValueIdx Cert.KernelIdeal Cert.KernelIdeal.Gen Cert.LibWindowPyramid

variable (e : Fin 64 → ℕ → EReal)

/-- `k0_pay6`: two doubling steps, widths 1 → 2 → 4 (2048 → 2047 → 2045 positions). -/
theorem holds6 (v : FVec Ideal ⟨2, ![64, 2048]⟩ .f32) (h : Holds (k0_pay4 (F := Ideal) v) e 1) :
    Holds (k0_pay6 (F := Ideal) v) e 4 :=
  holds_pairAdd (n := 2047) (n' := 2045) (w := 2) (by norm_num) (by norm_num) _ e
    (holds_pairAdd (n := 2048) (n' := 2047) (w := 1) (by norm_num) (by norm_num) (k0_pay4 (F := Ideal) v) e h
      slices_S64x2048_o0_0_S64x2047 slices_S64x2048_o0_1_S64x2047)
    slices_S64x2047_o0_0_S64x2045 slices_S64x2047_o0_2_S64x2045

/-- `k0_pay7`: two doubling steps, widths 1 → 2 → 4 (2048 → 2047 → 2045 positions). -/
theorem holds7 (v : FVec Ideal ⟨2, ![64, 2048]⟩ .f32) (h : Holds (mulf (k0_pay2 (F := Ideal) v) (k0_pay4 (F := Ideal) v)) e 1) :
    Holds (k0_pay7 (F := Ideal) v) e 4 :=
  holds_pairAdd (n := 2047) (n' := 2045) (w := 2) (by norm_num) (by norm_num) _ e
    (holds_pairAdd (n := 2048) (n' := 2047) (w := 1) (by norm_num) (by norm_num) (mulf (k0_pay2 (F := Ideal) v) (k0_pay4 (F := Ideal) v)) e h
      slices_S64x2048_o0_0_S64x2047 slices_S64x2048_o0_1_S64x2047)
    slices_S64x2047_o0_0_S64x2045 slices_S64x2047_o0_2_S64x2045

/-- `k0_pay8`: two doubling steps, widths 1 → 2 → 4 (2048 → 2047 → 2045 positions). -/
theorem holds8 (v : FVec Ideal ⟨2, ![64, 2048]⟩ .f32) (h : Holds (k0_pay5 (F := Ideal) v) e 1) :
    Holds (k0_pay8 (F := Ideal) v) e 4 :=
  holds_pairAdd (n := 2047) (n' := 2045) (w := 2) (by norm_num) (by norm_num) _ e
    (holds_pairAdd (n := 2048) (n' := 2047) (w := 1) (by norm_num) (by norm_num) (k0_pay5 (F := Ideal) v) e h
      slices_S64x2048_o0_0_S64x2047 slices_S64x2048_o0_1_S64x2047)
    slices_S64x2047_o0_0_S64x2045 slices_S64x2047_o0_2_S64x2045

/-- `k0_pay9`: two doubling steps, widths 1 → 2 → 4 (2048 → 2047 → 2045 positions). -/
theorem holds9 (v : FVec Ideal ⟨2, ![64, 2048]⟩ .f32) (h : Holds (mulf (k0_pay3 (F := Ideal) v) (k0_pay5 (F := Ideal) v)) e 1) :
    Holds (k0_pay9 (F := Ideal) v) e 4 :=
  holds_pairAdd (n := 2047) (n' := 2045) (w := 2) (by norm_num) (by norm_num) _ e
    (holds_pairAdd (n := 2048) (n' := 2047) (w := 1) (by norm_num) (by norm_num) (mulf (k0_pay3 (F := Ideal) v) (k0_pay5 (F := Ideal) v)) e h
      slices_S64x2048_o0_0_S64x2047 slices_S64x2048_o0_1_S64x2047)
    slices_S64x2047_o0_0_S64x2045 slices_S64x2047_o0_2_S64x2045

/-- `k0_pay11`: the width-4 window sums become the width-8 ones (shift 4, 2045 → 2041 positions). -/
theorem holds11 (v : FVec Ideal ⟨2, ![64, 2048]⟩ .f32) (h : Holds (k0_pay6 (F := Ideal) v) e 4) :
    Holds (k0_pay11 (F := Ideal) v) e 8 :=
  holds_pairAdd (n := 2045) (n' := 2041) (w := 4) (by norm_num) (by norm_num) (k0_pay6 (F := Ideal) v) e h
    slices_S64x2045_o0_0_S64x2041 slices_S64x2045_o0_4_S64x2041

/-- `k0_pay12`: the width-4 window sums become the width-8 ones (shift 4, 2045 → 2041 positions). -/
theorem holds12 (v : FVec Ideal ⟨2, ![64, 2048]⟩ .f32) (h : Holds (k0_pay7 (F := Ideal) v) e 4) :
    Holds (k0_pay12 (F := Ideal) v) e 8 :=
  holds_pairAdd (n := 2045) (n' := 2041) (w := 4) (by norm_num) (by norm_num) (k0_pay7 (F := Ideal) v) e h
    slices_S64x2045_o0_0_S64x2041 slices_S64x2045_o0_4_S64x2041

/-- `k0_pay13`: the width-4 window sums become the width-8 ones (shift 4, 2045 → 2041 positions). -/
theorem holds13 (v : FVec Ideal ⟨2, ![64, 2045]⟩ .f32) (h : Holds v e 4) :
    Holds (k0_pay13 (F := Ideal) v) e 8 :=
  holds_pairAdd (n := 2045) (n' := 2041) (w := 4) (by norm_num) (by norm_num) v e h
    slices_S64x2045_o0_0_S64x2041 slices_S64x2045_o0_4_S64x2041

/-- `k0_pay14`: the width-4 window sums become the width-8 ones (shift 4, 2045 → 2041 positions). -/
theorem holds14 (v : FVec Ideal ⟨2, ![64, 2045]⟩ .f32) (h : Holds v e 4) :
    Holds (k0_pay14 (F := Ideal) v) e 8 :=
  holds_pairAdd (n := 2045) (n' := 2041) (w := 4) (by norm_num) (by norm_num) v e h
    slices_S64x2045_o0_0_S64x2041 slices_S64x2045_o0_4_S64x2041

/-- `k0_pay15`: the width-8 window sums become the width-16 ones (shift 8, 2041 → 2033 positions). -/
theorem holds15 (v : FVec Ideal ⟨2, ![64, 2041]⟩ .f32) (h : Holds v e 8) :
    Holds (k0_pay15 (F := Ideal) v) e 16 :=
  holds_pairAdd (n := 2041) (n' := 2033) (w := 8) (by norm_num) (by norm_num) v e h
    slices_S64x2041_o0_0_S64x2033 slices_S64x2041_o0_8_S64x2033

/-- `k0_pay16`: the width-8 window sums become the width-16 ones (shift 8, 2041 → 2033 positions). -/
theorem holds16 (v : FVec Ideal ⟨2, ![64, 2041]⟩ .f32) (h : Holds v e 8) :
    Holds (k0_pay16 (F := Ideal) v) e 16 :=
  holds_pairAdd (n := 2041) (n' := 2033) (w := 8) (by norm_num) (by norm_num) v e h
    slices_S64x2041_o0_0_S64x2033 slices_S64x2041_o0_8_S64x2033

/-- `k0_pay17`: the width-8 window sums become the width-16 ones (shift 8, 2041 → 2033 positions). -/
theorem holds17 (v : FVec Ideal ⟨2, ![64, 2045]⟩ .f32) (h : Holds (k0_pay13 (F := Ideal) v) e 8) :
    Holds (k0_pay17 (F := Ideal) v) e 16 :=
  holds_pairAdd (n := 2041) (n' := 2033) (w := 8) (by norm_num) (by norm_num) (k0_pay13 (F := Ideal) v) e h
    slices_S64x2041_o0_0_S64x2033 slices_S64x2041_o0_8_S64x2033

/-- `k0_pay18`: the width-8 window sums become the width-16 ones (shift 8, 2041 → 2033 positions). -/
theorem holds18 (v : FVec Ideal ⟨2, ![64, 2045]⟩ .f32) (h : Holds (k0_pay14 (F := Ideal) v) e 8) :
    Holds (k0_pay18 (F := Ideal) v) e 16 :=
  holds_pairAdd (n := 2041) (n' := 2033) (w := 8) (by norm_num) (by norm_num) (k0_pay14 (F := Ideal) v) e h
    slices_S64x2041_o0_0_S64x2033 slices_S64x2041_o0_8_S64x2033

/-- `k0_pay20`: the width-16 window sums become the width-32 ones (shift 16, 2033 → 2017 positions). -/
theorem holds20 (v : FVec Ideal ⟨2, ![64, 2041]⟩ .f32) (h : Holds (k0_pay15 (F := Ideal) v) e 16) :
    Holds (k0_pay20 (F := Ideal) v) e 32 :=
  holds_pairAdd (n := 2033) (n' := 2017) (w := 16) (by norm_num) (by norm_num) (k0_pay15 (F := Ideal) v) e h
    slices_S64x2033_o0_0_S64x2017 slices_S64x2033_o0_16_S64x2017

/-- `k0_pay21`: the width-16 window sums become the width-32 ones (shift 16, 2033 → 2017 positions). -/
theorem holds21 (v : FVec Ideal ⟨2, ![64, 2041]⟩ .f32) (h : Holds (k0_pay16 (F := Ideal) v) e 16) :
    Holds (k0_pay21 (F := Ideal) v) e 32 :=
  holds_pairAdd (n := 2033) (n' := 2017) (w := 16) (by norm_num) (by norm_num) (k0_pay16 (F := Ideal) v) e h
    slices_S64x2033_o0_0_S64x2017 slices_S64x2033_o0_16_S64x2017

/-- `k0_pay22`: the width-16 window sums become the width-32 ones (shift 16, 2033 → 2017 positions). -/
theorem holds22 (v : FVec Ideal ⟨2, ![64, 2045]⟩ .f32) (h : Holds (k0_pay17 (F := Ideal) v) e 16) :
    Holds (k0_pay22 (F := Ideal) v) e 32 :=
  holds_pairAdd (n := 2033) (n' := 2017) (w := 16) (by norm_num) (by norm_num) (k0_pay17 (F := Ideal) v) e h
    slices_S64x2033_o0_0_S64x2017 slices_S64x2033_o0_16_S64x2017

/-- `k0_pay23`: the width-16 window sums become the width-32 ones (shift 16, 2033 → 2017 positions). -/
theorem holds23 (v : FVec Ideal ⟨2, ![64, 2045]⟩ .f32) (h : Holds (k0_pay18 (F := Ideal) v) e 16) :
    Holds (k0_pay23 (F := Ideal) v) e 32 :=
  holds_pairAdd (n := 2033) (n' := 2017) (w := 16) (by norm_num) (by norm_num) (k0_pay18 (F := Ideal) v) e h
    slices_S64x2033_o0_0_S64x2017 slices_S64x2033_o0_16_S64x2017

/-- `k0_pay24`: the width-32 window sums become the width-64 ones (shift 32, 2017 → 1985 positions). -/
theorem holds24 (v : FVec Ideal ⟨2, ![64, 2017]⟩ .f32) (h : Holds v e 32) :
    Holds (k0_pay24 (F := Ideal) v) e 64 :=
  holds_pairAdd (n := 2017) (n' := 1985) (w := 32) (by norm_num) (by norm_num) v e h
    slices_S64x2017_o0_0_S64x1985 slices_S64x2017_o0_32_S64x1985

/-- `k0_pay25`: the width-32 window sums become the width-64 ones (shift 32, 2017 → 1985 positions). -/
theorem holds25 (v : FVec Ideal ⟨2, ![64, 2017]⟩ .f32) (h : Holds v e 32) :
    Holds (k0_pay25 (F := Ideal) v) e 64 :=
  holds_pairAdd (n := 2017) (n' := 1985) (w := 32) (by norm_num) (by norm_num) v e h
    slices_S64x2017_o0_0_S64x1985 slices_S64x2017_o0_32_S64x1985

/-- `k0_pay26`: the width-32 window sums become the width-64 ones (shift 32, 2017 → 1985 positions). -/
theorem holds26 (v : FVec Ideal ⟨2, ![64, 2017]⟩ .f32) (h : Holds v e 32) :
    Holds (k0_pay26 (F := Ideal) v) e 64 :=
  holds_pairAdd (n := 2017) (n' := 1985) (w := 32) (by norm_num) (by norm_num) v e h
    slices_S64x2017_o0_0_S64x1985 slices_S64x2017_o0_32_S64x1985

/-- `k0_pay27`: the width-32 window sums become the width-64 ones (shift 32, 2017 → 1985 positions). -/
theorem holds27 (v : FVec Ideal ⟨2, ![64, 2017]⟩ .f32) (h : Holds v e 32) :
    Holds (k0_pay27 (F := Ideal) v) e 64 :=
  holds_pairAdd (n := 2017) (n' := 1985) (w := 32) (by norm_num) (by norm_num) v e h
    slices_S64x2017_o0_0_S64x1985 slices_S64x2017_o0_32_S64x1985

end Cert.KernelIdeal.BodyValue

end
-- ==== Proof.LibRowwise.lean ====
/-
  Matrices read row by row, at the exact instance and for any extents.

  Two layout operations in their column forms — a vector made a one-column matrix (`[a] → [a, 1]`, what a sum that keeps
  its axis prints) and a one-column matrix repeated along its rows (`[a, 1] → [a, b]`) — read at an index written by
  coordinates, beside the library's row forms, so that "a per-row quantity broadcast over the row" and "a per-column
  quantity broadcast down the column" are each one rewrite.

  And the reductions of a matrix over its LAST axis read at a row: a sum is the sum over the row's entries, a maximum
  the fold of `max` over them from the starting value, on the vector unit (`multiReduction`) and on the host
  (`Host.reduceAdd`, `Host.reduce`) alike. The reduced index with a coordinate put back on the dropped axis is
  (row, coordinate): `lift_lastAxis`.
-/
import Idealize.ShloMosaic.Lib.ValueLayout
import Idealize.ShloMosaic.Lib.IdealHost
import Idealize.ShloMosaic.PureOps.Ideal.Laws

noncomputable section

namespace Cert.LibRowwise

open Idealize.ShloMosaic Idealize.ShloMosaic.ValueIdx
open scoped BigOperators

variable {α : Type}

/-! ## Column layouts -/

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A per-row quantity `x : [a]`, kept as a column and repeated along the rows, reads `x p` everywhere in row `p`. -/
theorem perRow_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (p : Fin a) (c : Fin b) :
    broadcastTo ⟨2, ![a, b]⟩ (shapeCast ⟨2, ![a, 1]⟩ x h₁) h₂ (ix2 p c) = x (ix1 p) :=
  (broadcastTo_a1_ab_apply _ h₂ p c).trans (shapeCast_a_a1_apply x h₁ p 0)

/-- A per-column quantity `x : [b]`, laid as one row and repeated down the rows, reads `x c` everywhere in column `c`. -/
theorem perColumn_apply {a b : ℕ} (x : (⟨1, ![b]⟩ : Shape).Idx → α) (h₁ : (⟨1, ![b]⟩ : Shape).ShapeCasts ⟨2, ![1, b]⟩)
    (h₂ : (⟨2, ![1, b]⟩ : Shape).Broadcasts ⟨2, ![a, b]⟩) (p : Fin a) (c : Fin b) :
    broadcastTo ⟨2, ![a, b]⟩ (shapeCast ⟨2, ![1, b]⟩ x h₁) h₂ (ix2 p c) = x (ix1 c) :=
  (broadcastTo_1b_ab_apply _ h₂ p c).trans (shapeCast_a_1a_apply x h₁ 0 c)

/-! ## Reductions over the last axis, at a row -/

/-- Row `p` with the coordinate `k` put back on the dropped last axis is the matrix index `(p, k)`. -/
theorem lift_lastAxis {a b : ℕ} (h : (⟨2, ![a, b]⟩ : Shape).Reduces [1] ⟨1, ![a]⟩) (p : Fin a) (k : Fin b) :
    h.lift (ix1 p) k = ix2 p k := by
  funext c
  apply Fin.ext
  show h.liftVal (ix1 p) k.val c = _
  unfold Shape.Reduces.liftVal
  match c with
  | ⟨0, _⟩ => exact (dif_neg (show ¬((0 : ℕ) = 1) by omega)).trans (dif_pos (show (0 : ℕ) < 1 by omega))
  | ⟨1, _⟩ => exact dif_pos (show (1 : ℕ) = 1 from rfl)

/-- The vector unit's sum of a matrix over its last axis, at row `p`: the sum of the row's entries. -/
theorem rowSum_apply {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_lastAxis h p k))

/-- The vector unit's maximum of a matrix over its last axis, at row `p`: the fold of `max` over the row's entries,
    from the accumulator's value. -/
theorem rowMax_apply {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (congrArg (fun f => (Finset.univ : Finset (Fin b)).fold max (Ideal.ofBits φ acc) f)
      (funext fun k => congrArg src (lift_lastAxis h p k)))

/-- The host's sum of a matrix over its last axis, at row `p`: the initial value plus the sum of the row's entries. -/
theorem hostRowSum_apply {φ : FTy} {a b : ℕ} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduceAdd x init h' hu (ix1 p) = init (Shape.Idx.first hu) + ∑ k : Fin b, x (ix2 p k) :=
  (hostReduceAdd_apply x init h' hu (ix1 p)).trans
    ((Ideal.hostReduceAdd_single h' h x _ (ix1 p)).trans
      (congrArg (init (Shape.Idx.first hu) + ·) (Finset.sum_congr rfl fun k _ => congrArg x (lift_lastAxis h p k))))

/-- The host's maximum of a matrix over its last axis, at row `p`: the fold of `max` over the row's entries, from the
    initial value. -/
theorem hostRowMax_apply {φ : FTy} {a b : ℕ} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (FloatOps.maximumf (F := Ideal) (φ := φ)) x init h' hu (ix1 p)
      = (Finset.univ : Finset (Fin b)).fold max (init (Shape.Idx.first hu)) (fun k => x (ix2 p k)) :=
  (Host.reduce_eq_fold_single (FloatOps.maximumf (F := Ideal) (φ := φ)) x init h' h hu (ix1 p)).trans
    (congrArg (fun f => (Finset.univ : Finset (Fin b)).fold max (init (Shape.Idx.first hu)) f)
      (funext fun k => congrArg x (lift_lastAxis h p k)))

end Cert.LibRowwise

end
-- ==== Proof.LibEntropyProfile.lean ====
/-
  The windowed negative entropy of a row, and its absolute difference against a second row summed along the row,
  in the vector unit's spelling, for any extents.

  With S and T the matrices of window sums of e^{x} and x · e^{x} (LibWindowPyramid), the entry T / S − log S is the
  negative entropy of the softmax of the window (EntropySpec); for real entries S is a positive real, so the quotient
  and the logarithm are the real ones. One scale's contribution to a row's accumulator is the row sum of
  |profile of x − profile of y| times that scale's weight.
-/
import proofs.«110521_j60129542144534_2_alg».proof.Proof.EntropySpec
import proofs.«110521_j60129542144534_2_alg».proof.Proof.LibWindowPyramid
import proofs.«110521_j60129542144534_2_alg».proof.Proof.LibRowwise
import proofs.«110521_j60129542144534_2_alg».proof.Proof.LibFiniteSums

noncomputable section

namespace Cert.LibEntropyProfile

open Idealize.ShloMosaic Idealize.ShloMosaic.ValueIdx Cert.LibWindowPyramid
open scoped BigOperators

variable {F : FTy → Type} [FloatOps F]

/-! ## T / S − log S, entry by entry -/

/-- The quotient of `T` by `S` minus the logarithm of `S`, entry by entry. -/
def profile {R n : ℕ} (S T : FVec F ⟨2, ![R, n]⟩ .f32) : FVec F ⟨2, ![R, n]⟩ .f32 :=
  subf (divf T S) (log S)

/-- Where `S` holds a positive real `s` and `T` a real `t`, the entry is the real `t / s − log s`. -/
theorem profile_apply_real {R n : ℕ} (S T : FVec Ideal ⟨2, ![R, n]⟩ .f32) (r : Fin R) (p : Fin n) (s t : ℝ)
    (hs : 0 < s) (hS : S (ix2 r p) = ((s : ℝ) : EReal)) (hT : T (ix2 r p) = ((t : ℝ) : EReal)) :
    profile (F := Ideal) S T (ix2 r p) = ((t / s - Real.log s : ℝ) : EReal) := by
  show Ideal.div (T (ix2 r p)) (S (ix2 r p)) - Ideal.log (S (ix2 r p)) = _
  rw [hS, hT, Ideal.div_coe hs.ne', Ideal.log_coe, if_neg (not_le.mpr hs), ← EReal.coe_mul, ← EReal.coe_sub,
    mul_one_div]

/-- Where `S` and `T` hold the width-`k` window sums of `e^{f}` and `f · e^{f}` for real sequences `f r`, the
    entry at `(r, p)` is the negative entropy of the softmax of the window `f r p, …, f r (p + k − 1)`. -/
theorem profile_windows {R n k : ℕ} (hk : 0 < k) (S T : FVec Ideal ⟨2, ![R, n]⟩ .f32) (f : Fin R → ℕ → ℝ)
    (hS : Holds S (fun r j => ((Real.exp (f r j) : ℝ) : EReal)) k)
    (hT : Holds T (fun r j => ((f r j * Real.exp (f r j) : ℝ) : EReal)) k) (r : Fin R) (p : Fin n) :
    profile (F := Ideal) S T (ix2 r p)
      = ((Cert.Entropy.softEnt (fun i : Fin k => f r (p.val + i.val)) : ℝ) : EReal) := by
  have hs := hS r p
  have ht := hT r p
  rw [winSum_eq_sum_fin, Cert.LibFiniteSums.coe_sum] at hs ht
  have hpos : 0 < ∑ i : Fin k, Real.exp (f r (p.val + i.val)) :=
    Finset.sum_pos (fun i _ => Real.exp_pos _) ⟨⟨0, hk⟩, Finset.mem_univ _⟩
  exact profile_apply_real S T r p _ _ hpos hs ht

/-! ## One scale's contribution to the rows' accumulator -/

/-- The accumulator column plus the row sums of `|px − py|` times the weight `c`. -/
def scaleStep {R n : ℕ} (acc : FVec F ⟨2, ![R, 1]⟩ .f32) (px py : FVec F ⟨2, ![R, n]⟩ .f32) (c : F .f32)
    (hred : (⟨2, ![R, n]⟩ : Shape).Reduces [1] ⟨1, ![R]⟩) (hcast : (⟨1, ![R]⟩ : Shape).ShapeCasts ⟨2, ![R, 1]⟩) :
    FVec F ⟨2, ![R, 1]⟩ .f32 :=
  addf acc (mulf (shapeCast ⟨2, ![R, 1]⟩
    (multiReduction .add [1] ⟨1, ![R]⟩ (absf (subf px py)) 0x00000000#32 hred (.inl rfl) rfl) hcast)
    (broadcast ⟨2, ![R, 1]⟩ c))

/-- On the extended reals `max z (−z)` of a real `z` is the real `|z|`. -/
theorem max_neg_coe (z : ℝ) : max ((z : ℝ) : EReal) (-((z : ℝ) : EReal)) = ((|z| : ℝ) : EReal) := by
  rw [← EReal.coe_neg, ← EReal.coe_strictMono.monotone.map_max, abs_eq_max_neg]

/-- For real entries the step reads, at row `r`, the real `a + (Σ_p |dx p − dy p|) · c`. -/
theorem scaleStep_apply_real {R n : ℕ} (acc : FVec Ideal ⟨2, ![R, 1]⟩ .f32) (px py : FVec Ideal ⟨2, ![R, n]⟩ .f32)
    (c : Ideal .f32) (hred : (⟨2, ![R, n]⟩ : Shape).Reduces [1] ⟨1, ![R]⟩)
    (hcast : (⟨1, ![R]⟩ : Shape).ShapeCasts ⟨2, ![R, 1]⟩) (r : Fin R) (a cr : ℝ) (dx dy : Fin n → ℝ)
    (hacc : acc (ix2 r (0 : Fin 1)) = ((a : ℝ) : EReal)) (hc : c = ((cr : ℝ) : EReal))
    (hx : ∀ p : Fin n, px (ix2 r p) = ((dx p : ℝ) : EReal)) (hy : ∀ p : Fin n, py (ix2 r p) = ((dy p : ℝ) : EReal)) :
    scaleStep (F := Ideal) acc px py c hred hcast (ix2 r (0 : Fin 1))
      = ((a + (∑ p : Fin n, |dx p - dy p|) * cr : ℝ) : EReal) := by
  have hstep : scaleStep (F := Ideal) acc px py c hred hcast (ix2 r (0 : Fin 1))
      = acc (ix2 r (0 : Fin 1)) + (∑ p : Fin n, (absf (subf px py) : FVec Ideal ⟨2, ![R, n]⟩ .f32) (ix2 r p)) * c :=
    congrArg (fun z => acc (ix2 r (0 : Fin 1)) + z * c)
      ((Cert.LibRowwise.shapeCast_a_a1_apply _ hcast r 0).trans (Cert.LibRowwise.rowSum_apply _ _ hred _ _ r))
  rw [hstep, hacc, hc]
  have hterm : ∀ p : Fin n, (absf (subf px py) : FVec Ideal ⟨2, ![R, n]⟩ .f32) (ix2 r p) = ((|dx p - dy p| : ℝ) : EReal) := by
    intro p
    show max (px (ix2 r p) - py (ix2 r p)) (-(px (ix2 r p) - py (ix2 r p))) = _
    rw [hx p, hy p, ← EReal.coe_sub, max_neg_coe]
  rw [Finset.sum_congr rfl fun p _ => hterm p, Cert.LibFiniteSums.coe_sum, ← EReal.coe_mul, ← EReal.coe_add]

end Cert.LibEntropyProfile

end
-- ==== Proof.KernelAccum.lean ====
/-
  The kernel body's running accumulator, row by row.

  For a block whose rows are real sequences f r (the input) and g r (the target), the body's matrices of window
  sums hold, at width k, the sums of e^{f} and f · e^{f} (KernelPyramid); their profile T / S − log S is the negative
  entropy of the softmax of each window (LibEntropyProfile); and each scale adds to the row's accumulator the row sum
  of |profile of f − profile of g| times the scale's weight, the named reciprocal 1 / (128 · W).
-/
import proofs.«110521_j60129542144534_2_alg».proof.Proof.KernelPyramid
import proofs.«110521_j60129542144534_2_alg».proof.Proof.LibEntropyProfile
import proofs.«110521_j60129542144534_2_alg».proof.Proof.LossSpec
import Idealize.ShloMosaic.PureOps.IdealRules

noncomputable section

namespace Cert.KernelIdeal.BodyValue

open Idealize.ShloMosaic Idealize.ShloMosaic.ValueIdx Cert.KernelIdeal Cert.KernelIdeal.Gen
open Cert.LibWindowPyramid Cert.LibEntropyProfile Cert.Entropy
open scoped BigOperators

/-- The sequence e^{f r j}, inside the extended reals. -/
def expSeq (f : Fin 64 → ℕ → ℝ) : Fin 64 → ℕ → EReal := fun r j => ((Real.exp (f r j) : ℝ) : EReal)
/-- The sequence f r j · e^{f r j}, inside the extended reals. -/
def mulExpSeq (f : Fin 64 → ℕ → ℝ) : Fin 64 → ℕ → EReal := fun r j => ((f r j * Real.exp (f r j) : ℝ) : EReal)

/-! ## The two base matrices of a block with real rows -/

section Base
variable (x : Vec Ideal S64x2048 .f32) (f : Fin 64 → ℕ → ℝ)
  (hx : ∀ (r : Fin 64) (j : Fin 2048), x (ix2 r j) = ((f r j.val : ℝ) : EReal))
include hx

/-- The input block's exponentials are the width-1 window sums of e^{f}. -/
theorem base_exp_x : Holds (k0_pay4 (F := Ideal) x) (expSeq f) 1 :=
  holds_one _ _ fun r j => by
    show Ideal.exp (shapeCast S64x2048 x shapeCasts_S64x2048_S64x2048 (ix2 r j)) = _
    rw [shapeCast_self, hx, Ideal.exp_coe]; rfl

/-- The input block's x · e^{x} are the width-1 window sums of f · e^{f}. -/
theorem base_mulexp_x : Holds (mulf (k0_pay2 (F := Ideal) x) (k0_pay4 (F := Ideal) x)) (mulExpSeq f) 1 :=
  holds_one _ _ fun r j => by
    show shapeCast S64x2048 x shapeCasts_S64x2048_S64x2048 (ix2 r j)
      * Ideal.exp (shapeCast S64x2048 x shapeCasts_S64x2048_S64x2048 (ix2 r j)) = _
    rw [shapeCast_self, hx, Ideal.exp_coe, ← EReal.coe_mul]; rfl

/-- The target block's exponentials (the second load's chain). -/
theorem base_exp_y : Holds (k0_pay5 (F := Ideal) x) (expSeq f) 1 :=
  holds_one _ _ fun r j => by
    show Ideal.exp (shapeCast S64x2048 x shapeCasts_S64x2048_S64x2048 (ix2 r j)) = _
    rw [shapeCast_self, hx, Ideal.exp_coe]; rfl

/-- The target block's y · e^{y}. -/
theorem base_mulexp_y : Holds (mulf (k0_pay3 (F := Ideal) x) (k0_pay5 (F := Ideal) x)) (mulExpSeq f) 1 :=
  holds_one _ _ fun r j => by
    show shapeCast S64x2048 x shapeCasts_S64x2048_S64x2048 (ix2 r j)
      * Ideal.exp (shapeCast S64x2048 x shapeCasts_S64x2048_S64x2048 (ix2 r j)) = _
    rw [shapeCast_self, hx, Ideal.exp_coe, ← EReal.coe_mul]; rfl

end Base

/-! ## The named weights -/

theorem weight4 : Named.named (F := Ideal) κ "inv_261760" (φ := .f32) 0x36803012#32 = ((1 / 261760 : ℝ) : EReal) :=
  IdealRules.named_const.ideal_named_scalar _ _ _ _ rfl
theorem weight8 : Named.named (F := Ideal) κ "inv_261248" (φ := .f32) 0x36807062#32 = ((1 / 261248 : ℝ) : EReal) :=
  IdealRules.named_const.ideal_named_scalar _ _ _ _ rfl
theorem weight16 : Named.named (F := Ideal) κ "inv_260224" (φ := .f32) 0x3680F1C5#32 = ((1 / 260224 : ℝ) : EReal) :=
  IdealRules.named_const.ideal_named_scalar _ _ _ _ rfl
theorem weight32 : Named.named (F := Ideal) κ "inv_258176" (φ := .f32) 0x3681F7A0#32 = ((1 / 258176 : ℝ) : EReal) :=
  IdealRules.named_const.ideal_named_scalar _ _ _ _ rfl
theorem weight64 : Named.named (F := Ideal) κ "inv_254080" (φ := .f32) 0x36840FFE#32 = ((1 / 254080 : ℝ) : EReal) :=
  IdealRules.named_const.ideal_named_scalar _ _ _ _ rfl
theorem weight128 : Named.named (F := Ideal) κ "inv_245888" (φ := .f32) 0x36887657#32 = ((1 / 245888 : ℝ) : EReal) :=
  IdealRules.named_const.ideal_named_scalar _ _ _ _ rfl

/-! ## The accumulator after each part of the body, at a row -/

variable (f g : Fin 64 → ℕ → ℝ)

/-- After the first scale (width 4): 0 plus the row term times 1 / 261760. -/
theorem acc10 (x y : Vec Ideal S64x2048 .f32)
    (hS : Holds (k0_pay6 (F := Ideal) x) (expSeq f) 4) (hT : Holds (k0_pay7 (F := Ideal) x) (mulExpSeq f) 4)
    (hS' : Holds (k0_pay8 (F := Ideal) y) (expSeq g) 4) (hT' : Holds (k0_pay9 (F := Ideal) y) (mulExpSeq g) 4) (r : Fin 64) :
    k0_pay10 (F := Ideal) x y (ix2 r (0 : Fin 1))
      = ((0 + rowDiff 4 2045 (f r) (g r) * (1 / 261760) : ℝ) : EReal) :=
  scaleStep_apply_real (broadcast S64x1 (Scalar.ofBits (F := Ideal) .f32 0x00000000#32))
    (profile (k0_pay6 (F := Ideal) x) (k0_pay7 (F := Ideal) x)) (profile (k0_pay8 (F := Ideal) y) (k0_pay9 (F := Ideal) y)) _
    reduces_S64x2045_S64 shapeCasts_S64_S64x1 r 0 (1 / 261760)
    (fun p => softEnt (fun i : Fin 4 => f r (p.val + i.val))) (fun p => softEnt (fun i : Fin 4 => g r (p.val + i.val)))
    (by show Ideal.ofBits .f32 0x00000000#32 = _; rw [Ideal.ofBits_zero_f32, EReal.coe_zero]) weight4
    (fun p => profile_windows (by norm_num) _ _ f hS hT r p) (fun p => profile_windows (by norm_num) _ _ g hS' hT' r p)

/-- After the second and third scales (widths 8 and 16). -/
theorem acc19 (v29 v32 : FVec Ideal ⟨2, ![64, 2045]⟩ .f32) (v45 : FVec Ideal ⟨2, ![64, 1]⟩ .f32)
    (v48 v51 : FVec Ideal ⟨2, ![64, 2041]⟩ .f32) (r : Fin 64) (a : ℝ)
    (h45 : v45 (ix2 r (0 : Fin 1)) = ((a : ℝ) : EReal))
    (h48 : Holds v48 (expSeq f) 8) (h51 : Holds v51 (mulExpSeq f) 8)
    (h29 : Holds v29 (expSeq g) 4) (h32 : Holds v32 (mulExpSeq g) 4) :
    k0_pay19 (F := Ideal) v29 v32 v45 v48 v51 (ix2 r (0 : Fin 1))
      = (((a + rowDiff 8 2041 (f r) (g r) * (1 / 261248)) + rowDiff 16 2033 (f r) (g r) * (1 / 260224) : ℝ) : EReal) :=
  scaleStep_apply_real _ (profile (k0_pay15 (F := Ideal) v48) (k0_pay16 (F := Ideal) v51))
    (profile (k0_pay17 (F := Ideal) v29) (k0_pay18 (F := Ideal) v32)) _ reduces_S64x2033_S64 shapeCasts_S64_S64x1 r
    (a + rowDiff 8 2041 (f r) (g r) * (1 / 261248)) (1 / 260224)
    (fun p => softEnt (fun i : Fin 16 => f r (p.val + i.val))) (fun p => softEnt (fun i : Fin 16 => g r (p.val + i.val)))
    (scaleStep_apply_real v45 (profile v48 v51) (profile (k0_pay13 (F := Ideal) v29) (k0_pay14 (F := Ideal) v32)) _
      reduces_S64x2041_S64 shapeCasts_S64_S64x1 r a (1 / 261248)
      (fun p => softEnt (fun i : Fin 8 => f r (p.val + i.val))) (fun p => softEnt (fun i : Fin 8 => g r (p.val + i.val)))
      h45 weight8 (fun p => profile_windows (by norm_num) _ _ f h48 h51 r p)
      (fun p => profile_windows (by norm_num) _ _ g (holds13 _ v29 h29) (holds14 _ v32 h32) r p))
    weight16 (fun p => profile_windows (by norm_num) _ _ f (holds15 _ v48 h48) (holds16 _ v51 h51) r p)
    (fun p => profile_windows (by norm_num) _ _ g (holds17 _ v29 (holds13 _ v29 h29)) (holds18 _ v32 (holds14 _ v32 h32)) r p)

/-- After the fourth and fifth scales (widths 32 and 64). -/
theorem acc28 (v95 : FVec Ideal ⟨2, ![64, 1]⟩ .f32) (v98 v101 v104 v107 : FVec Ideal ⟨2, ![64, 2017]⟩ .f32) (r : Fin 64) (a : ℝ)
    (h95 : v95 (ix2 r (0 : Fin 1)) = ((a : ℝ) : EReal))
    (h98 : Holds v98 (expSeq f) 32) (h101 : Holds v101 (mulExpSeq f) 32)
    (h104 : Holds v104 (expSeq g) 32) (h107 : Holds v107 (mulExpSeq g) 32) :
    k0_pay28 (F := Ideal) v95 v98 v101 v104 v107 (ix2 r (0 : Fin 1))
      = (((a + rowDiff 32 2017 (f r) (g r) * (1 / 258176)) + rowDiff 64 1985 (f r) (g r) * (1 / 254080) : ℝ) : EReal) :=
  scaleStep_apply_real _ (profile (k0_pay24 (F := Ideal) v98) (k0_pay25 (F := Ideal) v101))
    (profile (k0_pay26 (F := Ideal) v104) (k0_pay27 (F := Ideal) v107)) _ reduces_S64x1985_S64 shapeCasts_S64_S64x1 r
    (a + rowDiff 32 2017 (f r) (g r) * (1 / 258176)) (1 / 254080)
    (fun p => softEnt (fun i : Fin 64 => f r (p.val + i.val))) (fun p => softEnt (fun i : Fin 64 => g r (p.val + i.val)))
    (scaleStep_apply_real v95 (profile v98 v101) (profile v104 v107) _
      reduces_S64x2017_S64 shapeCasts_S64_S64x1 r a (1 / 258176)
      (fun p => softEnt (fun i : Fin 32 => f r (p.val + i.val))) (fun p => softEnt (fun i : Fin 32 => g r (p.val + i.val)))
      h95 weight32 (fun p => profile_windows (by norm_num) _ _ f h98 h101 r p)
      (fun p => profile_windows (by norm_num) _ _ g h104 h107 r p))
    weight64 (fun p => profile_windows (by norm_num) _ _ f (holds24 _ v98 h98) (holds25 _ v101 h101) r p)
    (fun p => profile_windows (by norm_num) _ _ g (holds26 _ v104 h104) (holds27 _ v107 h107) r p)

/-- The profile at width 128 of the input block, from the width-32 matrices (two more doubling steps). -/
theorem prof29 (v98 v101 : FVec Ideal ⟨2, ![64, 2017]⟩ .f32) (h98 : Holds v98 (expSeq f) 32) (h101 : Holds v101 (mulExpSeq f) 32)
    (r : Fin 64) (p : Fin 1921) :
    k0_pay29 (F := Ideal) v98 v101 (ix2 r p) = ((softEnt (fun i : Fin 128 => f r (p.val + i.val)) : ℝ) : EReal) :=
  profile_windows (by norm_num) _ _ f
    (holds_pairAdd (n := 1985) (n' := 1921) (w := 64) (by norm_num) (by norm_num) _ _ (holds24 _ v98 h98)
      slices_S64x1985_o0_0_S64x1921 slices_S64x1985_o0_64_S64x1921)
    (holds_pairAdd (n := 1985) (n' := 1921) (w := 64) (by norm_num) (by norm_num) _ _ (holds25 _ v101 h101)
      slices_S64x1985_o0_0_S64x1921 slices_S64x1985_o0_64_S64x1921) r p

/-- The same for the target block. -/
theorem prof30 (v104 v107 : FVec Ideal ⟨2, ![64, 2017]⟩ .f32) (h104 : Holds v104 (expSeq g) 32)
    (h107 : Holds v107 (mulExpSeq g) 32) (r : Fin 64) (p : Fin 1921) :
    k0_pay30 (F := Ideal) v104 v107 (ix2 r p) = ((softEnt (fun i : Fin 128 => g r (p.val + i.val)) : ℝ) : EReal) :=
  profile_windows (by norm_num) _ _ g
    (holds_pairAdd (n := 1985) (n' := 1921) (w := 64) (by norm_num) (by norm_num) _ _ (holds26 _ v104 h104)
      slices_S64x1985_o0_0_S64x1921 slices_S64x1985_o0_64_S64x1921)
    (holds_pairAdd (n := 1985) (n' := 1921) (w := 64) (by norm_num) (by norm_num) _ _ (holds27 _ v107 h107)
      slices_S64x1985_o0_0_S64x1921 slices_S64x1985_o0_64_S64x1921) r p

end Cert.KernelIdeal.BodyValue

end
-- ==== Proof.KernelBlock.lean ====
/-
  What one grid point leaves at entry (0, 0) of its output block.

  The body's last lines sum the column of row accumulators over the 64 rows and store that total at entry (0, 0) of
  the block (zero elsewhere: the store is masked by "row 0 and column 0"). For a block whose rows are real sequences
  the total is the real Σ_r rowAcc (f r) (g r) of LossSpec.
-/
import proofs.«110521_j60129542144534_2_alg».proof.Proof.KernelAccum
import proofs.«110521_j60129542144534_2_alg».proof.Proof.LibAxisSums
import proofs.«110521_j60129542144534_2_alg».proof.Proof.Gen.KernelIdeal.Frame

noncomputable section

namespace Cert.KernelIdeal.BodyValue

open Idealize.ShloMosaic Idealize.ShloMosaic.ValueIdx Cert.KernelIdeal Cert.KernelIdeal.Gen
open Cert.LibWindowPyramid Cert.LibEntropyProfile Cert.Entropy
open scoped BigOperators

/-- The store's mask is on at entry (0, 0): both coordinates are 0. -/
theorem mask_origin :
    (andi (cmpi .eq (iota .tc S8x128 32 [0] iota_S8x128_d0_w32) (broadcast S8x128 0#32))
      (cmpi .eq (iota .tc S8x128 32 [1] iota_S8x128_d1_w32) (broadcast S8x128 0#32)) : IVec S8x128 1)
      (ix2 (0 : Fin 8) (0 : Fin 128)) = 1#1 := by
  show IntOp.andi _ _ = 1#1
  rw [show (cmpi .eq (iota .tc S8x128 32 [0] iota_S8x128_d0_w32) (broadcast S8x128 0#32) : IVec S8x128 1) (ix2 (0 : Fin 8) (0 : Fin 128))
      = IntOp.cmpi .eq (iota .tc S8x128 32 [0] iota_S8x128_d0_w32 (ix2 (0 : Fin 8) (0 : Fin 128))) 0#32 from rfl,
    show (cmpi .eq (iota .tc S8x128 32 [1] iota_S8x128_d1_w32) (broadcast S8x128 0#32) : IVec S8x128 1) (ix2 (0 : Fin 8) (0 : Fin 128))
      = IntOp.cmpi .eq (iota .tc S8x128 32 [1] iota_S8x128_d1_w32 (ix2 (0 : Fin 8) (0 : Fin 128))) 0#32 from rfl,
    iota_single_apply, iota_single_apply]
  decide

/-- THE BODY'S LAST STEP: entry (0, 0) of the stored block is the sum over the rows of the final accumulator. -/
theorem tail1 (v145 : FVec Ideal ⟨2, ![64, 1]⟩ .f32) (v160 v163 : FVec Ideal ⟨2, ![64, 1921]⟩ .f32) (accs : Fin 64 → ℝ)
    (h : ∀ r : Fin 64, scaleStep (F := Ideal) v145 v160 v163 (Named.named κ "inv_245888" 0x36887657#32)
      reduces_S64x1921_S64 shapeCasts_S64_S64x1 (ix2 r (0 : Fin 1)) = ((accs r : ℝ) : EReal)) :
    k0_pay1 (F := Ideal) v145 v160 v163 (ix2 (0 : Fin 8) (0 : Fin 128)) = ((∑ r, accs r : ℝ) : EReal) := by
  unfold k0_pay1
  dsimp only
  rw [select_apply, mask_origin, select_one,
    broadcastTo_apply _ broadcasts_S1x1_S8x128 (ix2 (0 : Fin 8) (0 : Fin 128)) (ix2 (0 : Fin 1) (0 : Fin 1))
      (fun a => match a with
        | ⟨0, _⟩ => (if_pos rfl).symm
        | ⟨1, _⟩ => (if_pos rfl).symm),
    shapeCast_self]
  refine (Cert.LibRowwise.shapeCast_a_a1_apply _ shapeCasts_S1_S1x1 (0 : Fin 1) (0 : Fin 1)).trans ?_
  refine (Cert.LibAxisSums.sum_axis0_of2 _ _ reduces_S64x1_S1 _ _ (0 : Fin 1)).trans ?_
  rw [← Cert.LibFiniteSums.coe_sum]
  exact Finset.sum_congr rfl fun r _ => h r

theorem hz : (![0, 0] : Fin 2 → Nat) = fun _ => 0 := funext fun a => by fin_cases a <;> rfl

/-- ENTRY (0, 0) OF A POINT'S OUTPUT BLOCK, for input and target blocks with real rows `f r`, `g r`: the sum over the 64
    rows of the row's weighted six-scale accumulation. -/
theorem body_value (x y : Vec Ideal S64x2048 .f32) (f g : Fin 64 → ℕ → ℝ)
    (hx : ∀ (r : Fin 64) (j : Fin 2048), x (ix2 r j) = ((f r j.val : ℝ) : EReal))
    (hy : ∀ (r : Fin 64) (j : Fin 2048), y (ix2 r j) = ((g r j.val : ℝ) : EReal)) :
    out0_2 (F := Ideal) x y (ix2 (0 : Fin 8) (0 : Fin 128)) = ((∑ r : Fin 64, rowAcc (f r) (g r) : ℝ) : EReal) := by
  have hSx4 := holds6 (expSeq f) x (base_exp_x x f hx)
  have hTx4 := holds7 (mulExpSeq f) x (base_mulexp_x x f hx)
  have hSy4 := holds8 (expSeq g) y (base_exp_y y g hy)
  have hTy4 := holds9 (mulExpSeq g) y (base_mulexp_y y g hy)
  have hSx8 := holds11 (expSeq f) x hSx4
  have hTx8 := holds12 (mulExpSeq f) x hTx4
  have hSx32 := holds20 (expSeq f) _ (holds15 (expSeq f) _ hSx8)
  have hTx32 := holds21 (mulExpSeq f) _ (holds16 (mulExpSeq f) _ hTx8)
  have hSy32 := holds22 (expSeq g) _ (holds17 (expSeq g) _ (holds13 (expSeq g) _ hSy4))
  have hTy32 := holds23 (mulExpSeq g) _ (holds18 (mulExpSeq g) _ (holds14 (mulExpSeq g) _ hTy4))
  unfold out0_2
  rw [View.canon_unit_zero hz]
  simp only [View.ld_unit_zero (S := S64x2048) hz]
  refine tail1 _ _ _ (fun r => rowAcc (f r) (g r)) fun r => ?_
  exact scaleStep_apply_real _ _ _ _ reduces_S64x1921_S64 shapeCasts_S64_S64x1 r _ (1 / 245888)
    (fun p => softEnt (fun i : Fin 128 => f r (p.val + i.val))) (fun p => softEnt (fun i : Fin 128 => g r (p.val + i.val)))
    (acc28 f g _ _ _ _ _ r _
      (acc19 f g _ _ _ _ _ r _ (acc10 f g x y hSx4 hTx4 hSy4 hTy4 r) hSx8 hTx8 hSy4 hTy4)
      hSx32 hTx32 hSy32 hTy32)
    weight128 (fun p => prof29 f _ _ hSx32 hTx32 r p) (fun p => prof30 g _ _ hSy32 hTy32 r p)

end Cert.KernelIdeal.BodyValue

end
-- ==== Proof.KernelResult.lean ====
/-
  The kernel's result as a real number.

  The run leaves, as the result, (entry (0, 0) of block 0) + (entry (0, 0) of block 1) of the region's output
  (KernelRunValue); each is the sum over the block's 64 rows of the row's weighted six-scale accumulation (KernelBlock),
  block t's row r being row 64·t + r of the flattened arguments, i.e. the pair (g, h) = ((64t + r) / 2, (64t + r) % 2);
  and the two blocks together are the six scale terms added up (LossAlgebra).
-/
import proofs.«110521_j60129542144534_2_alg».proof.Proof.KernelRunValue
import proofs.«110521_j60129542144534_2_alg».proof.Proof.KernelBlock
import proofs.«110521_j60129542144534_2_alg».proof.Proof.LossAlgebra

noncomputable section

namespace Cert.KernelIdeal.RunValue

open Idealize.ShloMosaic Idealize.ShloMosaic.ValueIdx Idealize.SL.Sem Cert.KernelIdeal Cert.KernelIdeal.Gen Cert.Entropy

variable (m : (ℓ : Loc nD τ sig) → Buf (Elt Ideal) ℓ) (c : Dev nD) (X Y : Fin 64 → Fin 2 → ℕ → ℝ)
  (hX : ∀ (g : Fin 64) (q : Fin 2) (j : Fin 2048),
    m ((c.tc : Thread nD τ).loc main_arg0) (ix3 g q j) = ((X g q j.val : ℝ) : EReal))
  (hY : ∀ (g : Fin 64) (q : Fin 2) (j : Fin 2048),
    m ((c.tc : Thread nD τ).loc main_arg1) (ix3 g q j) = ((Y g q j.val : ℝ) : EReal))
include hX hY

/-- Entry (0, 0) of block `t`: the sum of the rows 64·t … 64·t + 63 of the row accumulations. -/
theorem blockOut_value (t : Fin cfg0.N) :
    blockOut (F := Ideal) m c t = ((blockSum X Y t.val (point_lt t) : ℝ) : EReal) :=
  Cert.KernelIdeal.BodyValue.body_value (iblk m c 0 t) (iblk m c 1 t)
    (fun r => rowOf X ⟨64 * t.val + r.val, by have := point_lt t; have := r.isLt; omega⟩)
    (fun r => rowOf Y ⟨64 * t.val + r.val, by have := point_lt t; have := r.isLt; omega⟩)
    (fun r j => (iblk0_apply m c t r j).trans (hX _ _ j))
    (fun r j => (iblk1_apply m c t r j).trans (hY _ _ j))

/-- THE KERNEL'S RESULT: the two blocks' entries added are the six scale terms added up. -/
theorem result_value :
    (FloatOps.addf (F := Ideal) (φ := .f32) (blockOut (F := Ideal) m c t0_0) (blockOut (F := Ideal) m c t0_1) : Ideal .f32)
      = ((scaleMean 4 2045 261760 X Y + scaleMean 8 2041 261248 X Y + scaleMean 16 2033 260224 X Y
          + scaleMean 32 2017 258176 X Y + scaleMean 64 1985 254080 X Y + scaleMean 128 1921 245888 X Y : ℝ) : EReal) := by
  rw [blockOut_value m c X Y hX hY t0_0, blockOut_value m c X Y hX hY t0_1]
  exact (EReal.coe_add _ _).symm.trans (congrArg (fun z : ℝ => (z : EReal)) (blockSums_eq X Y))

end Cert.KernelIdeal.RunValue

end
-- ==== Proof.LibFiniteDecode.lean ====
/-
  "Every entry has absolute value below +∞" read as "every entry is a real".

  A precondition that an array is finite is printed as an all-reduce by "and" of the comparison |a| < +∞ against the
  word of +∞. On the extended reals |x| < +∞ says x is neither infinity, that is, x is a real. The lemma below takes one
  such conjunct — the all-reduce equal to 1 — to "every entry of `a` is real", for an array of any shape reduced over all
  its axes.
-/
import Idealize.ShloMosaic.PureOps.Ideal
import Idealize.ShloMosaic.Lib.ReduceAll
import Idealize.ShloMosaic.Lib.ValueIdx

noncomputable section

namespace Cert.LibFiniteDecode

open Idealize.ShloMosaic Idealize.ShloMosaic.ValueIdx

/-- The scalar shape has one index. -/
instance : Subsingleton (⟨0, ![]⟩ : Shape).Idx := ⟨fun a b => funext fun d => d.elim0⟩

/-- The word of +∞ denotes the top of the extended reals. -/
theorem ofBits_inf : Ideal.ofBits .f32 0x7F800000#32 = (⊤ : EReal) := by
  simp [Ideal.ofBits, Ideal.ieee]

/-- An extended real whose absolute value is below +∞ is a real. -/
theorem real_of_abs_lt (x : EReal) (h : max x (-x) < ⊤) : ∃ r : ℝ, x = ((r : ℝ) : EReal) := by
  induction x using EReal.rec with
  | bot => simp at h
  | coe r => exact ⟨r, rfl⟩
  | top => simp at h

/-- One conjunct of a finiteness precondition: an all-reduce by "and" of the comparison |a| < +∞ that is 1 makes every
    entry of `a` a real. -/
theorem real_of_all {s : Shape} {axes : List (Fin s.rank)} (a : FVec Ideal s .f32)
    (hb : (⟨0, ![]⟩ : Shape).BroadcastsInDim s ![]) (hred : s.ReducesTo axes ⟨0, ![]⟩) (hu : 0 < (⟨0, ![]⟩ : Shape).numel)
    (e : Host.reduce IntOp.andi (cmpf .olt (Host.absf a) (broadcastInDim s ![] hb (constant ⟨0, ![]⟩ .f32 0x7F800000#32)))
      (constantI ⟨0, ![]⟩ 1 1#1) hred hu ix0 = 1#1) (i : s.Idx) : ∃ r : ℝ, a i = ((r : ℝ) : EReal) := by
  have h := Host.reduce_andi_all _ _ hred hu ix0 e i
  have h' : Ideal.cmp .olt (max (a i) (-(a i))) (Ideal.ofBits .f32 0x7F800000#32) = 1#1 := h
  rw [ofBits_inf] at h'
  refine real_of_abs_lt (a i) ?_
  unfold Ideal.cmp at h'
  by_contra hn
  simp [hn] at h'

end Cert.LibFiniteDecode

end
-- ==== Proof.FiniteInputs.lean ====
/-
  The precondition read: every entry of each argument array is a real number.

  The precondition is the conjunction of two statements "every entry of the array has absolute value below +∞", one
  per argument. On the extended reals that says each entry is a real.
-/
import proofs.«110521_j60129542144534_2_alg».proof.Pre_finite_inputs
import proofs.«110521_j60129542144534_2_alg».proof.Proof.Gen.Pre_finite_inputs
import proofs.«110521_j60129542144534_2_alg».proof.Proof.LibFiniteDecode
import Idealize.ShloMosaic.Lib.Affine

noncomputable section

namespace Cert.FiniteInputs

open Idealize.ShloMosaic Idealize.ShloMosaic.ValueIdx Cert.Pre_finite_inputs Cert.Pre_finite_inputs.Gen

/-- Under the precondition every entry of both arrays is a real. -/
theorem real_entries (a0 a1 : FVec Ideal S64x2x2048 .f32)
    (h : Cert.Pre_finite_inputs.fn (F := Ideal) a0 a1 = fun _ => 1#1) :
    (∀ i, ∃ r : ℝ, a0 i = ((r : ℝ) : EReal)) ∧ (∀ i, ∃ r : ℝ, a1 i = ((r : ℝ) : EReal)) := by
  have h0 := congrFun h ix0
  dsimp only [Cert.Pre_finite_inputs.fn] at h0
  obtain ⟨e0, e1⟩ := IntOp.andi_eq_one.1 h0
  exact ⟨Cert.LibFiniteDecode.real_of_all a0 _ _ _ e0, Cert.LibFiniteDecode.real_of_all a1 _ _ _ e1⟩

/-- The same with the reals named, as sequences along the last axis extended by 0 past the end. -/
theorem real_rows (a0 : FVec Ideal S64x2x2048 .f32) (h : ∀ i, ∃ r : ℝ, a0 i = ((r : ℝ) : EReal)) :
    ∃ X : Fin 64 → Fin 2 → ℕ → ℝ, ∀ (g : Fin 64) (q : Fin 2) (j : Fin 2048), a0 (ix3 g q j) = ((X g q j.val : ℝ) : EReal) := by
  choose R hR using h
  refine ⟨fun g q j => if hj : j < 2048 then R (ix3 g q ⟨j, hj⟩) else 0, fun g q j => ?_⟩
  show a0 (ix3 g q j) = ((if hj : j.val < 2048 then R (ix3 g q ⟨j.val, hj⟩) else 0 : ℝ) : EReal)
  rw [dif_pos j.isLt]
  exact hR _

end Cert.FiniteInputs

end
-- ==== Proof.lean ====
/-
  A windowed-entropy profile loss: a Pallas kernel against its jnp reference, equal on the extended reals for finite inputs.

  For an input x and a target y of shape [64, 2, 2048] and each window width k ∈ {4, 8, 16, 32, 64, 128}, every row and
  every window position p carry H_k(x)(p) = Σ_i softmax(w)_i · log softmax(w)_i of the window w = x(p), …, x(p+k−1); the
  loss is Σ_k mean over rows and positions of |H_k(x) − H_k(y)|.

  THE REFERENCE gathers the windows, forms softmax and log-softmax by the row maximum, multiplies and sums, and divides
  each scale's total by the count 128 · W (W = 2049 − k).
  THE KERNEL never forms the windows: with S = Σ e^{w_i} and T = Σ w_i e^{w_i} one has H = T / S − log S, and the window
  sums of width 2k are those of width k added to themselves shifted by k, so seven slice-shift-add steps on e^{x} and
  x · e^{x} give every scale; each scale's row sums are weighted by the reciprocal of the count — the source's
  1.0 / (rows_total · W), a 32-bit word read here as that fraction — and accumulated; a grid of two points handles 64 rows
  each and the host adds the two partial totals.

  Why they agree, for finite inputs: every quantity is then a real number, softmax · log-softmax summed over a window is
  T / S − log S whatever shift is subtracted first (the shift cancels), the doubling steps are associativity and
  commutativity of +, x / D = x · (1 / D) for a nonzero real D, and finite real sums may be regrouped: the kernel's
  (block, row, scale) order and the reference's (scale, row pair, position) order add the same 128 × 6 row terms.
-/
import proofs.«110521_j60129542144534_2_alg».proof.Defs
import proofs.«110521_j60129542144534_2_alg».proof.Proof.Gen.Kernel
import proofs.«110521_j60129542144534_2_alg».proof.Proof.Gen.Kernel.Skeleton
import proofs.«110521_j60129542144534_2_alg».proof.Proof.Gen.Kernel.Launch
import proofs.«110521_j60129542144534_2_alg».proof.Proof.Gen.Kernel.Points
import proofs.«110521_j60129542144534_2_alg».proof.Proof.Gen.Kernel.Frame
import proofs.«110521_j60129542144534_2_alg».proof.Proof.Gen.KernelIdeal
import proofs.«110521_j60129542144534_2_alg».proof.Proof.Gen.KernelIdeal.Skeleton
import proofs.«110521_j60129542144534_2_alg».proof.Proof.Gen.KernelIdeal.Launch
import proofs.«110521_j60129542144534_2_alg».proof.Proof.Gen.KernelIdeal.Points
import proofs.«110521_j60129542144534_2_alg».proof.Proof.Gen.KernelIdeal.Frame
import proofs.«110521_j60129542144534_2_alg».proof.Proof.Gen.ReferenceIdeal
import proofs.«110521_j60129542144534_2_alg».proof.Proof.Gen.Pre_finite_inputs
import proofs.«110521_j60129542144534_2_alg».proof.Proof.RefRead
import proofs.«110521_j60129542144534_2_alg».proof.Proof.RefValue
import proofs.«110521_j60129542144534_2_alg».proof.Proof.KernelResult
import proofs.«110521_j60129542144534_2_alg».proof.Proof.FiniteInputs
import Idealize.ShloMosaic.PureOps.IdealRules
import Idealize.ShloMosaic.Adequacy
import Idealize.ShloMosaic.Init

noncomputable section

namespace Cert.Proof

open Idealize.ShloMosaic Idealize.ShloMosaic.TcCoe Idealize.SL.Sem Cert.Entropy

/-- The kernel as printed runs, and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The six named weights: each word is, at the ideal values, the reciprocal 1 / (128 · W) the table gives it. -/
theorem preserves : Cert.preserves_Kernel_KernelIdeal :=
  ⟨IdealRules.named_const.statement Cert.KernelIdeal.κ "inv_261760" .f32 0x36803012#32 ((1 / 261760 : ℝ) : EReal) rfl,
   IdealRules.named_const.statement Cert.KernelIdeal.κ "inv_261248" .f32 0x36807062#32 ((1 / 261248 : ℝ) : EReal) rfl,
   IdealRules.named_const.statement Cert.KernelIdeal.κ "inv_260224" .f32 0x3680F1C5#32 ((1 / 260224 : ℝ) : EReal) rfl,
   IdealRules.named_const.statement Cert.KernelIdeal.κ "inv_258176" .f32 0x3681F7A0#32 ((1 / 258176 : ℝ) : EReal) rfl,
   IdealRules.named_const.statement Cert.KernelIdeal.κ "inv_254080" .f32 0x36840FFE#32 ((1 / 254080 : ℝ) : EReal) rfl,
   IdealRules.named_const.statement Cert.KernelIdeal.κ "inv_245888" .f32 0x36887657#32 ((1 / 245888 : ℝ) : EReal) rfl⟩

/-- At the ideal values, from memories agreeing on the two arguments, both programs end with the sum of the six scale
    terms of the arguments' real entries. -/
theorem algebraic : Cert.algebraic_KernelIdeal_ReferenceIdeal := by
  intro m ρ m' ρ' hpre hagree
  have hreal := fun c => Cert.FiniteInputs.real_entries _ _ (hpre c)
  choose X hX using fun c => Cert.FiniteInputs.real_rows _ (hreal c).1
  choose Y hY using fun c => Cert.FiniteInputs.real_rows _ (hreal c).2
  refine ⟨fun c => fun _ => ((scaleMean 4 2045 261760 (X c) (Y c) + scaleMean 8 2041 261248 (X c) (Y c)
      + scaleMean 16 2033 260224 (X c) (Y c) + scaleMean 32 2017 258176 (X c) (Y c)
      + scaleMean 64 1985 254080 (X c) (Y c) + scaleMean 128 1921 245888 (X c) (Y c) : ℝ) : EReal), ?_, ?_⟩
  · refine (θ_run (Cert.KernelIdeal.defs (F := Ideal)) _ _).mono (fun r h c => ⟨(h c).1.trans ?_, (h c).2⟩)
      (Cert.KernelIdeal.RunValue.run_value (F := Ideal) m ρ)
    funext _
    exact Cert.KernelIdeal.RunValue.result_value m c (X c) (Y c) (hX c) (hY c)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v367_eq, (hagree c).1, (hagree c).2]
    funext i
    exact Cert.ReferenceIdeal.RefValue.result _ _ (X c) (Y c) (hX c) (hY c) i

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
